-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S2048x2048 : Shape := ⟨2, ![2048, 2048]⟩
abbrev S3x128x128 : Shape := ⟨3, ![3, 128, 128]⟩
abbrev S128x2048 : Shape := ⟨2, ![128, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_arg4 : FVec F S128x2048 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  main_v23

def fn {F : FTy → Type} [FloatOps F] (main_arg0 : FVec F S8x2048x128 .f32) (main_arg1 : FVec F S2048x2048 .f32) (main_arg2 : FVec F S3x128x128 .f32) (main_arg3 : FVec F S128x2048 .f32) (main_arg4 : FVec F S128x2048 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_v13 main_v16
-- ==== Kernel.lean ====
abbrev S8x2048x128 : Shape := ⟨3, ![8, 2048, 128]⟩
abbrev S2048x2048 : Shape := ⟨2, ![2048, 2048]⟩
abbrev S3x128x128 : Shape := ⟨3, ![3, 128, 128]⟩
abbrev S128x2048 : Shape := ⟨2, ![128, 2048]⟩
abbrev S_ : Shape := ⟨0, ![]⟩
abbrev S1x128x128 : Shape := ⟨3, ![1, 128, 128]⟩
abbrev S128x128 : Shape := ⟨2, ![128, 128]⟩
abbrev S8x2048x2048 : Shape := ⟨3, ![8, 2048, 2048]⟩
abbrev S1x2048x128 : Shape := ⟨3, ![1, 2048, 128]⟩
abbrev S128x256 : Shape := ⟨2, ![128, 256]⟩
abbrev S1x2048x256 : Shape := ⟨3, ![1, 2048, 256]⟩
abbrev S2048x128 : Shape := ⟨2, ![2048, 128]⟩
abbrev S256x128 : Shape := ⟨2, ![256, 128]⟩
abbrev S2048x256 : Shape := ⟨2, ![2048, 256]⟩
abbrev S256 : Shape := ⟨1, ![256]⟩
abbrev S1x256 : Shape := ⟨2, ![1, 256]⟩
abbrev S2x128x128 : Shape := ⟨3, ![2, 128, 128]⟩
abbrev S1x2048x2048 : Shape := ⟨3, ![1, 2048, 2048]⟩

abbrev nBuf : Space → Nat
  | .hbm => 20
  | .vmem => 23
  | .smem => 0
  | _ => 0

abbrev bufTy : (tb : Table) → Fin (tcTables nBuf tb) → BufTy
  | .hbm, ⟨0, _⟩ => ⟨S8x2048x128, .f32⟩
  | .hbm, ⟨1, _⟩ => ⟨S2048x2048, .f32⟩
  | .hbm, ⟨2, _⟩ => ⟨S3x128x128, .f32⟩
  | .hbm, ⟨3, _⟩ => ⟨S128x2048, .f32⟩
  | .hbm, ⟨4, _⟩ => ⟨S128x2048, .f32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .f32⟩
  | .hbm, ⟨12, _⟩ => ⟨S2048x2048, .f32⟩
  | .hbm, ⟨13, _⟩ => ⟨S1x128x128, .f32⟩
  | .hbm, ⟨14, _⟩ => ⟨S128x128, .f32⟩
  | .hbm, ⟨15, _⟩ => ⟨S8x2048x2048, .f32⟩
  | .hbm, ⟨16, _⟩ => ⟨S8x2048x2048, .bf16⟩
  | .hbm, ⟨17, _⟩ => ⟨S8x2048x128, .f32⟩
  | .hbm, ⟨18, _⟩ => ⟨S2x128x128, .f32⟩
  | .hbm, ⟨19, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S128x256, .f32⟩
  | .local _ .vmem, ⟨4, _⟩ => ⟨S128x256, .f32⟩
  | .local _ .vmem, ⟨5, _⟩ => ⟨S128x2048, .f32⟩
  | .local _ .vmem, ⟨6, _⟩ => ⟨S2048x2048, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .bf16⟩
  | .local _ .vmem, ⟨10, _⟩ => ⟨S1x2048x256, .bf16⟩
  | .local _ .vmem, ⟨11, _⟩ => ⟨S1x2048x128, .f32⟩
  | .local _ .vmem, ⟨12, _⟩ => ⟨S1x2048x128, .f32⟩
  | .local _ .vmem, ⟨13, _⟩ => ⟨S2048x128, .f32⟩
  | .local _ .vmem, ⟨14, _⟩ => ⟨S1x2048x2048, .bf16⟩
  | .local _ .vmem, ⟨15, _⟩ => ⟨S1x2048x2048, .bf16⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S2x128x128, .f32⟩
  | .local _ .vmem, ⟨21, _⟩ => ⟨S1x2048x128, .f32⟩
  | .local _ .vmem, ⟨22, _⟩ => ⟨S1x2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v6 : Index := Scalar.indexCast v4
  let c0_2 : Index := 0#32
  ![v6.toNat, 0]
def k0_off2 (i : grid0.Coords) : Fin 2 → Nat :=
  let c0_8 : Index := 0#32
  let arg1 : BitVec 32 := BitVec.ofNat 32 (i 1).val
  let c256_i32 : BitVec 32 := 256#32
  let v3 : BitVec 32 := Scalar.muli arg1 c256_i32
  let v4 : BitVec 32 := v3
  let v16 : Index := Scalar.indexCast v4
  ![0, v16.toNat]
def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_19 : BitVec 32 := 0#32
  let v45 : BitVec 1 := Scalar.cmpi .ne v44 c0_i32_19
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S2048x2048 : S_.BroadcastsInDim S2048x2048 (![] : Fin 0 → Fin S2048x2048.rank)
  slices_S3x128x128_S1x128x128_0_0_0 : S3x128x128.Slices ![0, 0, 0] S1x128x128
  shapeCasts_S1x128x128_S128x128 : S1x128x128.ShapeCasts S128x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  h_S256x128 : 0 < S256x128.numel
  inb_S128x256_S128x256_0_0 : ∀ a, (![0, 0] : Fin 2 → Nat) a + S128x256.size a ≤ S128x256.size a
  h_S128x256 : 0 < S128x256.numel
  inb_S128x2048_S128x2048_0_0 : ∀ a, (![0, 0] : Fin 2 → Nat) a + S128x2048.size a ≤ S128x2048.size a
  h_S128x2048 : 0 < S128x2048.numel
  h_S2048x256 : 0 < S2048x256.numel
  shapeCasts_S2048x256_S2048x256 : S2048x256.ShapeCasts S2048x256
  reduces_S2048x256_S256 : S2048x256.Reduces [0] S256
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  shapeCasts_S2048x128_S1x2048x128 : S2048x128.ShapeCasts S1x2048x128
  slices_S3x128x128_S2x128x128_1_0_0 : S3x128x128.Slices ![1, 0, 0] S2x128x128
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S2x128x128_S1x128x128_0_0_0 : ∀ a, (![0, 0, 0] : Fin 3 → Nat) a + S1x128x128.size a ≤ S2x128x128.size a
  h_S1x128x128 : 0 < S1x128x128.numel
  inb_S2x128x128_S1x128x128_1_0_0 : ∀ a, (![1, 0, 0] : Fin 3 → Nat) a + S1x128x128.size a ≤ S2x128x128.size a
  dot_S2048x128_S128x128_S2048x128_1_0_0_1_n_n_wf : DotDims.WF S2048x128 S128x128 S2048x128 [1] [0] [0] [1] [] []
  dot_S2048x128_S128x256_S2048x256_1_0_0_1_n_n_wf : DotDims.WF S2048x128 S128x256 S2048x256 [1] [0] [0] [1] [] []
  dot_S128x2048_S256x128_S2048x256_0_1_1_0_n_n_wf : DotDims.WF S128x2048 S256x128 S2048x256 [0] [1] [1] [0] [] []
  dot_S2048x2048_S2048x128_S2048x128_0_0_1_1_n_n_wf : DotDims.WF S2048x2048 S2048x128 S2048x128 [0] [0] [1] [1] [] []
  hrank0 : 0 < grid0.rank
  k0_mult1_dvd : ∀ i : grid0.Coords, 256 ∣ (k0_mult1 i).toNat
  k0_off1_inb : ∀ i : grid0.Coords, ∀ a, (k0_off1 i) a + S256x128.size a ≤ S2048x128.size a
  k0_off2_inb : ∀ i : grid0.Coords, ∀ a, (k0_off2 i) a + S2048x256.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x2048.size a
  hwx0_2 : ∀ i : grid0.Coords, EltTy.bits .f32 = 32 ∨ (Rect.block (s := S128x2048) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .f32 = 32 ∨ (Rect.block (s := S2048x2048) S2048x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x2048.size a
  hwx0_5 : ∀ i : grid0.Coords, EltTy.bits .f32 = 32 ∨ (Rect.block (s := S8x2048x2048) S1x2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S8x2048x2048.size a
  hwx0_6 : ∀ i : grid0.Coords, EltTy.bits .bf16 = 32 ∨ (Rect.block (s := S8x2048x2048) S1x2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S8x2048x128.size a
  hwx0_7 : ∀ i : grid0.Coords, EltTy.bits .f32 = 32 ∨ (Rect.block (s := S8x2048x128) S1x2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x2048.size a ≤ S8x2048x2048.size a
  hwx1_0 : ∀ i : grid1.Coords, EltTy.bits .bf16 = 32 ∨ (Rect.block (s := S8x2048x2048) S1x2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .f32 = 32 ∨ (Rect.block (s := S8x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .f32 = 32 ∨ (Rect.block (s := S8x2048x128) S1x2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128x128.size a ≤ S2x128x128.size a
  hwx1_3 : ∀ i : grid1.Coords, EltTy.bits .f32 = 32 ∨ (Rect.block (s := S2x128x128) S2x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x128.size a ≤ S8x2048x128.size a
  hwx1_4 : ∀ i : grid1.Coords, EltTy.bits .f32 = 32 ∨ (Rect.block (s := S8x2048x128) S1x2048x128.size (cc1_transform_4 i) (hinb1_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S128x2048_S256x128_S2048x256_0_1_1_0_n_n : DotDims S128x2048 S256x128 S2048x256 where
  lhsContracting := [0]
  rhsContracting := [1]
  lhsNonContracting := [1]
  rhsNonContracting := [0]
  lhsBatch := []
  rhsBatch := []
  wf := dot_S128x2048_S256x128_S2048x256_0_1_1_0_n_n_wf
def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1x2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1x2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S1x2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v9_1) S1x2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S2048x2048 : Shape := ⟨2, ![2048, 2048]⟩
abbrev S3x128x128 : Shape := ⟨3, ![3, 128, 128]⟩
abbrev S128x2048 : Shape := ⟨2, ![128, 2048]⟩
abbrev S_ : Shape := ⟨0, ![]⟩
abbrev S1x128x128 : Shape := ⟨3, ![1, 128, 128]⟩
abbrev S128x128 : Shape := ⟨2, ![128, 128]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S2048x2048, .f32⟩
  | .hbm, ⟨2, _⟩ => ⟨S3x128x128, .f32⟩
  | .hbm, ⟨3, _⟩ => ⟨S128x2048, .f32⟩
  | .hbm, ⟨4, _⟩ => ⟨S128x2048, .f32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x128x128, .f32⟩
  | .hbm, ⟨15, _⟩ => ⟨S128x128, .f32⟩
  | .hbm, ⟨16, _⟩ => ⟨S8x2048x128, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S1x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x1x2048, .f32⟩
  | .hbm, ⟨42, _⟩ => ⟨S8x2048x2048, .f32⟩
  | .hbm, ⟨43, _⟩ => ⟨S8x2048x2048, .f32⟩
  | .hbm, ⟨44, _⟩ => ⟨S1x2048x2048, .f32⟩
  | .hbm, ⟨45, _⟩ => ⟨S8x2048x2048, .f32⟩
  | .hbm, ⟨46, _⟩ => ⟨S8x2048x2048, .f32⟩
  | .hbm, ⟨47, _⟩ => ⟨S8x2048x128, .f32⟩
  | .hbm, ⟨48, _⟩ => ⟨S1x128x128, .f32⟩
  | .hbm, ⟨49, _⟩ => ⟨S128x128, .f32⟩
  | .hbm, ⟨50, _⟩ => ⟨S8x2048x128, .f32⟩
  | .hbm, ⟨51, _⟩ => ⟨S8x2048x128, .f32⟩
  | .hbm, ⟨52, _⟩ => ⟨S8x2048x2048, .f32⟩
  | .hbm, ⟨53, _⟩ => ⟨S8x2048x128, .f32⟩
  | .hbm, ⟨54, _⟩ => ⟨S1x128x128, .f32⟩
  | .hbm, ⟨55, _⟩ => ⟨S128x128, .f32⟩
  | .hbm, ⟨56, _⟩ => ⟨S8x2048x128, .f32⟩
  | .hbm, ⟨57, _⟩ => ⟨S8x2048x128, .f32⟩
  | .hbm, ⟨58, _⟩ => ⟨S8x2048x2048, .f32⟩
  | .hbm, ⟨59, _⟩ => ⟨S_, .f32⟩
  | .hbm, ⟨60, _⟩ => ⟨S8x2048x128, .f32⟩
  | .hbm, ⟨61, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_cst : Ref sig .tc := ⟨.hbm, 59, rfl⟩
abbrev main_call0_v0 : Ref sig .tc := ⟨.hbm, 60, rfl⟩
abbrev main_v48 : Ref sig .tc := ⟨.hbm, 61, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  slices_S3x128x128_S1x128x128_0_0_0 : S3x128x128.Slices ![0, 0, 0] S1x128x128
  shapeCasts_S1x128x128_S128x128 : S1x128x128.ShapeCasts S128x128
  transposes_S8x2048x2048_S8x2048x2048_0_2_1 : S8x2048x2048.Transposes [0, 2, 1] S8x2048x2048
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  slices_S3x128x128_S1x128x128_1_0_0 : S3x128x128.Slices ![1, 0, 0] S1x128x128
  slices_S3x128x128_S1x128x128_2_0_0 : S3x128x128.Slices ![2, 0, 0] S1x128x128
  bcast_S_S8x2048x128 : S_.BroadcastsInDim S8x2048x128 (![] : Fin 0 → Fin S8x2048x128.rank)
  dot_S8x2048x128_S128x128_S8x2048x128_2_0_01_1_n_n_wf : DotDims.WF S8x2048x128 S128x128 S8x2048x128 [2] [0] [0, 1] [1] [] []
  dot_S8x2048x128_S128x2048_S8x2048x2048_2_0_01_1_n_n_wf : DotDims.WF S8x2048x128 S128x2048 S8x2048x2048 [2] [0] [0, 1] [1] [] []
  dot_S8x2048x2048_S8x2048x128_S8x2048x128_1_1_2_2_0_0_wf : DotDims.WF S8x2048x2048 S8x2048x128 S8x2048x128 [1] [1] [2] [2] [0] [0]
  dot_S8x2048x2048_S8x2048x2048_S8x2048x2048_2_1_1_2_0_0_wf : DotDims.WF S8x2048x2048 S8x2048x2048 S8x2048x2048 [2] [1] [1] [2] [0] [0]

variable [Facts₀]

def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf
def dot_S8x2048x128_S128x2048_S8x2048x2048_2_0_01_1_n_n : DotDims S8x2048x128 S128x2048 S8x2048x2048 where
  lhsContracting := [2]
  rhsContracting := [0]
  lhsNonContracting := [0, 1]
  rhsNonContracting := [1]
  lhsBatch := []
  rhsBatch := []
  wf := dot_S8x2048x128_S128x2048_S8x2048x2048_2_0_01_1_n_n_wf
def dot_S8x2048x2048_S8x2048x128_S8x2048x128_1_1_2_2_0_0 : DotDims S8x2048x2048 S8x2048x128 S8x2048x128 where
  lhsContracting := [1]
  rhsContracting := [1]
  lhsNonContracting := [2]
  rhsNonContracting := [2]
  lhsBatch := [0]
  rhsBatch := [0]
  wf := dot_S8x2048x2048_S8x2048x128_S8x2048x128_1_1_2_2_0_0_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.KFr0Base.lean ====
/- Region 0 (the attention kernel, grid 8 × 8 of a batch element b and a tile j of 256 columns): the body's two branch conditions, where its windows are idle, and the memrefs it is called with.
   The body branches twice on the tile coordinate: at j = 0 it recomputes the scratch f = x_b · w_0, at j = 7 it copies
   the scratch into the resident f0 block; the f0 window is idle at every other tile and written back only after j = 7. -/
import proofs.«104206_j73323681677635_2_alg».proof.Proof.Gen.Kernel.Launch
import proofs.«104206_j73323681677635_2_alg».proof.Proof.Gen.Kernel.Skeleton
import proofs.«104206_j73323681677635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two branch conditions, from the grid coordinates -/

/-- The first branch is taken at tile j = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch is taken at tile j = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from tile 7 the f0 window is idle and not written back; at tile 7 it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
/-- The scratch: a whole scoped buffer of the kernel's own, carried from one grid point to the next. -/
abbrev scM0 : Memref sig .tc .vmem S2048x128 .f32 := Memref.whole cc0_scratch0
abbrev VS0 : View sig .tc .vmem S2048x128 .f32 := scM0.view
/-- One staging buffer of each output window, through which its contents are stated. -/
abbrev VO0_5 : View sig .tc .vmem S1x2048x256 .f32 := (Memref.whole cc0_stg5_0 : Memref sig .tc .vmem S1x2048x256 .f32).view
abbrev VO0_6 : View sig .tc .vmem S1x2048x256 .bf16 := (Memref.whole cc0_stg6_0 : Memref sig .tc .vmem S1x2048x256 .bf16).view
abbrev VO0_7 : View sig .tc .vmem S1x2048x128 .f32 := (Memref.whole cc0_stg7_0 : Memref sig .tc .vmem S1x2048x128 .f32).view

/-- The class invariant, with the scratch singled out of the scoped rest: the scratch owned at some contents, the
    other scoped buffers (region 1's staging buffers) at some contents, the generator register at some state. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ restOf0 (F := F) c) ∗ (∃ r, prngReg c r)) := by
  unfold Pipeline.ΦA restOf0; rw [scopedRest0_eq]; simp only [scM0, owns_whole]; try rfl

end Cert.Kernel.Fr

end
-- ==== Proof.KFr0RunA.lean ====
/- Region 0's body at tile j = 0: the scratch is recomputed, the f0 block left alone. On whole staging memrefs, the inputs at their contents, the body runs to the
   continuation holding the inputs as they were and each buffer it stores into with the stores' pieces written; the
   pieces are found by running the body. -/
import proofs.«104206_j73323681677635_2_alg».proof.Proof.KFr0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) :
    Σ' (L5 : List (View.Piece (Elt F) S1x2048x256 .f32)), Σ' (L6 : List (View.Piece (Elt F) S1x2048x256 .bf16)), { LS0 : List (View.Piece (Elt F) S2048x128 .f32) //
      ∀ (xi7 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi7 E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.Kernel.Fr

end
-- ==== Proof.KFr0RunB.lean ====
/- Region 0's body at a tile 0 < j < 7: the scratch only read, the f0 block left alone. On whole staging memrefs, the inputs at their contents, the body runs to the
   continuation holding the inputs as they were and each buffer it stores into with the stores' pieces written; the
   pieces are found by running the body. -/
import proofs.«104206_j73323681677635_2_alg».proof.Proof.KFr0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    Σ' (L5 : List (View.Piece (Elt F) S1x2048x256 .f32)), { L6 : List (View.Piece (Elt F) S1x2048x256 .bf16) //
      ∀ (xi7 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact HS0

end Cert.Kernel.Fr

end
-- ==== Proof.KFr0RunC.lean ====
/- Region 0's body at tile j = 7: the scratch only read, the f0 block stored. On whole staging memrefs, the inputs at their contents, the body runs to the
   continuation holding the inputs as they were and each buffer it stores into with the stores' pieces written; the
   pieces are found by running the body. -/
import proofs.«104206_j73323681677635_2_alg».proof.Proof.KFr0Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    Σ' (L5 : List (View.Piece (Elt F) S1x2048x256 .f32)), Σ' (L6 : List (View.Piece (Elt F) S1x2048x256 .bf16)), { L7 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS0

end Cert.Kernel.Fr

end
-- ==== Proof.KFr0Runs.lean ====
/- Region 0's body in its three cases, gathered. -/
import proofs.«104206_j73323681677635_2_alg».proof.Proof.KFr0RunA
import proofs.«104206_j73323681677635_2_alg».proof.Proof.KFr0RunB
import proofs.«104206_j73323681677635_2_alg».proof.Proof.KFr0RunC
-- ==== Proof.KFrData0Defs.lean ====
/- Region 0: what each window's staging buffer holds after the body at each grid point — the inputs their blocks, the
   two attention outputs what the point's case stored, the f0 block what tile 7 stored — and what the scratch holds along
   a row of the grid (f = x_b · w_0, computed at tile 0). -/
import proofs.«104206_j73323681677635_2_alg».proof.Proof.KFr0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case's stores leave: the found pieces cover their buffers; read back, they are the contents -/
theorem cover0_A_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S1x2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x2048x256.size (by sl_kernel_rfl) y
def out0_A_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S1x2048x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)
theorem cover0_A_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S1x2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x2048x256.size (by sl_kernel_rfl) y
def out0_A_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S1x2048x256 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)
theorem cover0_sA (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S2048x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S2048x128.size (by sl_kernel_rfl) y
def out0_sA (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S2048x128 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).1 S1x2048x256.size (by sl_kernel_rfl) y
def out0_B_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1)
theorem cover0_B_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.1 S1x2048x256.size (by sl_kernel_rfl) y
def out0_B_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1)
theorem cover0_C_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).1 S1x2048x256.size (by sl_kernel_rfl) y
def out0_C_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0).1)
theorem cover0_C_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.1 S1x2048x256.size (by sl_kernel_rfl) y
def out0_C_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0).2.1)
theorem cover0_C_7 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.2.1 S1x2048x128.size (by sl_kernel_rfl) y
def out0_C_7 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 xs0).2.2.1)

/-! ## The scratch during a row of the grid -/

/-- The first point of t's row: tile 0 of the same batch element. -/
def row0 (t : Fin cfg0.N) : Fin cfg0.N :=
  ⟨8 * (t.val / 8), by
    have hN : t.val < 64 := lt_of_lt_of_eq t.isLt (show cfg0.N = 64 from N_0)
    exact lt_of_lt_of_eq (by omega : 8 * (t.val / 8) < 64) (show (64 : ℕ) = cfg0.N from N_0.symm)⟩
theorem row0_val (t : Fin cfg0.N) : (row0 t).val = 8 * (t.val / 8) := rfl
theorem row0_mod (t : Fin cfg0.N) : (row0 t).val % 8 = 0 := by rw [row0_val]; omega
theorem row0_self (t : Fin cfg0.N) (h : t.val % 8 = 0) : row0 t = t := Fin.ext (by rw [row0_val]; omega)
theorem row0_pred (t : Fin cfg0.N) (h : t.val % 8 ≠ 0) (hlt : t.val - 1 < cfg0.N) : row0 ⟨t.val - 1, hlt⟩ = row0 t :=
  Fin.ext (by simp only [row0_val]; omega)

/-- What tile 0 of a row leaves in the scratch (f = x_b · w_0), as the pieces its run found, read back. -/
def scrAt (c : Dev nD) (r : Fin cfg0.N) (h0 : r.val % 8 = 0) : Vec F S2048x128 .f32 :=
  out0_sA c (grid0.coords r) (ms0_0 r) (hs0_0 r) (ms0_1 r) (hs0_1 r) (ms0_2 r) (hs0_2 r) (ms0_3 r) (hs0_3 r) (ms0_4 r) (hs0_4 r) (ms0_5 r) (hs0_5 r) (ms0_6 r) (hs0_6 r) (ms0_7 r) (hs0_7 r) scM0 (Memref.isWhole_whole _) ((hcond0_0 r).mpr h0) (fun h => by have := (hcond0_1 r).mp h; omega) (iblk0 V c 0 r) (iblk0 V c 1 r) (iblk0 V c 2 r) (iblk0 V c 3 r) (iblk0 V c 4 r)
theorem scrAt_congr (c : Dev nD) {r r' : Fin cfg0.N} (e : r = r') (h : r.val % 8 = 0) (h' : r'.val % 8 = 0) : scrAt V c r h = scrAt V c r' h' := by
  subst e; rfl
/-- The scratch's contents from tile 0 of t's row on. -/
def scr (c : Dev nD) (t : Fin cfg0.N) : Vec F S2048x128 .f32 := scrAt V c (row0 t) (row0_mod t)
theorem scr_self (c : Dev nD) (t : Fin cfg0.N) (h : t.val % 8 = 0) : scr V c t = scrAt V c t h := scrAt_congr V c (row0_self t h) _ _
theorem scr_pred (c : Dev nD) (t : Fin cfg0.N) (h : t.val % 8 ≠ 0) (hlt : t.val - 1 < cfg0.N) : scr V c ⟨t.val - 1, hlt⟩ = scr V c t :=
  scrAt_congr V c (row0_pred t h hlt) _ _

/-! ## What the output windows hold after each point -/
def after0_5 (c : Dev nD) (t : Fin cfg0.N) : Vec F S1x2048x256 .f32 :=
  if h0 : t.val % 8 = 0 then out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val % 8 = 7 then out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)
  else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)
def after0_6 (c : Dev nD) (t : Fin cfg0.N) : Vec F S1x2048x256 .bf16 :=
  if h0 : t.val % 8 = 0 then out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val % 8 = 7 then out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)
  else out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)
/-- The f0 block is stored at tile 7 only; elsewhere the window is idle and this value is never consulted. -/
def after0_7 (c : Dev nD) (t : Fin cfg0.N) : Vec F S1x2048x128 .f32 :=
  if h1 : t.val % 8 = 7 then out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => by have := (hcond0_0 t).mp h; omega) ((hcond0_1 t).mpr h1) (iblk0 V c 0 t) (iblk0 V c 1 t) (iblk0 V c 2 t) (iblk0 V c 3 t) (iblk0 V c 4 t) (scr V c t)
  else VO0_7.read (Elt F) VO0_7.junk

end Cert.Kernel.Fr

end
-- ==== Proof.KFrData0.lean ====
/- Region 0's proof data: what each window's staging buffer holds after the body at each grid point, the invariant
   carried between points (the scratch holds f = x_b · w_0 from tile 0 of a row to the row's end), and the body's obligation. -/
import proofs.«104206_j73323681677635_2_alg».proof.Proof.KFrData0Defs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant -/

/-- Before the first point the class's invariant; before point n + 1 the scratch at what point n's row computed. -/
def PhiS (c : Dev nD) : (n : ℕ) → n ≤ cfg0.N → sProp 𝕄
  | 0, _ => Pipeline.ΦA spec0 c
  | n + 1, hn => iprop(iprop(owns (c : Thread nD τ) scM0 fullShare (scr V c ⟨n, hn⟩) ∗ restOf0 c) ∗ (∃ r, prngReg c r))
theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (scr V c ⟨n, hn⟩) ∗ restOf0 c) ∗ (∃ r, prngReg c r)) := rfl
theorem PhiS_pos (c : Dev nD) (n : ℕ) (h : n ≤ cfg0.N) (hz : n ≠ 0) :
    PhiS V c n h = iprop(iprop(owns (c : Thread nD τ) scM0 fullShare (scr V c ⟨n - 1, by omega⟩) ∗ restOf0 c) ∗ (∃ r, prngReg c r)) := by
  cases n with
  | zero => exact absurd rfl hz
  | succ n => rfl
/-- At any point the invariant holds the scratch at SOME contents. -/
theorem PhiS_any (c : Dev nD) (n : ℕ) (h : n ≤ cfg0.N) :
    PhiS V c n h ⊢ iprop(iprop((∃ d, owns (c : Thread nD τ) scM0 fullShare d) ∗ restOf0 (F := F) c) ∗ (∃ r, prngReg c r)) := by
  cases n with
  | zero => rw [PhiS_zero V c 0 h rfl, PhiA0_eq]
  | succ n =>
    rw [PhiS_succ]
    iintro ⟨⟨HS0, Hr⟩, Hg⟩
    isplitl [HS0 Hr]
    · isplitl [HS0]
      · iexists _; iexact HS0
      iexact Hr
    iexact Hg

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => after0_5 V c t
    | ⟨6, _⟩ => after0_6 V c t
    | ⟨7, _⟩ => after0_7 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0_eq (c : Dev nD) (t : Fin cfg0.N) : (dat0 V c).after 0 t = iblk0 V c 0 t := by dsimp only [dat0]
theorem after0_1_eq (c : Dev nD) (t : Fin cfg0.N) : (dat0 V c).after 1 t = iblk0 V c 1 t := by dsimp only [dat0]
theorem after0_2_eq (c : Dev nD) (t : Fin cfg0.N) : (dat0 V c).after 2 t = iblk0 V c 2 t := by dsimp only [dat0]
theorem after0_3_eq (c : Dev nD) (t : Fin cfg0.N) : (dat0 V c).after 3 t = iblk0 V c 3 t := by dsimp only [dat0]
theorem after0_4_eq (c : Dev nD) (t : Fin cfg0.N) : (dat0 V c).after 4 t = iblk0 V c 4 t := by dsimp only [dat0]
theorem after0_5_eq (c : Dev nD) (t : Fin cfg0.N) : (dat0 V c).after 5 t = after0_5 V c t := by dsimp only [dat0]
theorem after0_6_eq (c : Dev nD) (t : Fin cfg0.N) : (dat0 V c).after 6 t = after0_6 V c t := by dsimp only [dat0]
theorem after0_7_eq (c : Dev nD) (t : Fin cfg0.N) : (dat0 V c).after 7 t = after0_7 V c t := by dsimp only [dat0]
theorem before0_0 (c : Dev nD) (t : Fin cfg0.N) (d) : (dat0 V c).before 0 t d = iblk0 V c 0 t :=
  before0_0_of V (dat0 V c) (A_eq0 V c 0) (after0_0_eq V c) t d
theorem before0_1 (c : Dev nD) (t : Fin cfg0.N) (d) : (dat0 V c).before 1 t d = iblk0 V c 1 t :=
  before0_1_of V (dat0 V c) (A_eq0 V c 1) (after0_1_eq V c) t d
theorem before0_2 (c : Dev nD) (t : Fin cfg0.N) (d) : (dat0 V c).before 2 t d = iblk0 V c 2 t :=
  before0_2_of V (dat0 V c) (A_eq0 V c 2) (after0_2_eq V c) t d
theorem before0_3 (c : Dev nD) (t : Fin cfg0.N) (d) : (dat0 V c).before 3 t d = iblk0 V c 3 t :=
  before0_3_of V (dat0 V c) (A_eq0 V c 3) (after0_3_eq V c) t d
theorem before0_4 (c : Dev nD) (t : Fin cfg0.N) (d) : (dat0 V c).before 4 t d = iblk0 V c 4 t :=
  before0_4_of V (dat0 V c) (A_eq0 V c 4) (after0_4_eq V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; t mod 8 says which case the point is in. At tile 0 the
    invariant hands over the scratch at whatever it holds and takes it back at what the run stored; at a later tile the
    scratch comes at what tile 0 of the same row stored, and goes back untouched; the f0 window is handed back
    untouched except at tile 7. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  simp only [Fin.eta]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0_eq]
  rw [show (dat0 V c).leavesExact 1 t = owns (c : Thread nD τ) (ms0_1 t) fullShare ((dat0 V c).after 1 t) from by
    unfold Dat.leavesExact; rw [liveAt0_1 t], after0_1_eq]
  rw [show (dat0 V c).leavesExact 2 t = owns (c : Thread nD τ) (ms0_2 t) fullShare ((dat0 V c).after 2 t) from by
    unfold Dat.leavesExact; rw [liveAt0_2 t], after0_2_eq]
  rw [show (dat0 V c).leavesExact 3 t = owns (c : Thread nD τ) (ms0_3 t) fullShare ((dat0 V c).after 3 t) from by
    unfold Dat.leavesExact; rw [liveAt0_3 t], after0_3_eq]
  rw [show (dat0 V c).leavesExact 4 t = owns (c : Thread nD τ) (ms0_4 t) fullShare ((dat0 V c).after 4 t) from by
    unfold Dat.leavesExact; rw [liveAt0_4 t], after0_4_eq]
  rw [show (dat0 V c).leavesExact 5 t = owns (c : Thread nD τ) (ms0_5 t) fullShare ((dat0 V c).after 5 t) from by
    unfold Dat.leavesExact; rw [liveAt0_5 t], after0_5_eq]
  rw [show (dat0 V c).leavesExact 6 t = owns (c : Thread nD τ) (ms0_6 t) fullShare ((dat0 V c).after 6 t) from by
    unfold Dat.leavesExact; rw [liveAt0_6 t], after0_6_eq]
  by_cases h0 : t.val % 8 = 0
  · have h1 : ¬ t.val % 8 = 7 := by omega
    rw [Dat.leavesExact_idle (dat0 V c) 7 t (idleAt0_7 t (fun h => h1 ((hcond0_1 t).mp h))) (noFlush0_7 t (fun h => h1 ((hcond0_1 t).mp h)))]
    rw [scr_self V c t h0]
    unfold after0_5 after0_6
    simp only [dif_pos h0]
    unfold scrAt out0_A_5 out0_A_6 out0_sA; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, Hrest⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, H7, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (cover0_sA c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    iexists _; iexact H7
  · have hz : t.val ≠ 0 := fun h => h0 (by rw [h])
    rw [PhiS_castSucc V c t, PhiS_pos V c _ _ hz, scr_pred V c t h0]
    by_cases h1 : t.val % 8 = 7
    · rw [show (dat0 V c).leavesExact 7 t = owns (c : Thread nD τ) (ms0_7 t) fullShare ((dat0 V c).after 7 t) from by
        unfold Dat.leavesExact; rw [liveAt0_7 t ((hcond0_1 t).mpr h1)], after0_7_eq]
      unfold after0_5 after0_6 after0_7
      simp only [dif_neg h0, dif_pos h1]
      unfold out0_C_5 out0_C_6 out0_C_7; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, HS0⟩
      isplitl [HS0 Hrest Hg]
      · isplitl [HS0 Hrest]
        · isplitl [HS0]
          · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      unfold after0_5 after0_6
      simp only [dif_neg h0, dif_neg h1]
      unfold out0_B_5 out0_B_6; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, HS0⟩
      isplitl [HS0 Hrest Hg]
      · isplitl [HS0 Hrest]
        · isplitl [HS0]
          · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl, PhiA0_eq]
  exact PhiS_any V c _ _

end Cert.Kernel.Fr

end
-- ==== Proof.KFrData1.lean ====
/- The proof data of region 1: what each window's staging buffer holds after the body at each grid point, the
   invariant carried between points, and the body's obligation. -/
import proofs.«104206_j73323681677635_2_alg».proof.Proof.Gen.Kernel.Launch
import proofs.«104206_j73323681677635_2_alg».proof.Proof.Gen.Kernel.Skeleton
import proofs.«104206_j73323681677635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: an unfetched window's block
    index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: an unfetched window's block
    index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: an unfetched window's block
    index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: an unfetched window's block
    index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x2048x2048 := Rect.unit (s := S1x2048x2048) ![0, 0, 0] S1x2048x2048.size inb_S1x2048x2048_S1x2048x2048_0_0_0
abbrev r1_1 : Rect S1x2048x128 := Rect.unit (s := S1x2048x128) ![0, 0, 0] S1x2048x128.size inb_S1x2048x128_S1x2048x128_0_0_0
abbrev r1_2 : Rect S2x128x128 := Rect.unit (s := S2x128x128) ![0, 0, 0] S1x128x128.size inb_S2x128x128_S1x128x128_0_0_0
abbrev r1_3 : Rect S2x128x128 := Rect.unit (s := S2x128x128) ![1, 0, 0] S1x128x128.size inb_S2x128x128_S1x128x128_1_0_0

/-! ## What the body leaves in the output window's buffer -/

/-- Window 4's staging buffer after the body, from the four input windows' blocks: its one store, of the whole
    block, whose payload is computed from the whole blocks of windows 0, 1 and 2 and the two slabs of window 3. -/
def out1_4 (x0 : Vec F S1x2048x2048 .bf16) (x1 : Vec F S1x2048x128 .f32) (x2 : Vec F S1x2048x128 .f32) (x3 : Vec F S2x128x128 .f32) : Vec F S1x2048x128 .f32 :=
  View.canon [⟨r1_1, k1_pay1 (View.ld x0 r1_0) (View.ld x1 r1_1) (View.ld x3 r1_2) (View.ld x2 r1_1) (View.ld x3 r1_3)⟩]

/-- The one store tiles the buffer (checked by evaluation), so it covers it. -/
theorem cover1_4 (p0 : Vec F S1x2048x128 .f32) (y : S1x2048x128.Idx) :
    ∃ pc ∈ ([⟨r1_1, p0⟩] : List (View.Piece (Elt F) S1x2048x128 .f32)), y ∈ pc.1.set :=
  View.cover_of_tiled [⟨r1_1, p0⟩] S1x2048x128.size (by rfl) y

/-! ## The body's triple -/

set_option maxHeartbeats 1000000 in
/-- The kernel body on whole staging memrefs, the inputs' at read contents x0 … x3 and the output's at anything, runs to
    the continuation holding the inputs' as they were and the output's at out1_4 of the inputs'. -/
theorem sound_kernel1 (c : Dev nD) (E : Set ℕ) (i : grid1.Coords) (arg1 : Memref sig .tc .vmem S1x2048x2048 .bf16) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S2x128x128 .f32) (harg4 : arg4.IsWhole) (arg5 : Memref sig .tc .vmem S1x2048x128 .f32) (harg5 : arg5.IsWhole)
    (x0 : Vec F S1x2048x2048 .bf16) (x1 : Vec F S1x2048x128 .f32) (x2 : Vec F S1x2048x128 .f32) (x3 : Vec F S2x128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__hop_fused_kernel i arg1 harg1 arg2 harg2 arg3 harg3 arg4 harg4 arg5 harg5) K := by
  simp only [cc1__hop_fused_kernel_eq_skeleton]; unfold cc1__hop_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of region 1's pipeline on core c: the arrays as the region finds them; after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant at the first and after the last point is the class's own. -/
theorem hin1 (c : Dev nD) : (Pipeline.ΦA spec1 c : sProp 𝕄) ⊢ (dat1 V c).Φ 0 := by
  exact Entails.refl _

theorem hout1 (c : Dev nD) : (dat1 V c).Φ (Fin.last cfg1.N) ⊢ (Pipeline.ΦA spec1 c : sProp 𝕄) := by
  exact Entails.refl _

end Cert.Kernel.Fr

end
-- ==== Proof.KFrMainVals.lean ====
/- The buffer contents of one core at each boundary of the program's run: at launch, after the first stretch of host
   operations (where the first kernel region is entered), at that region's exit, after the second stretch (where the
   second region is entered), and at the second region's exit. Each is the previous one pushed through the stretch's
   operations, or with the region's arrays replaced by what its write-backs leave. The lemmas read these folds at the
   buffers the certificate speaks of: every argument array is never written; the results are output arrays. -/
import proofs.«104206_j73323681677635_2_alg».proof.Proof.KFrData0
import proofs.«104206_j73323681677635_2_alg».proof.Proof.KFrData1
import proofs.«104206_j73323681677635_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, by name -/

example : Pipeline.arrRef spec0 0 = main_arg0 := rfl
example : Pipeline.arrRef spec0 1 = main_v8 := rfl
example : Pipeline.arrRef spec0 2 = main_arg3 := rfl
example : Pipeline.arrRef spec0 3 = main_arg4 := rfl
example : Pipeline.arrRef spec0 4 = main_v6 := rfl
example : Pipeline.arrRef spec0 5 = main_v9_0 := rfl
example : Pipeline.arrRef spec0 6 = main_v9_1 := rfl
example : Pipeline.arrRef spec0 7 = main_v9_2 := rfl
example : Pipeline.arrRef spec1 0 = main_v9_1 := rfl
example : Pipeline.arrRef spec1 1 = main_arg0 := rfl
example : Pipeline.arrRef spec1 2 = main_v9_2 := rfl
example : Pipeline.arrRef spec1 3 = main_v10 := rfl
example : Pipeline.arrRef spec1 4 = main_v11 := rfl

/-! ## The contents at each boundary -/

/-- Core `c`'s buffers at launch. -/
abbrev W0 : Dev nD → Valuation τ sig (Elt F) := fun c b => (s₀ m ρ).mem ((c : Dev nD), b)
/-- After the first stretch of host operations: what the first region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the second region is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A buffer no stretch writes passes through it -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- An input window's array leaves the first region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array leaves the second region as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-! ## The argument arrays are never written: each boundary's contents at an argument are the launch memory's -/

theorem W1_arg0 (c : Dev nD) : W1 m ρ c (Proc.devRef .tc main_arg0) = m ((c : Thread nD τ).loc main_arg0) :=
  (W1_of m ρ c main_arg0 (by decide)).trans rfl
theorem W2_arg0 (c : Dev nD) : W2 m ρ c (Proc.devRef .tc main_arg0) = m ((c : Thread nD τ).loc main_arg0) :=
  (W2_in m ρ c 0 rfl).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_in m ρ c 1 rfl).trans (W3_arg0 m ρ c)

theorem W1_arg1 (c : Dev nD) : W1 m ρ c (Proc.devRef .tc main_arg1) = m ((c : Thread nD τ).loc main_arg1) :=
  (W1_of m ρ c main_arg1 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)

theorem W1_arg2 (c : Dev nD) : W1 m ρ c (Proc.devRef .tc main_arg2) = m ((c : Thread nD τ).loc main_arg2) :=
  (W1_of m ρ c main_arg2 (by decide)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)

theorem W1_arg3 (c : Dev nD) : W1 m ρ c (Proc.devRef .tc main_arg3) = m ((c : Thread nD τ).loc main_arg3) :=
  (W1_of m ρ c main_arg3 (by decide)).trans rfl
theorem W2_arg3 (c : Dev nD) : W2 m ρ c (Proc.devRef .tc main_arg3) = m ((c : Thread nD τ).loc main_arg3) :=
  (W2_in m ρ c 2 rfl).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)

theorem W1_arg4 (c : Dev nD) : W1 m ρ c (Proc.devRef .tc main_arg4) = m ((c : Thread nD τ).loc main_arg4) :=
  (W1_of m ρ c main_arg4 (by decide)).trans rfl
theorem W2_arg4 (c : Dev nD) : W2 m ρ c (Proc.devRef .tc main_arg4) = m ((c : Thread nD τ).loc main_arg4) :=
  (W2_in m ρ c 3 rfl).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)

/-! ## The result arrays and the second region's operands -/

/-- The second result is the second region's output array: what its write-backs leave. -/
theorem W4_v11 (c : Dev nD) : W4 m ρ c (Proc.devRef .tc main_v11) = (dat1 (V3 m ρ) c).arrAt 4 cfg1.N :=
  W4_arr m ρ c 4
/-- The first region's output arrays at its exit. -/
theorem W2_v9_0 (c : Dev nD) : W2 m ρ c (Proc.devRef .tc main_v9_0) = (dat0 (V1 m ρ) c).arrAt 5 cfg0.N := W2_arr m ρ c 5
theorem W2_v9_1 (c : Dev nD) : W2 m ρ c (Proc.devRef .tc main_v9_1) = (dat0 (V1 m ρ) c).arrAt 6 cfg0.N := W2_arr m ρ c 6
theorem W2_v9_2 (c : Dev nD) : W2 m ρ c (Proc.devRef .tc main_v9_2) = (dat0 (V1 m ρ) c).arrAt 7 cfg0.N := W2_arr m ρ c 7
/-- The first result is the first region's first output array, which nothing later writes. -/
theorem W4_v9_0 (c : Dev nD) : W4 m ρ c (Proc.devRef .tc main_v9_0) = (dat0 (V1 m ρ) c).arrAt 5 cfg0.N :=
  (W4_of_ne m ρ c main_v9_0 (by decide)).trans ((W3_of m ρ c main_v9_0 (by decide)).trans (W2_v9_0 m ρ c))
/-- The second region is entered with the first region's other two output arrays as it left them, -/
theorem V3_v9_1 (c : Dev nD) : V3 m ρ c main_v9_1 = (dat0 (V1 m ρ) c).arrAt 6 cfg0.N :=
  (W3_of m ρ c main_v9_1 (by decide)).trans (W2_v9_1 m ρ c)
theorem V3_v9_2 (c : Dev nD) : V3 m ρ c main_v9_2 = (dat0 (V1 m ρ) c).arrAt 7 cfg0.N :=
  (W3_of m ρ c main_v9_2 (by decide)).trans (W2_v9_2 m ρ c)
/-- the first argument as launched, -/
theorem V3_arg0 (c : Dev nD) : V3 m ρ c main_arg0 = m ((c : Thread nD τ).loc main_arg0) := W3_arg0 m ρ c
/-- and the second stretch's result as that stretch computes it from the first region's exit contents. -/
theorem V3_v10 (c : Dev nD) : V3 m ρ c main_v10 = StableHlo.after hostOps1 (W2 m ρ c) (Proc.devRef .tc main_v10) := rfl

/-! ## The first region's operands -/

theorem V1_arg0 (c : Dev nD) : V1 m ρ c main_arg0 = m ((c : Thread nD τ).loc main_arg0) := W1_arg0 m ρ c
theorem V1_arg3 (c : Dev nD) : V1 m ρ c main_arg3 = m ((c : Thread nD τ).loc main_arg3) := W1_arg3 m ρ c
theorem V1_arg4 (c : Dev nD) : V1 m ρ c main_arg4 = m ((c : Thread nD τ).loc main_arg4) := W1_arg4 m ρ c
theorem V1_v6 (c : Dev nD) : V1 m ρ c main_v6 = StableHlo.after hostOps0 (W0 m ρ c) (Proc.devRef .tc main_v6) := rfl
theorem V1_v8 (c : Dev nD) : V1 m ρ c main_v8 = StableHlo.after hostOps0 (W0 m ρ c) (Proc.devRef .tc main_v8) := rfl

end Cert.Kernel.Fr

end
-- ==== Proof.KFrMainSegs.lean ====
/- The two kernel regions as segments of the program's run, over one thread state: between two items a core holds every
   unscoped buffer whole at the boundary's contents, its generator register at some state, and owes nothing. -/
import proofs.«104206_j73323681677635_2_alg».proof.Proof.KFrMainVals

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over the pinned configuration of pipeline 0 unifies with the printed configuration
-- only when unification may unfold plain definitions in a metavariable's type
set_option backward.isDefEq.respectTransparency.types false in
/-- REGION 0 over the thread state: entered from every unscoped buffer at `W1`, left at `W2`. Its arrays are
    split out of the unscoped buffers and put back at the exit contents; the generator register and the scoped buffers
    no window stages go into the region's invariant at the first point and come back from it at the last; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    rw [show (pdats m ρ 0 c).Φ 0 = (dat0 (V1 m ρ) c).Φ 0 from rfl]
    iintro ⟨Hp, -, Hr⟩
    iapply h
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline 1 unifies with the printed configuration
-- only when unification may unfold plain definitions in a metavariable's type
set_option backward.isDefEq.respectTransparency.types false in
/-- REGION 1 over the thread state: entered from every unscoped buffer at `W3`, left at `W4`. Its arrays are
    split out of the unscoped buffers and put back at the exit contents; the generator register and the scoped buffers
    no window stages go into the region's invariant at the first point and come back from it at the last; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    rw [show (pdats m ρ 1 c).Φ 0 = (dat1 (V3 m ρ) c).Φ 0 from rfl]
    iintro ⟨Hp, -, Hr⟩
    iapply h
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Fr

end
-- ==== Proof.KFrMain.lean ====
/- The run of the whole program over its two kernel regions: every weakly fair execution from any memory with zero
   counters terminates, nothing faulting, and every final memory holds each unscoped buffer at the last boundary's
   contents. From it: the argument arrays end as launched, and the two result arrays hold what the regions' write-backs
   leave. -/
import proofs.«104206_j73323681677635_2_alg».proof.Proof.KFrMainSegs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments, and the launch -/

/-- The program's 4 segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and every final memory has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in the buffers the certificate speaks of -/

/-- The final memory at an unscoped TensorCore buffer is the last boundary's contents. -/
theorem run_at : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W4 m ρ c (Proc.devRef .tc b)) :=
  (θ_run defs _ _).mono (fun r h c b hb => h c _ (mem_uc b hb)) (run_main m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

/-- The run read at the two result arrays and the arguments: the results hold the last boundary's contents (what the
    regions' write-backs leave: `W4_v11`, `W4_v9_0`), the arguments end as launched. -/
theorem run_results : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_v9_0) = W4 m ρ c (Proc.devRef .tc main_v9_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v11 (by decide)),
     h c _ (mem_uc main_v9_0 (by decide)),
     (h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

end Cert.Kernel.Fr

end
-- ==== Proof.Fr0Base.lean ====
/- Region 0 (the attention kernel, grid 8 × 8 of a batch element b and a tile j of 256 columns): the body's two branch conditions, where its windows are idle, and the memrefs it is called with.
   The body branches twice on the tile coordinate: at j = 0 it recomputes the scratch f = x_b · w_0, at j = 7 it copies
   the scratch into the resident f0 block; the f0 window is idle at every other tile and written back only after j = 7. -/
import proofs.«104206_j73323681677635_2_alg».proof.Proof.Gen.KernelIdeal.Launch
import proofs.«104206_j73323681677635_2_alg».proof.Proof.Gen.KernelIdeal.Skeleton
import proofs.«104206_j73323681677635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two branch conditions, from the grid coordinates -/

/-- The first branch is taken at tile j = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch is taken at tile j = 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from tile 7 the f0 window is idle and not written back; at tile 7 it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .f32 := win0_7.stage (cfg0.slots t 7)
abbrev hs0_7 (t : Fin cfg0.N) : (ms0_7 t).IsWhole := hstage0_7 ((cfg0.slots t 7).cast nbuf0_7)
/-- The scratch: a whole scoped buffer of the kernel's own, carried from one grid point to the next. -/
abbrev scM0 : Memref sig .tc .vmem S2048x128 .f32 := Memref.whole cc0_scratch0
abbrev VS0 : View sig .tc .vmem S2048x128 .f32 := scM0.view
/-- One staging buffer of each output window, through which its contents are stated. -/
abbrev VO0_5 : View sig .tc .vmem S1x2048x256 .f32 := (Memref.whole cc0_stg5_0 : Memref sig .tc .vmem S1x2048x256 .f32).view
abbrev VO0_6 : View sig .tc .vmem S1x2048x256 .bf16 := (Memref.whole cc0_stg6_0 : Memref sig .tc .vmem S1x2048x256 .bf16).view
abbrev VO0_7 : View sig .tc .vmem S1x2048x128 .f32 := (Memref.whole cc0_stg7_0 : Memref sig .tc .vmem S1x2048x128 .f32).view

/-- The class invariant, with the scratch singled out of the scoped rest: the scratch owned at some contents, the
    other scoped buffers (region 1's staging buffers) at some contents, the generator register at some state. -/
def restOf0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq (c : Dev nD) :
    (Pipeline.ΦA spec0 c : sProp 𝕄)
      = iprop(iprop((∃ d, owns (c : Thread nD τ) scM0 fullShare d) ∗ restOf0 (F := F) c) ∗ (∃ r, prngReg c r)) := by
  unfold Pipeline.ΦA restOf0; rw [scopedRest0_eq]; simp only [scM0, owns_whole]; try rfl

end Cert.KernelIdeal.Fr

end
-- ==== Proof.Fr0RunA.lean ====
/- Region 0's body at tile j = 0: the scratch is recomputed, the f0 block left alone. On whole staging memrefs, the inputs at their contents, the body runs to the
   continuation holding the inputs as they were and each buffer it stores into with the stores' pieces written; the
   pieces are found by running the body. -/
import proofs.«104206_j73323681677635_2_alg».proof.Proof.Fr0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) :
    Σ' (L5 : List (View.Piece (Elt F) S1x2048x256 .f32)), Σ' (L6 : List (View.Piece (Elt F) S1x2048x256 .bf16)), { LS0 : List (View.Piece (Elt F) S2048x128 .f32) //
      ∀ (xi7 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi7 E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KernelIdeal.Fr

end
-- ==== Proof.Fr0RunB.lean ====
/- Region 0's body at a tile 0 < j < 7: the scratch only read, the f0 block left alone. On whole staging memrefs, the inputs at their contents, the body runs to the
   continuation holding the inputs as they were and each buffer it stores into with the stores' pieces written; the
   pieces are found by running the body. -/
import proofs.«104206_j73323681677635_2_alg».proof.Proof.Fr0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    Σ' (L5 : List (View.Piece (Elt F) S1x2048x256 .f32)), { L6 : List (View.Piece (Elt F) S1x2048x256 .bf16) //
      ∀ (xi7 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; isplitr; · ipureintro; exact harg10.read_unread _
    iexact HS0

end Cert.KernelIdeal.Fr

end
-- ==== Proof.Fr0RunC.lean ====
/- Region 0's body at tile j = 7: the scratch only read, the f0 block stored. On whole staging memrefs, the inputs at their contents, the body runs to the
   continuation holding the inputs as they were and each buffer it stores into with the stores' pieces written; the
   pieces are found by running the body. -/
import proofs.«104206_j73323681677635_2_alg».proof.Proof.Fr0Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    Σ' (L5 : List (View.Piece (Elt F) S1x2048x256 .f32)), Σ' (L6 : List (View.Piece (Elt F) S1x2048x256 .bf16)), { L7 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__attn_kernel_eq_skeleton]; unfold cc0__attn_kernel_skel
    repeat (first | (simp only [k0_part1_eq_skeleton]; unfold k0_part1_skel))
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0
    sl_exec (disch := first | exact hc0 | exact hc1)
    sl_step
    dsimp only
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; isplitr; · ipureintro; exact harg10.read_unread _
    iexact HS0

end Cert.KernelIdeal.Fr

end
-- ==== Proof.Fr0Runs.lean ====
/- Region 0's body in its three cases, gathered. -/
import proofs.«104206_j73323681677635_2_alg».proof.Proof.Fr0RunA
import proofs.«104206_j73323681677635_2_alg».proof.Proof.Fr0RunB
import proofs.«104206_j73323681677635_2_alg».proof.Proof.Fr0RunC
-- ==== Proof.FrData0Defs.lean ====
/- Region 0: what each window's staging buffer holds after the body at each grid point — the inputs their blocks, the
   two attention outputs what the point's case stored, the f0 block what tile 7 stored — and what the scratch holds along
   a row of the grid (f = x_b · w_0, computed at tile 0). -/
import proofs.«104206_j73323681677635_2_alg».proof.Proof.Fr0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case's stores leave: the found pieces cover their buffers; read back, they are the contents -/
theorem cover0_A_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S1x2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S1x2048x256.size (by sl_kernel_rfl) y
def out0_A_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S1x2048x256 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)
theorem cover0_A_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S1x2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S1x2048x256.size (by sl_kernel_rfl) y
def out0_A_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S1x2048x256 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)
theorem cover0_sA (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) (y : S2048x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S2048x128.size (by sl_kernel_rfl) y
def out0_sA (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) : Vec F S2048x128 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).1 S1x2048x256.size (by sl_kernel_rfl) y
def out0_B_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1)
theorem cover0_B_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.1 S1x2048x256.size (by sl_kernel_rfl) y
def out0_B_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1)
theorem cover0_C_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).1 S1x2048x256.size (by sl_kernel_rfl) y
def out0_C_5 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xs0).1)
theorem cover0_C_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.1 S1x2048x256.size (by sl_kernel_rfl) y
def out0_C_6 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x256 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xs0).2.1)
theorem cover0_C_7 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) (y : S1x2048x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xs0).2.2.1 S1x2048x128.size (by sl_kernel_rfl) y
def out0_C_7 (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) : Vec F S1x2048x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 xs0).2.2.1)

/-! ## The scratch during a row of the grid -/

/-- The first point of t's row: tile 0 of the same batch element. -/
def row0 (t : Fin cfg0.N) : Fin cfg0.N :=
  ⟨8 * (t.val / 8), by
    have hN : t.val < 64 := lt_of_lt_of_eq t.isLt (show cfg0.N = 64 from N_0)
    exact lt_of_lt_of_eq (by omega : 8 * (t.val / 8) < 64) (show (64 : ℕ) = cfg0.N from N_0.symm)⟩
theorem row0_val (t : Fin cfg0.N) : (row0 t).val = 8 * (t.val / 8) := rfl
theorem row0_mod (t : Fin cfg0.N) : (row0 t).val % 8 = 0 := by rw [row0_val]; omega
theorem row0_self (t : Fin cfg0.N) (h : t.val % 8 = 0) : row0 t = t := Fin.ext (by rw [row0_val]; omega)
theorem row0_pred (t : Fin cfg0.N) (h : t.val % 8 ≠ 0) (hlt : t.val - 1 < cfg0.N) : row0 ⟨t.val - 1, hlt⟩ = row0 t :=
  Fin.ext (by simp only [row0_val]; omega)

/-- What tile 0 of a row leaves in the scratch (f = x_b · w_0), as the pieces its run found, read back. -/
def scrAt (c : Dev nD) (r : Fin cfg0.N) (h0 : r.val % 8 = 0) : Vec F S2048x128 .f32 :=
  out0_sA c (grid0.coords r) (ms0_0 r) (hs0_0 r) (ms0_1 r) (hs0_1 r) (ms0_2 r) (hs0_2 r) (ms0_3 r) (hs0_3 r) (ms0_4 r) (hs0_4 r) (ms0_5 r) (hs0_5 r) (ms0_6 r) (hs0_6 r) (ms0_7 r) (hs0_7 r) scM0 (Memref.isWhole_whole _) ((hcond0_0 r).mpr h0) (fun h => by have := (hcond0_1 r).mp h; omega) (iblk0 V c 0 r) (iblk0 V c 1 r) (iblk0 V c 2 r) (iblk0 V c 3 r) (iblk0 V c 4 r)
theorem scrAt_congr (c : Dev nD) {r r' : Fin cfg0.N} (e : r = r') (h : r.val % 8 = 0) (h' : r'.val % 8 = 0) : scrAt V c r h = scrAt V c r' h' := by
  subst e; rfl
/-- The scratch's contents from tile 0 of t's row on. -/
def scr (c : Dev nD) (t : Fin cfg0.N) : Vec F S2048x128 .f32 := scrAt V c (row0 t) (row0_mod t)
theorem scr_self (c : Dev nD) (t : Fin cfg0.N) (h : t.val % 8 = 0) : scr V c t = scrAt V c t h := scrAt_congr V c (row0_self t h) _ _
theorem scr_pred (c : Dev nD) (t : Fin cfg0.N) (h : t.val % 8 ≠ 0) (hlt : t.val - 1 < cfg0.N) : scr V c ⟨t.val - 1, hlt⟩ = scr V c t :=
  scrAt_congr V c (row0_pred t h hlt) _ _

/-! ## What the output windows hold after each point -/
def after0_5 (c : Dev nD) (t : Fin cfg0.N) : Vec F S1x2048x256 .f32 :=
  if h0 : t.val % 8 = 0 then out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val % 8 = 7 then out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)
  else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)
def after0_6 (c : Dev nD) (t : Fin cfg0.N) : Vec F S1x2048x256 .bf16 :=
  if h0 : t.val % 8 = 0 then out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => by have := (hcond0_1 t).mp h; omega) (iblk0 V c 0 t) (iblk0 V c 1 t) (iblk0 V c 2 t) (iblk0 V c 3 t) (iblk0 V c 4 t)
  else if h1 : t.val % 8 = 7 then out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)
  else out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)
/-- The f0 block is stored at tile 7 only; elsewhere the window is idle and this value is never consulted. -/
def after0_7 (c : Dev nD) (t : Fin cfg0.N) : Vec F S1x2048x128 .f32 :=
  if h1 : t.val % 8 = 7 then out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => by have := (hcond0_0 t).mp h; omega) ((hcond0_1 t).mpr h1) (iblk0 V c 0 t) (iblk0 V c 1 t) (iblk0 V c 2 t) (iblk0 V c 3 t) (iblk0 V c 4 t) (scr V c t)
  else VO0_7.read (Elt F) VO0_7.junk

end Cert.KernelIdeal.Fr

end
-- ==== Proof.FrData0.lean ====
/- Region 0's proof data: what each window's staging buffer holds after the body at each grid point, the invariant
   carried between points (the scratch holds f = x_b · w_0 from tile 0 of a row to the row's end), and the body's obligation. -/
import proofs.«104206_j73323681677635_2_alg».proof.Proof.FrData0Defs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant -/

/-- Before the first point the class's invariant; before point n + 1 the scratch at what point n's row computed. -/
def PhiS (c : Dev nD) : (n : ℕ) → n ≤ cfg0.N → sProp 𝕄
  | 0, _ => Pipeline.ΦA spec0 c
  | n + 1, hn => iprop(iprop(owns (c : Thread nD τ) scM0 fullShare (scr V c ⟨n, hn⟩) ∗ restOf0 c) ∗ (∃ r, prngReg c r))
theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (scr V c ⟨n, hn⟩) ∗ restOf0 c) ∗ (∃ r, prngReg c r)) := rfl
theorem PhiS_pos (c : Dev nD) (n : ℕ) (h : n ≤ cfg0.N) (hz : n ≠ 0) :
    PhiS V c n h = iprop(iprop(owns (c : Thread nD τ) scM0 fullShare (scr V c ⟨n - 1, by omega⟩) ∗ restOf0 c) ∗ (∃ r, prngReg c r)) := by
  cases n with
  | zero => exact absurd rfl hz
  | succ n => rfl
/-- At any point the invariant holds the scratch at SOME contents. -/
theorem PhiS_any (c : Dev nD) (n : ℕ) (h : n ≤ cfg0.N) :
    PhiS V c n h ⊢ iprop(iprop((∃ d, owns (c : Thread nD τ) scM0 fullShare d) ∗ restOf0 (F := F) c) ∗ (∃ r, prngReg c r)) := by
  cases n with
  | zero => rw [PhiS_zero V c 0 h rfl, PhiA0_eq]
  | succ n =>
    rw [PhiS_succ]
    iintro ⟨⟨HS0, Hr⟩, Hg⟩
    isplitl [HS0 Hr]
    · isplitl [HS0]
      · iexists _; iexact HS0
      iexact Hr
    iexact Hg

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => after0_5 V c t
    | ⟨6, _⟩ => after0_6 V c t
    | ⟨7, _⟩ => after0_7 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0_eq (c : Dev nD) (t : Fin cfg0.N) : (dat0 V c).after 0 t = iblk0 V c 0 t := by dsimp only [dat0]
theorem after0_1_eq (c : Dev nD) (t : Fin cfg0.N) : (dat0 V c).after 1 t = iblk0 V c 1 t := by dsimp only [dat0]
theorem after0_2_eq (c : Dev nD) (t : Fin cfg0.N) : (dat0 V c).after 2 t = iblk0 V c 2 t := by dsimp only [dat0]
theorem after0_3_eq (c : Dev nD) (t : Fin cfg0.N) : (dat0 V c).after 3 t = iblk0 V c 3 t := by dsimp only [dat0]
theorem after0_4_eq (c : Dev nD) (t : Fin cfg0.N) : (dat0 V c).after 4 t = iblk0 V c 4 t := by dsimp only [dat0]
theorem after0_5_eq (c : Dev nD) (t : Fin cfg0.N) : (dat0 V c).after 5 t = after0_5 V c t := by dsimp only [dat0]
theorem after0_6_eq (c : Dev nD) (t : Fin cfg0.N) : (dat0 V c).after 6 t = after0_6 V c t := by dsimp only [dat0]
theorem after0_7_eq (c : Dev nD) (t : Fin cfg0.N) : (dat0 V c).after 7 t = after0_7 V c t := by dsimp only [dat0]
theorem before0_0 (c : Dev nD) (t : Fin cfg0.N) (d) : (dat0 V c).before 0 t d = iblk0 V c 0 t :=
  before0_0_of V (dat0 V c) (A_eq0 V c 0) (after0_0_eq V c) t d
theorem before0_1 (c : Dev nD) (t : Fin cfg0.N) (d) : (dat0 V c).before 1 t d = iblk0 V c 1 t :=
  before0_1_of V (dat0 V c) (A_eq0 V c 1) (after0_1_eq V c) t d
theorem before0_2 (c : Dev nD) (t : Fin cfg0.N) (d) : (dat0 V c).before 2 t d = iblk0 V c 2 t :=
  before0_2_of V (dat0 V c) (A_eq0 V c 2) (after0_2_eq V c) t d
theorem before0_3 (c : Dev nD) (t : Fin cfg0.N) (d) : (dat0 V c).before 3 t d = iblk0 V c 3 t :=
  before0_3_of V (dat0 V c) (A_eq0 V c 3) (after0_3_eq V c) t d
theorem before0_4 (c : Dev nD) (t : Fin cfg0.N) (d) : (dat0 V c).before 4 t d = iblk0 V c 4 t :=
  before0_4_of V (dat0 V c) (A_eq0 V c 4) (after0_4_eq V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; t mod 8 says which case the point is in. At tile 0 the
    invariant hands over the scratch at whatever it holds and takes it back at what the run stored; at a later tile the
    scratch comes at what tile 0 of the same row stored, and goes back untouched; the f0 window is handed back
    untouched except at tile 7. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  simp only [Fin.eta]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0_eq]
  rw [show (dat0 V c).leavesExact 1 t = owns (c : Thread nD τ) (ms0_1 t) fullShare ((dat0 V c).after 1 t) from by
    unfold Dat.leavesExact; rw [liveAt0_1 t], after0_1_eq]
  rw [show (dat0 V c).leavesExact 2 t = owns (c : Thread nD τ) (ms0_2 t) fullShare ((dat0 V c).after 2 t) from by
    unfold Dat.leavesExact; rw [liveAt0_2 t], after0_2_eq]
  rw [show (dat0 V c).leavesExact 3 t = owns (c : Thread nD τ) (ms0_3 t) fullShare ((dat0 V c).after 3 t) from by
    unfold Dat.leavesExact; rw [liveAt0_3 t], after0_3_eq]
  rw [show (dat0 V c).leavesExact 4 t = owns (c : Thread nD τ) (ms0_4 t) fullShare ((dat0 V c).after 4 t) from by
    unfold Dat.leavesExact; rw [liveAt0_4 t], after0_4_eq]
  rw [show (dat0 V c).leavesExact 5 t = owns (c : Thread nD τ) (ms0_5 t) fullShare ((dat0 V c).after 5 t) from by
    unfold Dat.leavesExact; rw [liveAt0_5 t], after0_5_eq]
  rw [show (dat0 V c).leavesExact 6 t = owns (c : Thread nD τ) (ms0_6 t) fullShare ((dat0 V c).after 6 t) from by
    unfold Dat.leavesExact; rw [liveAt0_6 t], after0_6_eq]
  by_cases h0 : t.val % 8 = 0
  · have h1 : ¬ t.val % 8 = 7 := by omega
    rw [Dat.leavesExact_idle (dat0 V c) 7 t (idleAt0_7 t (fun h => h1 ((hcond0_1 t).mp h))) (noFlush0_7 t (fun h => h1 ((hcond0_1 t).mp h)))]
    rw [scr_self V c t h0]
    unfold after0_5 after0_6
    simp only [dif_pos h0]
    unfold scrAt out0_A_5 out0_A_6 out0_sA; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_any V c _ _) $$ HΦ
    icases HΦ' with ⟨⟨HS0, Hrest⟩, Hg⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, H7, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (cover0_sA c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    iexists _; iexact H7
  · have hz : t.val ≠ 0 := fun h => h0 (by rw [h])
    rw [PhiS_castSucc V c t, PhiS_pos V c _ _ hz, scr_pred V c t h0]
    by_cases h1 : t.val % 8 = 7
    · rw [show (dat0 V c).leavesExact 7 t = owns (c : Thread nD τ) (ms0_7 t) fullShare ((dat0 V c).after 7 t) from by
        unfold Dat.leavesExact; rw [liveAt0_7 t ((hcond0_1 t).mpr h1)], after0_7_eq]
      unfold after0_5 after0_6 after0_7
      simp only [dif_neg h0, dif_pos h1]
      unfold out0_C_5 out0_C_6 out0_C_7; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (scr V c t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, ⟨%e5, H5⟩, ⟨%e6, H6⟩, ⟨%e7, H7⟩, HS0⟩
      isplitl [HS0 Hrest Hg]
      · isplitl [HS0 Hrest]
        · isplitl [HS0]
          · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      unfold after0_5 after0_6
      simp only [dif_neg h0, dif_neg h1]
      unfold out0_B_5 out0_B_6; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (scr V c t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, ⟨%e5, H5⟩, ⟨%e6, H6⟩, H7, HS0⟩
      isplitl [HS0 Hrest Hg]
      · isplitl [HS0 Hrest]
        · isplitl [HS0]
          · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl, PhiA0_eq]
  exact PhiS_any V c _ _

end Cert.KernelIdeal.Fr

end
-- ==== Proof.FrData1.lean ====
/- The proof data of region 1: what each window's staging buffer holds after the body at each grid point, the
   invariant carried between points, and the body's obligation. -/
import proofs.«104206_j73323681677635_2_alg».proof.Proof.Gen.KernelIdeal.Launch
import proofs.«104206_j73323681677635_2_alg».proof.Proof.Gen.KernelIdeal.Skeleton
import proofs.«104206_j73323681677635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: an unfetched window's block
    index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: an unfetched window's block
    index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: an unfetched window's block
    index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents' and whose body leaves the block in place: an unfetched window's block
    index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x2048x2048 := Rect.unit (s := S1x2048x2048) ![0, 0, 0] S1x2048x2048.size inb_S1x2048x2048_S1x2048x2048_0_0_0
abbrev r1_1 : Rect S1x2048x128 := Rect.unit (s := S1x2048x128) ![0, 0, 0] S1x2048x128.size inb_S1x2048x128_S1x2048x128_0_0_0
abbrev r1_2 : Rect S2x128x128 := Rect.unit (s := S2x128x128) ![0, 0, 0] S1x128x128.size inb_S2x128x128_S1x128x128_0_0_0
abbrev r1_3 : Rect S2x128x128 := Rect.unit (s := S2x128x128) ![1, 0, 0] S1x128x128.size inb_S2x128x128_S1x128x128_1_0_0

/-! ## What the body leaves in the output window's buffer -/

/-- Window 4's staging buffer after the body, from the four input windows' blocks: its one store, of the whole
    block, whose payload is computed from the whole blocks of windows 0, 1 and 2 and the two slabs of window 3. -/
def out1_4 (x0 : Vec F S1x2048x2048 .bf16) (x1 : Vec F S1x2048x128 .f32) (x2 : Vec F S1x2048x128 .f32) (x3 : Vec F S2x128x128 .f32) : Vec F S1x2048x128 .f32 :=
  View.canon [⟨r1_1, k1_pay1 (View.ld x0 r1_0) (View.ld x1 r1_1) (View.ld x3 r1_2) (View.ld x2 r1_1) (View.ld x3 r1_3)⟩]

/-- The one store tiles the buffer (checked by evaluation), so it covers it. -/
theorem cover1_4 (p0 : Vec F S1x2048x128 .f32) (y : S1x2048x128.Idx) :
    ∃ pc ∈ ([⟨r1_1, p0⟩] : List (View.Piece (Elt F) S1x2048x128 .f32)), y ∈ pc.1.set :=
  View.cover_of_tiled [⟨r1_1, p0⟩] S1x2048x128.size (by rfl) y

/-! ## The body's triple -/

set_option maxHeartbeats 1000000 in
/-- The kernel body on whole staging memrefs, the inputs' at read contents x0 … x3 and the output's at anything, runs to
    the continuation holding the inputs' as they were and the output's at out1_4 of the inputs'. -/
theorem sound_kernel1 (c : Dev nD) (E : Set ℕ) (i : grid1.Coords) (arg1 : Memref sig .tc .vmem S1x2048x2048 .bf16) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S2x128x128 .f32) (harg4 : arg4.IsWhole) (arg5 : Memref sig .tc .vmem S1x2048x128 .f32) (harg5 : arg5.IsWhole)
    (x0 : Vec F S1x2048x2048 .bf16) (x1 : Vec F S1x2048x128 .f32) (x2 : Vec F S1x2048x128 .f32) (x3 : Vec F S2x128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__hop_fused_kernel i arg1 harg1 arg2 harg2 arg3 harg3 arg4 harg4 arg5 harg5) K := by
  simp only [cc1__hop_fused_kernel_eq_skeleton]; unfold cc1__hop_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of region 1's pipeline on core c: the arrays as the region finds them; after the body at point t
    each input's buffer at its block and the output's at out1_4 of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant at the first and after the last point is the class's own. -/
theorem hin1 (c : Dev nD) : (Pipeline.ΦA spec1 c : sProp 𝕄) ⊢ (dat1 V c).Φ 0 := by
  exact Entails.refl _

theorem hout1 (c : Dev nD) : (dat1 V c).Φ (Fin.last cfg1.N) ⊢ (Pipeline.ΦA spec1 c : sProp 𝕄) := by
  exact Entails.refl _

end Cert.KernelIdeal.Fr

end
-- ==== Proof.FrMainVals.lean ====
/- The buffer contents of one core at each boundary of the program's run: at launch, after the first stretch of host
   operations (where the first kernel region is entered), at that region's exit, after the second stretch (where the
   second region is entered), and at the second region's exit. Each is the previous one pushed through the stretch's
   operations, or with the region's arrays replaced by what its write-backs leave. The lemmas read these folds at the
   buffers the certificate speaks of: every argument array is never written; the results are output arrays. -/
import proofs.«104206_j73323681677635_2_alg».proof.Proof.FrData0
import proofs.«104206_j73323681677635_2_alg».proof.Proof.FrData1
import proofs.«104206_j73323681677635_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, by name -/

example : Pipeline.arrRef spec0 0 = main_arg0 := rfl
example : Pipeline.arrRef spec0 1 = main_v8 := rfl
example : Pipeline.arrRef spec0 2 = main_arg3 := rfl
example : Pipeline.arrRef spec0 3 = main_arg4 := rfl
example : Pipeline.arrRef spec0 4 = main_v6 := rfl
example : Pipeline.arrRef spec0 5 = main_v9_0 := rfl
example : Pipeline.arrRef spec0 6 = main_v9_1 := rfl
example : Pipeline.arrRef spec0 7 = main_v9_2 := rfl
example : Pipeline.arrRef spec1 0 = main_v9_1 := rfl
example : Pipeline.arrRef spec1 1 = main_arg0 := rfl
example : Pipeline.arrRef spec1 2 = main_v9_2 := rfl
example : Pipeline.arrRef spec1 3 = main_v10 := rfl
example : Pipeline.arrRef spec1 4 = main_v11 := rfl

/-! ## The contents at each boundary -/

/-- Core `c`'s buffers at launch. -/
abbrev W0 : Dev nD → Valuation τ sig (Elt F) := fun c b => (s₀ m ρ).mem ((c : Dev nD), b)
/-- After the first stretch of host operations: what the first region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At the first region's exit: its arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the second region is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A buffer no stretch writes passes through it -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- An input window's array leaves the first region as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array leaves the second region as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-! ## The argument arrays are never written: each boundary's contents at an argument are the launch memory's -/

theorem W1_arg0 (c : Dev nD) : W1 m ρ c (Proc.devRef .tc main_arg0) = m ((c : Thread nD τ).loc main_arg0) :=
  (W1_of m ρ c main_arg0 (by decide)).trans rfl
theorem W2_arg0 (c : Dev nD) : W2 m ρ c (Proc.devRef .tc main_arg0) = m ((c : Thread nD τ).loc main_arg0) :=
  (W2_in m ρ c 0 rfl).trans (W1_arg0 m ρ c)
theorem W3_arg0 (c : Dev nD) : W3 m ρ c (Proc.devRef .tc main_arg0) = m ((c : Thread nD τ).loc main_arg0) :=
  (W3_of m ρ c main_arg0 (by decide)).trans (W2_arg0 m ρ c)
theorem W4_arg0 (c : Dev nD) : W4 m ρ c (Proc.devRef .tc main_arg0) = m ((c : Thread nD τ).loc main_arg0) :=
  (W4_in m ρ c 1 rfl).trans (W3_arg0 m ρ c)

theorem W1_arg1 (c : Dev nD) : W1 m ρ c (Proc.devRef .tc main_arg1) = m ((c : Thread nD τ).loc main_arg1) :=
  (W1_of m ρ c main_arg1 (by decide)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (W3_of m ρ c main_arg1 (by decide)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)

theorem W1_arg2 (c : Dev nD) : W1 m ρ c (Proc.devRef .tc main_arg2) = m ((c : Thread nD τ).loc main_arg2) :=
  (W1_of m ρ c main_arg2 (by decide)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (W3_of m ρ c main_arg2 (by decide)).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)

theorem W1_arg3 (c : Dev nD) : W1 m ρ c (Proc.devRef .tc main_arg3) = m ((c : Thread nD τ).loc main_arg3) :=
  (W1_of m ρ c main_arg3 (by decide)).trans rfl
theorem W2_arg3 (c : Dev nD) : W2 m ρ c (Proc.devRef .tc main_arg3) = m ((c : Thread nD τ).loc main_arg3) :=
  (W2_in m ρ c 2 rfl).trans (W1_arg3 m ρ c)
theorem W3_arg3 (c : Dev nD) : W3 m ρ c (Proc.devRef .tc main_arg3) = m ((c : Thread nD τ).loc main_arg3) :=
  (W3_of m ρ c main_arg3 (by decide)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)

theorem W1_arg4 (c : Dev nD) : W1 m ρ c (Proc.devRef .tc main_arg4) = m ((c : Thread nD τ).loc main_arg4) :=
  (W1_of m ρ c main_arg4 (by decide)).trans rfl
theorem W2_arg4 (c : Dev nD) : W2 m ρ c (Proc.devRef .tc main_arg4) = m ((c : Thread nD τ).loc main_arg4) :=
  (W2_in m ρ c 3 rfl).trans (W1_arg4 m ρ c)
theorem W3_arg4 (c : Dev nD) : W3 m ρ c (Proc.devRef .tc main_arg4) = m ((c : Thread nD τ).loc main_arg4) :=
  (W3_of m ρ c main_arg4 (by decide)).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)

/-! ## The result arrays and the second region's operands -/

/-- The second result is the second region's output array: what its write-backs leave. -/
theorem W4_v11 (c : Dev nD) : W4 m ρ c (Proc.devRef .tc main_v11) = (dat1 (V3 m ρ) c).arrAt 4 cfg1.N :=
  W4_arr m ρ c 4
/-- The first region's output arrays at its exit. -/
theorem W2_v9_0 (c : Dev nD) : W2 m ρ c (Proc.devRef .tc main_v9_0) = (dat0 (V1 m ρ) c).arrAt 5 cfg0.N := W2_arr m ρ c 5
theorem W2_v9_1 (c : Dev nD) : W2 m ρ c (Proc.devRef .tc main_v9_1) = (dat0 (V1 m ρ) c).arrAt 6 cfg0.N := W2_arr m ρ c 6
theorem W2_v9_2 (c : Dev nD) : W2 m ρ c (Proc.devRef .tc main_v9_2) = (dat0 (V1 m ρ) c).arrAt 7 cfg0.N := W2_arr m ρ c 7
/-- The first result is the first region's first output array, which nothing later writes. -/
theorem W4_v9_0 (c : Dev nD) : W4 m ρ c (Proc.devRef .tc main_v9_0) = (dat0 (V1 m ρ) c).arrAt 5 cfg0.N :=
  (W4_of_ne m ρ c main_v9_0 (by decide)).trans ((W3_of m ρ c main_v9_0 (by decide)).trans (W2_v9_0 m ρ c))
/-- The second region is entered with the first region's other two output arrays as it left them, -/
theorem V3_v9_1 (c : Dev nD) : V3 m ρ c main_v9_1 = (dat0 (V1 m ρ) c).arrAt 6 cfg0.N :=
  (W3_of m ρ c main_v9_1 (by decide)).trans (W2_v9_1 m ρ c)
theorem V3_v9_2 (c : Dev nD) : V3 m ρ c main_v9_2 = (dat0 (V1 m ρ) c).arrAt 7 cfg0.N :=
  (W3_of m ρ c main_v9_2 (by decide)).trans (W2_v9_2 m ρ c)
/-- the first argument as launched, -/
theorem V3_arg0 (c : Dev nD) : V3 m ρ c main_arg0 = m ((c : Thread nD τ).loc main_arg0) := W3_arg0 m ρ c
/-- and the second stretch's result as that stretch computes it from the first region's exit contents. -/
theorem V3_v10 (c : Dev nD) : V3 m ρ c main_v10 = StableHlo.after hostOps1 (W2 m ρ c) (Proc.devRef .tc main_v10) := rfl

/-! ## The first region's operands -/

theorem V1_arg0 (c : Dev nD) : V1 m ρ c main_arg0 = m ((c : Thread nD τ).loc main_arg0) := W1_arg0 m ρ c
theorem V1_arg3 (c : Dev nD) : V1 m ρ c main_arg3 = m ((c : Thread nD τ).loc main_arg3) := W1_arg3 m ρ c
theorem V1_arg4 (c : Dev nD) : V1 m ρ c main_arg4 = m ((c : Thread nD τ).loc main_arg4) := W1_arg4 m ρ c
theorem V1_v6 (c : Dev nD) : V1 m ρ c main_v6 = StableHlo.after hostOps0 (W0 m ρ c) (Proc.devRef .tc main_v6) := rfl
theorem V1_v8 (c : Dev nD) : V1 m ρ c main_v8 = StableHlo.after hostOps0 (W0 m ρ c) (Proc.devRef .tc main_v8) := rfl

end Cert.KernelIdeal.Fr

end
-- ==== Proof.FrMainSegs.lean ====
/- The two kernel regions as segments of the program's run, over one thread state: between two items a core holds every
   unscoped buffer whole at the boundary's contents, its generator register at some state, and owes nothing. -/
import proofs.«104206_j73323681677635_2_alg».proof.Proof.FrMainVals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at the stretch's fold of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over the pinned configuration of pipeline 0 unifies with the printed configuration
-- only when unification may unfold plain definitions in a metavariable's type
set_option backward.isDefEq.respectTransparency.types false in
/-- REGION 0 over the thread state: entered from every unscoped buffer at `W1`, left at `W2`. Its arrays are
    split out of the unscoped buffers and put back at the exit contents; the generator register and the scoped buffers
    no window stages go into the region's invariant at the first point and come back from it at the last; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    rw [show (pdats m ρ 0 c).Φ 0 = (dat0 (V1 m ρ) c).Φ 0 from rfl]
    iintro ⟨Hp, -, Hr⟩
    iapply h
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration of pipeline 1 unifies with the printed configuration
-- only when unification may unfold plain definitions in a metavariable's type
set_option backward.isDefEq.respectTransparency.types false in
/-- REGION 1 over the thread state: entered from every unscoped buffer at `W3`, left at `W4`. Its arrays are
    split out of the unscoped buffers and put back at the exit contents; the generator register and the scoped buffers
    no window stages go into the region's invariant at the first point and come back from it at the last; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    rw [show (pdats m ρ 1 c).Φ 0 = (dat1 (V3 m ρ) c).Φ 0 from rfl]
    iintro ⟨Hp, -, Hr⟩
    iapply h
    unfold Pipeline.ΦA
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Fr

end
-- ==== Proof.FrMain.lean ====
/- The run of the whole program over its two kernel regions: every weakly fair execution from any memory with zero
   counters terminates, nothing faulting, and every final memory holds each unscoped buffer at the last boundary's
   contents. From it: the argument arrays end as launched, and the two result arrays hold what the regions' write-backs
   leave. -/
import proofs.«104206_j73323681677635_2_alg».proof.Proof.FrMainSegs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments, and the launch -/

/-- The program's 4 segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and every final memory has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in the buffers the certificate speaks of -/

/-- The final memory at an unscoped TensorCore buffer is the last boundary's contents. -/
theorem run_at : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W4 m ρ c (Proc.devRef .tc b)) :=
  (θ_run defs _ _).mono (fun r h c b hb => h c _ (mem_uc b hb)) (run_main m ρ)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

/-- The run read at the two result arrays and the arguments: the results hold the last boundary's contents (what the
    regions' write-backs leave: `W4_v11`, `W4_v9_0`), the arguments end as launched. -/
theorem run_results : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_v9_0) = W4 m ρ c (Proc.devRef .tc main_v9_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v11 (by decide)),
     h c _ (mem_uc main_v9_0 (by decide)),
     (h c _ (mem_uc main_arg0 (by decide))).trans (W4_arg0 m ρ c),
     (h c _ (mem_uc main_arg1 (by decide))).trans (W4_arg1 m ρ c),
     (h c _ (mem_uc main_arg2 (by decide))).trans (W4_arg2 m ρ c),
     (h c _ (mem_uc main_arg3 (by decide))).trans (W4_arg3 m ρ c),
     (h c _ (mem_uc main_arg4 (by decide))).trans (W4_arg4 m ρ c)⟩) (run_main m ρ)

end Cert.KernelIdeal.Fr

end
-- ==== Proof.Spec.lean ====
/-
  The mathematics both programs compute, over plain index functions on the extended reals.

  For one batch element b (N = 2048 nodes, F = U = 128 features):
    A        = adj + I                                   (self loops)
    f0       = x_b · w_0                                  [N, U]
    logit    = (f0 · ai  +  (f0 · aj)ᵀ) + NEG · (1 − |A|) [N, N]   (NEG the float -1e9, kept as its word)
    attn     = softmax of logit down each column (over the row index n), times A
    h1       = attnᵀ · x_b ,  f1 = h1 · w_1 + f0
    h2       = attnᵀ · h1  (the kernel)   or   (attn · attn)ᵀ · x_b  (the reference)
    f2       = max (h2 · w_2 + f1, 0)
  The two forms of h2 are equal when every attn entry and every x entry is a real number
  (distributing a factor over a finite sum, and exchanging two finite sums, fail at ±∞).
-/
import Idealize.ShloMosaic.PureOps.Ideal

noncomputable section

namespace Cert.Spec

open Idealize.ShloMosaic

/-- The five argument arrays as index functions. -/
abbrev XT : Type := Fin 8 → Fin 2048 → Fin 128 → EReal
abbrev AdjT : Type := Fin 2048 → Fin 2048 → EReal
abbrev WT : Type := Fin 3 → Fin 128 → Fin 128 → EReal
abbrev AT : Type := Fin 128 → Fin 2048 → EReal

/-- The float literals both programs share, kept as their words: 1.0 and -1.0e9. -/
def one : EReal := Ideal.ofBits .f32 0x3F800000#32
def negBig : EReal := Ideal.ofBits .f32 0xCE6E6B28#32

/-- The identity matrix as a 0/1 indicator. -/
def eye (n m : Fin 2048) : EReal := if n = m then 1 else 0

/-- adj + I. -/
def A (adj : AdjT) (n m : Fin 2048) : EReal := adj n m + eye n m

/-- f0[b,n,u] = Σ_f x[b,n,f] · w[0,f,u]. -/
def f0 (x : XT) (w : WT) (b : Fin 8) (n : Fin 2048) (u : Fin 128) : EReal :=
  ∑ f : Fin 128, x b n f * w 0 f u

/-- The masked attention logits: (Σ_u f0[n,u]·ai[u,m] + Σ_u aj[u,n]·f0[m,u]) + NEG·(1 − |A[n,m]|). -/
def logit (x : XT) (adj : AdjT) (w : WT) (ai aj : AT) (b : Fin 8) (n m : Fin 2048) : EReal :=
  ((∑ u : Fin 128, f0 x w b n u * ai u m) + (∑ u : Fin 128, aj u n * f0 x w b m u))
    + negBig * (one - max (A adj n m) (-(A adj n m)))

/-- The column maximum (over the row index n), from -∞. -/
def colMax (x : XT) (adj : AdjT) (w : WT) (ai aj : AT) (b : Fin 8) (m : Fin 2048) : EReal :=
  Finset.univ.sup fun n : Fin 2048 => logit x adj w ai aj b n m

/-- exp (logit − column maximum). -/
def expo (x : XT) (adj : AdjT) (w : WT) (ai aj : AT) (b : Fin 8) (n m : Fin 2048) : EReal :=
  Ideal.exp (logit x adj w ai aj b n m - colMax x adj w ai aj b m)

/-- The column sum of the exponentials. -/
def colSum (x : XT) (adj : AdjT) (w : WT) (ai aj : AT) (b : Fin 8) (m : Fin 2048) : EReal :=
  ∑ n : Fin 2048, expo x adj w ai aj b n m

/-- attn[b,n,m] = softmax over n of the logits, times A[n,m]. The second result of both programs. -/
def attn (x : XT) (adj : AdjT) (w : WT) (ai aj : AT) (b : Fin 8) (n m : Fin 2048) : EReal :=
  Ideal.div (expo x adj w ai aj b n m) (colSum x adj w ai aj b m) * A adj n m

section Hops

variable (x : XT) (w : WT) (at_ : Fin 8 → Fin 2048 → Fin 2048 → EReal)

/-- h1[b,m,f] = Σ_n attn[b,n,m] · x[b,n,f]   (attnᵀ · x). -/
def h1 (b : Fin 8) (m : Fin 2048) (f : Fin 128) : EReal := ∑ n : Fin 2048, at_ b n m * x b n f

/-- f1 = h1 · w_1 + f0. -/
def f1 (b : Fin 8) (m : Fin 2048) (u : Fin 128) : EReal :=
  (∑ f : Fin 128, h1 x at_ b m f * w 1 f u) + f0 x w b m u

/-- The kernel's second hop: h2[b,m,f] = Σ_n attn[b,n,m] · h1[b,n,f]   (attnᵀ · (attnᵀ · x)). -/
def h2K (b : Fin 8) (m : Fin 2048) (f : Fin 128) : EReal := ∑ n : Fin 2048, at_ b n m * h1 x at_ b n f

/-- The reference's squared attention: a2[b,n,m] = Σ_k attn[b,n,k] · attn[b,k,m]. -/
def a2 (b : Fin 8) (n m : Fin 2048) : EReal := ∑ k : Fin 2048, at_ b n k * at_ b k m

/-- The reference's second hop: h2[b,m,f] = Σ_n x[b,n,f] · a2[b,n,m]   ((attn·attn)ᵀ · x). -/
def h2R (b : Fin 8) (m : Fin 2048) (f : Fin 128) : EReal := ∑ n : Fin 2048, x b n f * a2 at_ b n m

/-- The kernel's first result: max (h2K · w_2 + f1, 0). -/
def f2K (b : Fin 8) (m : Fin 2048) (u : Fin 128) : EReal :=
  max ((∑ f : Fin 128, h2K x at_ b m f * w 2 f u) + f1 x w at_ b m u) 0

/-- The reference's first hop written its way: Σ_n x[b,n,f] · attn[b,n,m]. -/
def h1R (b : Fin 8) (m : Fin 2048) (f : Fin 128) : EReal := ∑ n : Fin 2048, x b n f * at_ b n m

/-- The reference's first result: max (h2R · w_2 + (h1R · w_1 + f0), 0). -/
def f2R (b : Fin 8) (m : Fin 2048) (u : Fin 128) : EReal :=
  max ((∑ f : Fin 128, h2R x at_ b m f * w 2 f u) + ((∑ f : Fin 128, h1R x at_ b m f * w 1 f u) + f0 x w b m u)) 0

end Hops

end Cert.Spec

end
-- ==== Proof.SpecBlock.lean ====
/-
  The same mathematics at the size of one block: what the attention kernel's body computes for one tile of 256
  columns from the five things it loads, one dense product, and what the fused two-hop body computes for one
  batch element. Each is the whole-array function of Spec.lean restricted to the block, which is what joins
  a block of the kernel's output to the entry of the whole result.
-/
import proofs.«104206_j73323681677635_2_alg».proof.Proof.Spec

noncomputable section

namespace Cert.Spec

open Idealize.ShloMosaic

section Tile

-- What the tile is computed from: all of f0 for the batch element, f0's rows of the tile, ai's columns of the
-- tile, all of aj, and A's columns of the tile.
variable (fAll : Fin 2048 → Fin 128 → EReal) (fTile : Fin 256 → Fin 128 → EReal)
  (aiT : Fin 128 → Fin 256 → EReal) (ajAll : Fin 128 → Fin 2048 → EReal) (aT : Fin 2048 → Fin 256 → EReal)

/-- The tile's logits: (Σ_u fAll[n,u]·aiT[u,q] + Σ_u ajAll[u,n]·fTile[q,u]) + NEG·(1 − |aT[n,q]|). -/
def tileLogit (n : Fin 2048) (q : Fin 256) : EReal :=
  ((∑ u : Fin 128, fAll n u * aiT u q) + (∑ u : Fin 128, ajAll u n * fTile q u))
    + negBig * (one - max (aT n q) (-(aT n q)))

/-- The maximum of column q, from -∞. -/
def tileMax (q : Fin 256) : EReal := Finset.univ.sup fun n : Fin 2048 => tileLogit fAll fTile aiT ajAll aT n q

/-- exp (logit − column maximum). -/
def tileExp (n : Fin 2048) (q : Fin 256) : EReal :=
  Ideal.exp (tileLogit fAll fTile aiT ajAll aT n q - tileMax fAll fTile aiT ajAll aT q)

/-- The sum of column q's exponentials. -/
def tileSum (q : Fin 256) : EReal := ∑ n : Fin 2048, tileExp fAll fTile aiT ajAll aT n q

/-- The tile of attn: the column softmax times A. -/
def tileAttn (n : Fin 2048) (q : Fin 256) : EReal :=
  Ideal.div (tileExp fAll fTile aiT ajAll aT n q) (tileSum fAll fTile aiT ajAll aT q) * aT n q

end Tile

/-- One dense product [2048,128]·[128,128]: Σ_f xb[n,f]·wk[f,u]. -/
def dense (xb : Fin 2048 → Fin 128 → EReal) (wk : Fin 128 → Fin 128 → EReal) (n : Fin 2048) (u : Fin 128) : EReal :=
  ∑ f : Fin 128, xb n f * wk f u

section Hop

-- One batch element of the fused two-hop body: its attention matrix, its x, its f0, and the two weight matrices.
variable (atb : Fin 2048 → Fin 2048 → EReal) (xb f0b : Fin 2048 → Fin 128 → EReal) (w1 w2 : Fin 128 → Fin 128 → EReal)

/-- attnᵀ · x. -/
def hop1 (m : Fin 2048) (f : Fin 128) : EReal := ∑ n : Fin 2048, atb n m * xb n f
/-- attnᵀ · (attnᵀ · x). -/
def hop2 (m : Fin 2048) (f : Fin 128) : EReal := ∑ n : Fin 2048, atb n m * hop1 atb xb n f
/-- max (hop2 · w2 + (hop1 · w1 + f0), 0). -/
def hopOut (m : Fin 2048) (u : Fin 128) : EReal :=
  max ((∑ f : Fin 128, hop2 atb xb m f * w2 f u) + ((∑ f : Fin 128, hop1 atb xb m f * w1 f u) + f0b m u)) 0

end Hop

end Cert.Spec

end
-- ==== Proof.SpecIdx.lean ====
/-
  The argument arrays of the programs, as the index functions the specification is written over.
-/
import proofs.«104206_j73323681677635_2_alg».proof.Proof.SpecBlock
import Idealize.ShloMosaic.Lib.ValueIdx

noncomputable section

namespace Cert.Spec

open Idealize.ShloMosaic

/-- x : f32[8, 2048, 128] as x[b, n, f]. -/
def toX (x : (⟨3, ![8, 2048, 128]⟩ : Shape).Idx → EReal) : XT := fun b n f => x (ValueIdx.ix3 b n f)
/-- adj : f32[2048, 2048] as adj[n, m]. -/
def toAdj (a : (⟨2, ![2048, 2048]⟩ : Shape).Idx → EReal) : AdjT := fun n m => a (ValueIdx.ix2 n m)
/-- w : f32[3, 128, 128] as w[k, f, u]. -/
def toW (w : (⟨3, ![3, 128, 128]⟩ : Shape).Idx → EReal) : WT := fun k f u => w (ValueIdx.ix3 k f u)
/-- ai, aj : f32[128, 2048] as a[u, m]. -/
def toA (a : (⟨2, ![128, 2048]⟩ : Shape).Idx → EReal) : AT := fun u m => a (ValueIdx.ix2 u m)

end Cert.Spec

end
-- ==== Proof.RefSpecA.lean ====
/-
  The reference's first stages, index by index: the identity matrix built from two iotas, adj + I,
  the three slices of the weights, and the first dense product f0 = x · w₀.
-/
import proofs.«104206_j73323681677635_2_alg».proof.Proof.Gen.ReferenceIdeal.Read
import proofs.«104206_j73323681677635_2_alg».proof.Proof.SpecIdx
import Idealize.ShloMosaic.Lib.Affine

noncomputable section

namespace Cert.ReferenceIdeal.RefSpec

open Idealize.ShloMosaic Idealize.ShloMosaic.ValueIdx Cert.ReferenceIdeal Cert.ReferenceIdeal.Gen Cert.ReferenceIdeal.Read Cert.Spec

/-- The 0/1 word of "row index = column index", converted to a float, is the identity matrix's entry. -/
theorem ref_eye_apply (n m : Fin 2048) : val_main_v5 (F := Ideal) (ix2 n m) = eye n m := by
  rw [val_main_v5_apply, val_main_v4_apply, val_main_v3_apply, val_main_v0_apply, val_main_v2_apply, val_main_c_apply,
    val_main_v1_apply]
  show FloatOps.uitofp (F := Ideal) .f32 (IntOp.cmpi .eq (IntOp.addi (BitVec.ofNat 32 n.val) 0#32) (BitVec.ofNat 32 m.val)) = _
  unfold eye
  have hn := n.isLt
  have hm := m.isLt
  by_cases h : n = m
  · subst h
    rw [if_pos rfl, IntOp.cmpi_eq.2 (by simp [IntOp.addi])]
    show (((1#1 : BitVec 1).toNat : ℝ) : EReal) = 1
    simp
  · rw [if_neg h]
    have hne : ¬ IntOp.cmpi .eq (IntOp.addi (BitVec.ofNat 32 n.val) 0#32) (BitVec.ofNat 32 m.val) = 1#1 := by
      intro hc
      have e := IntOp.cmpi_eq.1 hc
      have e' := congrArg BitVec.toNat e
      simp only [IntOp.addi, BitVec.add_zero, BitVec.toNat_ofNat] at e'
      exact h (Fin.ext (by omega))
    rw [eq_zero_of_ne_one hne]
    show (((0#1 : BitVec 1).toNat : ℝ) : EReal) = 0
    simp

/-- adj + I. -/
theorem ref_A_apply (adj : S2048x2048.Idx → EReal) (n m : Fin 2048) :
    val_main_v6 (F := Ideal) adj (ix2 n m) = A (toAdj adj) n m := by
  rw [val_main_v6_apply, ref_eye_apply]
  rfl

/-- The first weight matrix: slice 0 of w, with its unit axis dropped. -/
theorem ref_w0_apply (w : S3x128x128.Idx → EReal) (f u : Fin 128) :
    val_main_v9 (F := Ideal) w (ix2 f u) = toW w 0 f u := by
  rw [val_main_v9_apply, val_main_v8_apply]
  show w _ = w _
  refine congrArg w (funext fun a => Fin.ext ?_)
  have hf := f.isLt
  have hu := u.isLt
  match a with
  | ⟨0, _⟩ => rfl
  | ⟨1, _⟩ => show (f.val * 128 + u.val) / 128 % 128 = f.val; omega
  | ⟨2, _⟩ => show (f.val * 128 + u.val) % 128 = u.val; omega

/-- The second weight matrix: slice 1 of w. -/
theorem ref_w1_apply (w : S3x128x128.Idx → EReal) (f u : Fin 128) :
    val_main_v38 (F := Ideal) w (ix2 f u) = toW w 1 f u := by
  rw [val_main_v38_apply, val_main_v37_apply]
  show w _ = w _
  refine congrArg w (funext fun a => Fin.ext ?_)
  have hf := f.isLt
  have hu := u.isLt
  match a with
  | ⟨0, _⟩ => rfl
  | ⟨1, _⟩ => show (f.val * 128 + u.val) / 128 % 128 = f.val; omega
  | ⟨2, _⟩ => show (f.val * 128 + u.val) % 128 = u.val; omega

/-- The third weight matrix: slice 2 of w. -/
theorem ref_w2_apply (w : S3x128x128.Idx → EReal) (f u : Fin 128) :
    val_main_v44 (F := Ideal) w (ix2 f u) = toW w 2 f u := by
  rw [val_main_v44_apply, val_main_v43_apply]
  show w _ = w _
  refine congrArg w (funext fun a => Fin.ext ?_)
  have hf := f.isLt
  have hu := u.isLt
  match a with
  | ⟨0, _⟩ => rfl
  | ⟨1, _⟩ => show (f.val * 128 + u.val) / 128 % 128 = f.val; omega
  | ⟨2, _⟩ => show (f.val * 128 + u.val) % 128 = u.val; omega

/-- f0 = x · w₀: the first dot_general, read as the sum over the contracted feature axis. -/
theorem ref_f0_apply (x : S8x2048x128.Idx → EReal) (w : S3x128x128.Idx → EReal) (b : Fin 8) (n : Fin 2048) (u : Fin 128) :
    val_main_v10 (F := Ideal) x w (ix3 b n u) = f0 (toX x) (toW w) b n u := by
  rw [val_main_v10_apply]
  unfold f0
  refine Finset.sum_congr rfl fun k _ => ?_
  have el : lidx_main_v10 (ix3 b n u) k = ix3 b n k :=
    funext fun a => by match a with | ⟨0, _⟩ => rfl | ⟨1, _⟩ => rfl | ⟨2, _⟩ => rfl
  have er : ridx_main_v10 (ix3 b n u) k = ix2 k u :=
    funext fun a => by match a with | ⟨0, _⟩ => rfl | ⟨1, _⟩ => rfl
  rw [el, er, ref_w0_apply]
  rfl

end Cert.ReferenceIdeal.RefSpec

end
-- ==== Proof.RefSpecLogit.lean ====
/-
  The reference's attention logits, index by index: f0 · ai, the transpose of f0 · aj, and the mask
  NEG · (1 − |adj + I|) broadcast over the batch, added in the reference's order.
-/
import proofs.«104206_j73323681677635_2_alg».proof.Proof.RefSpecA

noncomputable section

namespace Cert.ReferenceIdeal.RefSpec

open Idealize.ShloMosaic Idealize.ShloMosaic.ValueIdx Cert.ReferenceIdeal Cert.ReferenceIdeal.Gen Cert.ReferenceIdeal.Read Cert.Spec

variable (x : S8x2048x128.Idx → EReal) (adj : S2048x2048.Idx → EReal) (w : S3x128x128.Idx → EReal)
  (ai aj : S128x2048.Idx → EReal)

/-- f0 · ai at [b, n, m]: the sum over the hidden axis u. -/
theorem ref_fai_apply (b : Fin 8) (n m : Fin 2048) :
    val_main_v11 (F := Ideal) x w ai (ix3 b n m) = ∑ u : Fin 128, f0 (toX x) (toW w) b n u * toA ai u m := by
  rw [val_main_v11_apply]
  refine Finset.sum_congr rfl fun k _ => ?_
  have el : lidx_main_v11 (ix3 b n m) k = ix3 b n k :=
    funext fun a => by match a with | ⟨0, _⟩ => rfl | ⟨1, _⟩ => rfl | ⟨2, _⟩ => rfl
  have er : ridx_main_v11 (ix3 b n m) k = ix2 k m :=
    funext fun a => by match a with | ⟨0, _⟩ => rfl | ⟨1, _⟩ => rfl
  rw [el, er, ref_f0_apply]
  rfl

/-- The transpose of f0 · aj at [b, n, m] is (f0 · aj)[b, m, n]; its factors are commuted into the specification's order. -/
theorem ref_faj_apply (b : Fin 8) (n m : Fin 2048) :
    val_main_v13 (F := Ideal) x w aj (ix3 b n m) = ∑ u : Fin 128, toA aj u n * f0 (toX x) (toW w) b m u := by
  have et : idx_main_v13 (ix3 b n m) = ix3 b m n :=
    funext fun a => by match a with | ⟨0, _⟩ => rfl | ⟨1, _⟩ => rfl | ⟨2, _⟩ => rfl
  rw [val_main_v13_apply, et, val_main_v12_apply]
  refine Finset.sum_congr rfl fun k _ => ?_
  have el : lidx_main_v12 (ix3 b m n) k = ix3 b m k :=
    funext fun a => by match a with | ⟨0, _⟩ => rfl | ⟨1, _⟩ => rfl | ⟨2, _⟩ => rfl
  have er : ridx_main_v12 (ix3 b m n) k = ix2 k n :=
    funext fun a => by match a with | ⟨0, _⟩ => rfl | ⟨1, _⟩ => rfl
  rw [el, er, ref_f0_apply]
  exact mul_comm _ _

/-- The mask NEG · (1 − |A|), the same for every batch element. -/
theorem ref_mask_apply (b : Fin 8) (n m : Fin 2048) :
    val_main_v20 (F := Ideal) adj (ix3 b n m)
      = negBig * (one - max (A (toAdj adj) n m) (-(A (toAdj adj) n m))) := by
  have e20 : idx_main_v20 (ix3 b n m) = ix3 (0 : Fin 1) n m :=
    funext fun a => by match a with | ⟨0, _⟩ => rfl | ⟨1, _⟩ => rfl | ⟨2, _⟩ => rfl
  have e19 : idx_main_v19 (ix3 (0 : Fin 1) n m) = ix2 n m :=
    funext fun a => by match a with | ⟨0, _⟩ => rfl | ⟨1, _⟩ => rfl
  rw [val_main_v20_apply, e20, val_main_v19_apply, e19, val_main_v18_apply, val_main_v17_apply, val_main_cst_0_apply,
    val_main_v16_apply, val_main_v15_apply, val_main_cst_apply, val_main_v7_apply, ref_A_apply]
  rfl

/-- The masked logits. -/
theorem ref_logit_apply (b : Fin 8) (n m : Fin 2048) :
    val_main_v21 (F := Ideal) x adj w ai aj (ix3 b n m)
      = logit (toX x) (toAdj adj) (toW w) (toA ai) (toA aj) b n m := by
  rw [val_main_v21_apply, val_main_v14_apply, ref_fai_apply, ref_faj_apply, ref_mask_apply]
  rfl

end Cert.ReferenceIdeal.RefSpec

end
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.RefSpecSoftmax.lean ====
/-
  The reference's softmax down each column, index by index: the maximum over the row axis folded from -∞
  (and once more against -∞, as the reference spells it), the exponentials of the shifted logits, their sum from 0,
  the quotient, and the product with adj + I. The result is the specification's attn.
-/
import proofs.«104206_j73323681677635_2_alg».proof.Proof.RefSpecLogit
import proofs.«104206_j73323681677635_2_alg».proof.Proof.LibRealSoftmax
import Idealize.ShloMosaic.PureOps.Reduce

noncomputable section

namespace Cert.ReferenceIdeal.RefSpec

open Idealize.ShloMosaic Idealize.ShloMosaic.ValueIdx Cert.ReferenceIdeal Cert.ReferenceIdeal.Gen Cert.ReferenceIdeal.Read Cert.Spec

/-- A fold of max from -∞ is the supremum. -/
theorem fold_max_eq_sup {ι : Type} (s : Finset ι) (f : ι → EReal) : s.fold max ⊥ f = s.sup f := by
  classical
  induction s using Finset.induction_on with
  | empty => simp
  | insert a s ha ih => rw [Finset.fold_insert ha, Finset.sup_insert, ih]

/-- A maximum-reduction over the row axis of a [8, 2048, 2048] array, at [b, m]: the fold over the rows n of the entries
    [b, n, m], from the initial value. -/
theorem reduce_max_rows (y : FVec Ideal S8x2048x2048 .f32) (init : FVec Ideal S_ .f32) (b : Fin 8) (m : Fin 2048) :
    Host.reduce (FloatOps.maximumf (F := Ideal) (φ := .f32)) y init reducesTo_S8x2048x2048_S8x2048_d1 h_S_ (ix2 b m)
      = (Finset.univ : Finset (Fin 2048)).fold max (init (Shape.Idx.first h_S_)) (fun k => y (ix3 b k m)) := by
  rw [Host.reduce_eq_fold_single _ y init reducesTo_S8x2048x2048_S8x2048_d1 (by decide) h_S_ (ix2 b m)]
  refine Finset.fold_congr fun k _ => ?_
  exact congrArg y (funext fun a => Fin.ext (by match a with | ⟨0, _⟩ => rfl | ⟨1, _⟩ => rfl | ⟨2, _⟩ => rfl))

variable (x : S8x2048x128.Idx → EReal) (adj : S2048x2048.Idx → EReal) (w : S3x128x128.Idx → EReal)
  (ai aj : S128x2048.Idx → EReal)

/-- The column maximum, as the reference computes it: max (-∞, fold of max from -∞). -/
theorem ref_colmax_apply (b : Fin 8) (m : Fin 2048) :
    val_main_v24 (F := Ideal) x adj w ai aj (ix2 b m)
      = colMax (toX x) (toAdj adj) (toW w) (toA ai) (toA aj) b m := by
  rw [val_main_v24_apply, val_main_v23_apply, val_main_cst_2_apply]
  unfold val_main_v22
  rw [reduce_max_rows, val_main_cst_1_apply]
  show max (Ideal.ofBits .f32 0xFF800000#32)
      ((Finset.univ : Finset (Fin 2048)).fold max (Ideal.ofBits .f32 0xFF800000#32)
        (fun k => val_main_v21 (F := Ideal) x adj w ai aj (ix3 b k m))) = _
  rw [Cert.LibRealSoftmax.word_negInf, fold_max_eq_sup, max_eq_right bot_le]
  unfold colMax
  exact congrArg (Finset.sup Finset.univ) (funext fun n => ref_logit_apply x adj w ai aj b n m)

/-- exp (logit − column maximum). -/
theorem ref_expo_apply (b : Fin 8) (n m : Fin 2048) :
    val_main_v28 (F := Ideal) x adj w ai aj (ix3 b n m)
      = expo (toX x) (toAdj adj) (toW w) (toA ai) (toA aj) b n m := by
  have e26 : idx_main_v26 (ix3 b n m) = ix3 b (0 : Fin 1) m :=
    funext fun a => by match a with | ⟨0, _⟩ => rfl | ⟨1, _⟩ => rfl | ⟨2, _⟩ => rfl
  have e25 : idx_main_v25 (ix3 b (0 : Fin 1) m) = ix2 b m :=
    funext fun a => by match a with | ⟨0, _⟩ => rfl | ⟨1, _⟩ => rfl
  rw [val_main_v28_apply, val_main_v27_apply, val_main_v26_apply, e26, val_main_v25_apply, e25, ref_colmax_apply,
    ref_logit_apply]
  rfl

/-- The column sum of the exponentials, from 0. -/
theorem ref_colsum_apply (b : Fin 8) (m : Fin 2048) :
    val_main_v29 (F := Ideal) x adj w ai aj (ix2 b m)
      = colSum (toX x) (toAdj adj) (toW w) (toA ai) (toA aj) b m := by
  rw [val_main_v29_apply, val_main_cst_3_apply]
  show Ideal.ofBits .f32 0x00000000#32 + _ = _
  rw [Ideal.ofBits_zero_f32, zero_add]
  unfold colSum
  refine Finset.sum_congr rfl fun k _ => ?_
  have e29 : idx_main_v29 (ix2 b m) k = ix3 b k m :=
    funext fun a => by match a with | ⟨0, _⟩ => rfl | ⟨1, _⟩ => rfl | ⟨2, _⟩ => rfl
  rw [e29, ref_expo_apply]

/-- attn = softmax down the column, times adj + I: the reference's second result. -/
theorem ref_attn_stage (b : Fin 8) (n m : Fin 2048) :
    val_main_v35 (F := Ideal) x adj w ai aj (ix3 b n m)
      = attn (toX x) (toAdj adj) (toW w) (toA ai) (toA aj) b n m := by
  have e31 : idx_main_v31 (ix3 b n m) = ix3 b (0 : Fin 1) m :=
    funext fun a => by match a with | ⟨0, _⟩ => rfl | ⟨1, _⟩ => rfl | ⟨2, _⟩ => rfl
  have e30 : idx_main_v30 (ix3 b (0 : Fin 1) m) = ix2 b m :=
    funext fun a => by match a with | ⟨0, _⟩ => rfl | ⟨1, _⟩ => rfl
  have e34 : idx_main_v34 (ix3 b n m) = ix3 (0 : Fin 1) n m :=
    funext fun a => by match a with | ⟨0, _⟩ => rfl | ⟨1, _⟩ => rfl | ⟨2, _⟩ => rfl
  have e33 : idx_main_v33 (ix3 (0 : Fin 1) n m) = ix2 n m :=
    funext fun a => by match a with | ⟨0, _⟩ => rfl | ⟨1, _⟩ => rfl
  rw [val_main_v35_apply, val_main_v32_apply, val_main_v31_apply, e31, val_main_v30_apply, e30, ref_colsum_apply,
    ref_expo_apply, val_main_v34_apply, e34, val_main_v33_apply, e33, ref_A_apply]
  rfl

end Cert.ReferenceIdeal.RefSpec

end
-- ==== Proof.RefSpecHops.lean ====
/-
  The reference's two hops, index by index: attnᵀ · x, its product with w₁ plus f0, the squared attention
  attn · attn, (attn · attn)ᵀ · x, its product with w₂, the sum of the three, and the final maximum with 0.
  Where the reference multiplies attention by x and the specification writes x first, the factors are commuted.
-/
import proofs.«104206_j73323681677635_2_alg».proof.Proof.RefSpecSoftmax

noncomputable section

namespace Cert.ReferenceIdeal.RefSpec

open Idealize.ShloMosaic Idealize.ShloMosaic.ValueIdx Cert.ReferenceIdeal Cert.ReferenceIdeal.Gen Cert.ReferenceIdeal.Read Cert.Spec

variable (x : S8x2048x128.Idx → EReal) (adj : S2048x2048.Idx → EReal) (w : S3x128x128.Idx → EReal)
  (ai aj : S128x2048.Idx → EReal)

/-- The specification's attn of the five arguments. -/
abbrev at_ : Fin 8 → Fin 2048 → Fin 2048 → EReal := attn (toX x) (toAdj adj) (toW w) (toA ai) (toA aj)

/-- attnᵀ · x at [b, m, f]: the sum over the row index n. -/
theorem ref_h1_apply (b : Fin 8) (m : Fin 2048) (f : Fin 128) :
    val_main_v36 (F := Ideal) x adj w ai aj (ix3 b m f) = h1R (toX x) (at_ x adj w ai aj) b m f := by
  rw [val_main_v36_apply]
  unfold h1R
  refine Finset.sum_congr rfl fun k _ => ?_
  have el : lidx_main_v36 (ix3 b m f) k = ix3 b k m :=
    funext fun a => by match a with | ⟨0, _⟩ => rfl | ⟨1, _⟩ => rfl | ⟨2, _⟩ => rfl
  have er : ridx_main_v36 (ix3 b m f) k = ix3 b k f :=
    funext fun a => by match a with | ⟨0, _⟩ => rfl | ⟨1, _⟩ => rfl | ⟨2, _⟩ => rfl
  rw [el, er, ref_attn_stage]
  exact mul_comm _ _

/-- (attnᵀ · x) · w₁ + f0 at [b, m, u]. -/
theorem ref_f1_apply (b : Fin 8) (m : Fin 2048) (u : Fin 128) :
    val_main_v40 (F := Ideal) x adj w ai aj (ix3 b m u)
      = (∑ f : Fin 128, h1R (toX x) (at_ x adj w ai aj) b m f * toW w 1 f u) + f0 (toX x) (toW w) b m u := by
  rw [val_main_v40_apply, val_main_v39_apply, ref_f0_apply]
  refine congrArg (· + _) (Finset.sum_congr rfl fun k _ => ?_)
  have el : lidx_main_v39 (ix3 b m u) k = ix3 b m k :=
    funext fun a => by match a with | ⟨0, _⟩ => rfl | ⟨1, _⟩ => rfl | ⟨2, _⟩ => rfl
  have er : ridx_main_v39 (ix3 b m u) k = ix2 k u :=
    funext fun a => by match a with | ⟨0, _⟩ => rfl | ⟨1, _⟩ => rfl
  rw [el, er, ref_h1_apply, ref_w1_apply]

/-- attn · attn at [b, n, m]: the sum over the middle index k. -/
theorem ref_a2_apply (b : Fin 8) (n m : Fin 2048) :
    val_main_v41 (F := Ideal) x adj w ai aj (ix3 b n m) = a2 (at_ x adj w ai aj) b n m := by
  rw [val_main_v41_apply]
  unfold a2
  refine Finset.sum_congr rfl fun k _ => ?_
  have el : lidx_main_v41 (ix3 b n m) k = ix3 b n k :=
    funext fun a => by match a with | ⟨0, _⟩ => rfl | ⟨1, _⟩ => rfl | ⟨2, _⟩ => rfl
  have er : ridx_main_v41 (ix3 b n m) k = ix3 b k m :=
    funext fun a => by match a with | ⟨0, _⟩ => rfl | ⟨1, _⟩ => rfl | ⟨2, _⟩ => rfl
  rw [el, er, ref_attn_stage, ref_attn_stage]

/-- (attn · attn)ᵀ · x at [b, m, f]. -/
theorem ref_h2_apply (b : Fin 8) (m : Fin 2048) (f : Fin 128) :
    val_main_v42 (F := Ideal) x adj w ai aj (ix3 b m f) = h2R (toX x) (at_ x adj w ai aj) b m f := by
  rw [val_main_v42_apply]
  unfold h2R
  refine Finset.sum_congr rfl fun k _ => ?_
  have el : lidx_main_v42 (ix3 b m f) k = ix3 b k m :=
    funext fun a => by match a with | ⟨0, _⟩ => rfl | ⟨1, _⟩ => rfl | ⟨2, _⟩ => rfl
  have er : ridx_main_v42 (ix3 b m f) k = ix3 b k f :=
    funext fun a => by match a with | ⟨0, _⟩ => rfl | ⟨1, _⟩ => rfl | ⟨2, _⟩ => rfl
  rw [el, er, ref_a2_apply]
  exact mul_comm _ _

/-- The reference's first result: max (h2 · w₂ + (h1 · w₁ + f0), 0). -/
theorem ref_f2_stage (b : Fin 8) (m : Fin 2048) (u : Fin 128) :
    val_main_v48 (F := Ideal) x adj w ai aj (ix3 b m u) = f2R (toX x) (toW w) (at_ x adj w ai aj) b m u := by
  have e0 : val_main_call0_v0 (F := Ideal) (ix3 b m u) = 0 := by
    rw [val_main_call0_v0_apply, val_main_call0_cst_apply]
    exact Ideal.ofBits_zero_f32
  rw [val_main_v48_apply, e0, val_main_v46_apply, val_main_v45_apply, ref_f1_apply]
  unfold f2R
  refine congrArg (fun t => max (t + _) 0) (Finset.sum_congr rfl fun k _ => ?_)
  have el : lidx_main_v45 (ix3 b m u) k = ix3 b m k :=
    funext fun a => by match a with | ⟨0, _⟩ => rfl | ⟨1, _⟩ => rfl | ⟨2, _⟩ => rfl
  have er : ridx_main_v45 (ix3 b m u) k = ix2 k u :=
    funext fun a => by match a with | ⟨0, _⟩ => rfl | ⟨1, _⟩ => rfl
  rw [el, er, ref_h2_apply, ref_w2_apply]

end Cert.ReferenceIdeal.RefSpec

end
-- ==== Proof.RefSpec.lean ====
/-
  The reference program's two results are the specification, index by index: its second result is attn of the five
  arguments, its first is max (h2 · w₂ + (h1 · w₁ + f0), 0) over that attn; and its run, stated with those two terms.
-/
import proofs.«104206_j73323681677635_2_alg».proof.Proof.RefSpecHops

noncomputable section

namespace Cert.ReferenceIdeal.RefSpec

open Idealize.ShloMosaic Idealize.ShloMosaic.ValueIdx Idealize.ShloMosaic.TcCoe Idealize.SL.Sem
  Cert.ReferenceIdeal Cert.ReferenceIdeal.Gen Cert.ReferenceIdeal.Read Cert.Spec

/-- The run's composed term for the attention result, as a function of the five argument arrays. -/
abbrev R35 (x : S8x2048x128.Idx → EReal) (adj : S2048x2048.Idx → EReal) (w : S3x128x128.Idx → EReal)
    (ai aj : S128x2048.Idx → EReal) : S8x2048x2048.Idx → EReal :=
  val_main_v35 (F := Ideal) x adj w ai aj

/-- The run's composed term for the feature result, as a function of the five argument arrays. -/
abbrev R48 (x : S8x2048x128.Idx → EReal) (adj : S2048x2048.Idx → EReal) (w : S3x128x128.Idx → EReal)
    (ai aj : S128x2048.Idx → EReal) : S8x2048x128.Idx → EReal :=
  val_main_v48 (F := Ideal) x adj w ai aj

/-- The reference's attention result is the specification's attn. -/
theorem ref_attn_apply (x : S8x2048x128.Idx → EReal) (adj : S2048x2048.Idx → EReal) (w : S3x128x128.Idx → EReal)
    (ai aj : S128x2048.Idx → EReal) (b : Fin 8) (n m : Fin 2048) :
    R35 x adj w ai aj (ix3 b n m) = Cert.Spec.attn (toX x) (toAdj adj) (toW w) (toA ai) (toA aj) b n m :=
  ref_attn_stage x adj w ai aj b n m

/-- The reference's feature result is the specification's f2R over that attn. -/
theorem ref_f2_apply (x : S8x2048x128.Idx → EReal) (adj : S2048x2048.Idx → EReal) (w : S3x128x128.Idx → EReal)
    (ai aj : S128x2048.Idx → EReal) (b : Fin 8) (m : Fin 2048) (u : Fin 128) :
    R48 x adj w ai aj (ix3 b m u)
      = Cert.Spec.f2R (toX x) (toW w) (Cert.Spec.attn (toX x) (toAdj adj) (toW w) (toA ai) (toA aj)) b m u :=
  ref_f2_stage x adj w ai aj b m u

/-- The reference's run: every weakly fair execution ends with the two results at R48 and R35 of the launch contents
    of the five arguments, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v48)
          = R48 (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4))
      ∧ r.2.mem ((c.tc : Thread nD τ).loc main_v35)
          = R35 (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run (defs (F := Ideal)) _ _).mono
    (fun _ h c => ⟨(h c).1.trans (val_main_v48_eq m' c), (h c).2.1.trans (val_main_v35_eq m' c), (h c).2.2⟩)
    (Cert.ReferenceIdeal.Value.run (F := Ideal) m' ρ')

end Cert.ReferenceIdeal.RefSpec

end
-- ==== Proof.RefSpecFrame.lean ====
/-
  The reference's frame: it runs to the end, faults nowhere, and leaves its five arguments unchanged. This is its run
  with the two results dropped.
-/
import proofs.«104206_j73323681677635_2_alg».proof.Proof.RefSpec
import proofs.«104206_j73323681677635_2_alg».proof.Defs
import proofs.«104206_j73323681677635_2_alg».proof.Proof.Gen.Pre_finite_inputs

noncomputable section

namespace Cert.ReferenceIdeal.RefSpec

open Idealize.ShloMosaic Idealize.SL.Sem

/-- The reference's frame claim. -/
theorem ref_frame : Cert.frame_ReferenceIdeal :=
  fun m ρ _ => (θ_run Cert.ReferenceIdeal.defs _ _).mono (fun _ h c => (h c).2.2) (ref_run m ρ)

end Cert.ReferenceIdeal.RefSpec

end
-- ==== Proof.SpecCol.lean ====
/-
  Column q of tile j of the 2048 columns: 256 · j + q.
-/
import proofs.«104206_j73323681677635_2_alg».proof.Proof.SpecBlock

namespace Cert.Spec

/-- The column of the whole matrix that is column q of tile j. -/
def col (j : Fin 8) (q : Fin 256) : Fin 2048 := ⟨256 * j.val + q.val, by omega⟩

end Cert.Spec
-- ==== Proof.PayLay.lean ====
/-
  The three re-lays of the attention kernel's body read at an index: a [a,b] value stored as a [1,a,b] block
  reads, at (0, i, j), the value at (i, j); the rounding to bf16 on the way is the identity on the extended reals.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Cert.KernelIdeal ValueIdx

/-- The f32 tile stored as a [1,2048,256] block. -/
theorem pay1_apply (v35 : FVec Ideal S2048x256 .f32) (n : Fin 2048) (q : Fin 256) :
    Gen.k0_pay1 (F := Ideal) v35 (ix3 0 n q) = v35 (ix2 n q) := by
  unfold Gen.k0_pay1
  exact shapeCast_ab_1ab_apply v35 _ 0 n q

/-- The same tile rounded to bf16 (the identity here) and stored as a [1,2048,256] block. -/
theorem pay2_apply (v35 : FVec Ideal S2048x256 .f32) (n : Fin 2048) (q : Fin 256) :
    Gen.k0_pay2 (F := Ideal) v35 (ix3 0 n q) = v35 (ix2 n q) := by
  unfold Gen.k0_pay2
  exact (shapeCast_ab_1ab_apply (truncf (F := Ideal) .bf16 v35 Gen.bitsLt_bf16_f32) _ 0 n q).trans (truncf_apply v35 _ _)

/-- The dense product's rows stored as a [1,2048,128] block. -/
theorem pay3_apply (v46 : Vec Ideal S2048x128 .f32) (n : Fin 2048) (u : Fin 128) :
    Gen.k0_pay3 (F := Ideal) v46 (ix3 0 n u) = v46 (ix2 n u) := by
  unfold Gen.k0_pay3
  exact shapeCast_ab_1ab_apply v46 _ 0 n u

end Cert.KernelIdeal.Pay

end
-- ==== Proof.PayDot.lean ====
/-
  The four matrix products of the two kernel bodies, each read at an output index as a finite sum over the
  one contracted coordinate. Each product accumulates into the zero splat, so only the sum is left; the
  contraction index of the product is identified with its single coordinate, and the operand indices at
  (output index, contraction coordinate) are computed axis by axis from the dimension numbers.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Cert.KernelIdeal ValueIdx

/-! ### A [2048,128]·[128,128] product into the zero accumulator: out[n,u] = Σ_f lhs[n,f]·rhs[f,u]. -/

theorem dotRowCol128_lhs_non (j : S2048x128.Idx) (q : dot_S2048x128_S128x128_S2048x128_1_0_0_1_n_n.contr.Idx) :
    (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem dotRowCol128_lhs_con (j : S2048x128.Idx) (q : dot_S2048x128_S128x128_S2048x128_1_0_0_1_n_n.contr.Idx) :
    (dot_S2048x128_S128x128_S2048x128_1_0_0_1_n_n.lhsIdx j q 1).val = (q ⟨0, by decide⟩).val :=
  dot_S2048x128_S128x128_S2048x128_1_0_0_1_n_n.lhsIdx_val_of_single rfl j q
theorem dotRowCol128_rhs_non (j : S2048x128.Idx) (q : dot_S2048x128_S128x128_S2048x128_1_0_0_1_n_n.contr.Idx) :
    (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl
theorem dotRowCol128_rhs_con (j : S2048x128.Idx) (q : dot_S2048x128_S128x128_S2048x128_1_0_0_1_n_n.contr.Idx) :
    (dot_S2048x128_S128x128_S2048x128_1_0_0_1_n_n.rhsIdx j q 0).val = (q ⟨0, by decide⟩).val :=
  dot_S2048x128_S128x128_S2048x128_1_0_0_1_n_n.rhsIdx_val_of_single rfl j q

/-- A [2048,128]·[128,128] product into the zero accumulator: out[n,u] = Σ_f lhs[n,f]·rhs[f,u]. -/
theorem dotRowCol128_apply {φ₁ φ₂ : FTy} (lhs : FVec Ideal S2048x128 φ₁) (rhs : FVec Ideal S128x128 φ₂) (n : Fin 2048) (u : Fin 128) :
    matmul dot_S2048x128_S128x128_S2048x128_1_0_0_1_n_n none lhs rhs (constant (F := Ideal) S2048x128 .f32 0x00000000#32) (ix2 n u)
      = ∑ f : Fin 128, lhs (ix2 n f) * rhs (ix2 f u) := by
  simp only [matmul]
  rw [Ideal.matmul_constant_zero_apply, ← Equiv.sum_comp (contrEquiv1 dot_S2048x128_S128x128_S2048x128_1_0_0_1_n_n 128 rfl rfl).symm]
  refine Finset.sum_congr rfl fun f _ => ?_
  have hk := contrEquiv1_symm_val dot_S2048x128_S128x128_S2048x128_1_0_0_1_n_n 128 rfl rfl f
  have el : dot_S2048x128_S128x128_S2048x128_1_0_0_1_n_n.lhsIdx (ix2 n u) ((contrEquiv1 dot_S2048x128_S128x128_S2048x128_1_0_0_1_n_n 128 rfl rfl).symm f) = ix2 n f := funext fun a => Fin.ext (by
    match a with
    | ⟨0, _⟩ => exact dotRowCol128_lhs_non _ _
    | ⟨1, _⟩ => exact (dotRowCol128_lhs_con _ _).trans hk)
  have er : dot_S2048x128_S128x128_S2048x128_1_0_0_1_n_n.rhsIdx (ix2 n u) ((contrEquiv1 dot_S2048x128_S128x128_S2048x128_1_0_0_1_n_n 128 rfl rfl).symm f) = ix2 f u := funext fun a => Fin.ext (by
    match a with
    | ⟨0, _⟩ => exact (dotRowCol128_rhs_con _ _).trans hk
    | ⟨1, _⟩ => exact dotRowCol128_rhs_non _ _)
  rw [el, er]

/-! ### A [2048,128]·[128,256] product into the zero accumulator: out[n,q] = Σ_u lhs[n,u]·rhs[u,q]. -/

theorem dotRowCol256_lhs_non (j : S2048x256.Idx) (q : dot_S2048x128_S128x256_S2048x256_1_0_0_1_n_n.contr.Idx) :
    (dot_S2048x128_S128x256_S2048x256_1_0_0_1_n_n.lhsIdx j q 0).val = (j 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem dotRowCol256_lhs_con (j : S2048x256.Idx) (q : dot_S2048x128_S128x256_S2048x256_1_0_0_1_n_n.contr.Idx) :
    (dot_S2048x128_S128x256_S2048x256_1_0_0_1_n_n.lhsIdx j q 1).val = (q ⟨0, by decide⟩).val :=
  dot_S2048x128_S128x256_S2048x256_1_0_0_1_n_n.lhsIdx_val_of_single rfl j q
theorem dotRowCol256_rhs_non (j : S2048x256.Idx) (q : dot_S2048x128_S128x256_S2048x256_1_0_0_1_n_n.contr.Idx) :
    (dot_S2048x128_S128x256_S2048x256_1_0_0_1_n_n.rhsIdx j q 1).val = (j 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl
theorem dotRowCol256_rhs_con (j : S2048x256.Idx) (q : dot_S2048x128_S128x256_S2048x256_1_0_0_1_n_n.contr.Idx) :
    (dot_S2048x128_S128x256_S2048x256_1_0_0_1_n_n.rhsIdx j q 0).val = (q ⟨0, by decide⟩).val :=
  dot_S2048x128_S128x256_S2048x256_1_0_0_1_n_n.rhsIdx_val_of_single rfl j q

/-- A [2048,128]·[128,256] product into the zero accumulator: out[n,q] = Σ_u lhs[n,u]·rhs[u,q]. -/
theorem dotRowCol256_apply {φ₁ φ₂ : FTy} (lhs : FVec Ideal S2048x128 φ₁) (rhs : FVec Ideal S128x256 φ₂) (n : Fin 2048) (q : Fin 256) :
    matmul dot_S2048x128_S128x256_S2048x256_1_0_0_1_n_n none lhs rhs (constant (F := Ideal) S2048x256 .f32 0x00000000#32) (ix2 n q)
      = ∑ u : Fin 128, lhs (ix2 n u) * rhs (ix2 u q) := by
  simp only [matmul]
  rw [Ideal.matmul_constant_zero_apply, ← Equiv.sum_comp (contrEquiv1 dot_S2048x128_S128x256_S2048x256_1_0_0_1_n_n 128 rfl rfl).symm]
  refine Finset.sum_congr rfl fun u _ => ?_
  have hk := contrEquiv1_symm_val dot_S2048x128_S128x256_S2048x256_1_0_0_1_n_n 128 rfl rfl u
  have el : dot_S2048x128_S128x256_S2048x256_1_0_0_1_n_n.lhsIdx (ix2 n q) ((contrEquiv1 dot_S2048x128_S128x256_S2048x256_1_0_0_1_n_n 128 rfl rfl).symm u) = ix2 n u := funext fun a => Fin.ext (by
    match a with
    | ⟨0, _⟩ => exact dotRowCol256_lhs_non _ _
    | ⟨1, _⟩ => exact (dotRowCol256_lhs_con _ _).trans hk)
  have er : dot_S2048x128_S128x256_S2048x256_1_0_0_1_n_n.rhsIdx (ix2 n q) ((contrEquiv1 dot_S2048x128_S128x256_S2048x256_1_0_0_1_n_n 128 rfl rfl).symm u) = ix2 u q := funext fun a => Fin.ext (by
    match a with
    | ⟨0, _⟩ => exact (dotRowCol256_rhs_con _ _).trans hk
    | ⟨1, _⟩ => exact dotRowCol256_rhs_non _ _)
  rw [el, er]

/-! ### A [128,2048]ᵀ·[256,128]ᵀ product into the zero accumulator (left axis 0 against right axis 1): out[n,q] = Σ_u lhs[u,n]·rhs[q,u]. -/

theorem dotColRow_lhs_non (j : S2048x256.Idx) (q : dot_S128x2048_S256x128_S2048x256_0_1_1_0_n_n.contr.Idx) :
    (dot_S128x2048_S256x128_S2048x256_0_1_1_0_n_n.lhsIdx j q 1).val = (j 0).val := by
  unfold DotDims.lhsIdx
  rw [dif_neg (show ¬(1 : Fin S128x2048.rank) ∈ dot_S128x2048_S256x128_S2048x256_0_1_1_0_n_n.lhsBatch by decide), dif_pos (show (1 : Fin S128x2048.rank) ∈ dot_S128x2048_S256x128_S2048x256_0_1_1_0_n_n.lhsNonContracting by decide)]
  rfl
theorem dotColRow_lhs_con (j : S2048x256.Idx) (q : dot_S128x2048_S256x128_S2048x256_0_1_1_0_n_n.contr.Idx) :
    (dot_S128x2048_S256x128_S2048x256_0_1_1_0_n_n.lhsIdx j q 0).val = (q ⟨0, by decide⟩).val :=
  dot_S128x2048_S256x128_S2048x256_0_1_1_0_n_n.lhsIdx_val_of_single rfl j q
theorem dotColRow_rhs_non (j : S2048x256.Idx) (q : dot_S128x2048_S256x128_S2048x256_0_1_1_0_n_n.contr.Idx) :
    (dot_S128x2048_S256x128_S2048x256_0_1_1_0_n_n.rhsIdx j q 0).val = (j 1).val := by
  unfold DotDims.rhsIdx
  rw [dif_neg (show ¬(0 : Fin S256x128.rank) ∈ dot_S128x2048_S256x128_S2048x256_0_1_1_0_n_n.rhsBatch by decide), dif_pos (show (0 : Fin S256x128.rank) ∈ dot_S128x2048_S256x128_S2048x256_0_1_1_0_n_n.rhsNonContracting by decide)]
  rfl
theorem dotColRow_rhs_con (j : S2048x256.Idx) (q : dot_S128x2048_S256x128_S2048x256_0_1_1_0_n_n.contr.Idx) :
    (dot_S128x2048_S256x128_S2048x256_0_1_1_0_n_n.rhsIdx j q 1).val = (q ⟨0, by decide⟩).val :=
  dot_S128x2048_S256x128_S2048x256_0_1_1_0_n_n.rhsIdx_val_of_single rfl j q

/-- A [128,2048]ᵀ·[256,128]ᵀ product into the zero accumulator (left axis 0 against right axis 1): out[n,q] = Σ_u lhs[u,n]·rhs[q,u]. -/
theorem dotColRow_apply {φ₁ φ₂ : FTy} (lhs : FVec Ideal S128x2048 φ₁) (rhs : FVec Ideal S256x128 φ₂) (n : Fin 2048) (q : Fin 256) :
    matmul dot_S128x2048_S256x128_S2048x256_0_1_1_0_n_n none lhs rhs (constant (F := Ideal) S2048x256 .f32 0x00000000#32) (ix2 n q)
      = ∑ u : Fin 128, lhs (ix2 u n) * rhs (ix2 q u) := by
  simp only [matmul]
  rw [Ideal.matmul_constant_zero_apply, ← Equiv.sum_comp (contrEquiv1 dot_S128x2048_S256x128_S2048x256_0_1_1_0_n_n 128 rfl rfl).symm]
  refine Finset.sum_congr rfl fun u _ => ?_
  have hk := contrEquiv1_symm_val dot_S128x2048_S256x128_S2048x256_0_1_1_0_n_n 128 rfl rfl u
  have el : dot_S128x2048_S256x128_S2048x256_0_1_1_0_n_n.lhsIdx (ix2 n q) ((contrEquiv1 dot_S128x2048_S256x128_S2048x256_0_1_1_0_n_n 128 rfl rfl).symm u) = ix2 u n := funext fun a => Fin.ext (by
    match a with
    | ⟨0, _⟩ => exact (dotColRow_lhs_con _ _).trans hk
    | ⟨1, _⟩ => exact dotColRow_lhs_non _ _)
  have er : dot_S128x2048_S256x128_S2048x256_0_1_1_0_n_n.rhsIdx (ix2 n q) ((contrEquiv1 dot_S128x2048_S256x128_S2048x256_0_1_1_0_n_n 128 rfl rfl).symm u) = ix2 q u := funext fun a => Fin.ext (by
    match a with
    | ⟨0, _⟩ => exact dotColRow_rhs_non _ _
    | ⟨1, _⟩ => exact (dotColRow_rhs_con _ _).trans hk)
  rw [el, er]

/-! ### A [2048,2048]ᵀ·[2048,128] product into the zero accumulator (axis 0 of both contracted): out[m,f] = Σ_n lhs[n,m]·rhs[n,f]. -/

theorem dotColCol_lhs_non (j : S2048x128.Idx) (q : dot_S2048x2048_S2048x128_S2048x128_0_0_1_1_n_n.contr.Idx) :
    (dot_S2048x2048_S2048x128_S2048x128_0_0_1_1_n_n.lhsIdx j q 1).val = (j 0).val := by
  unfold DotDims.lhsIdx
  rw [dif_neg (show ¬(1 : Fin S2048x2048.rank) ∈ dot_S2048x2048_S2048x128_S2048x128_0_0_1_1_n_n.lhsBatch by decide), dif_pos (show (1 : Fin S2048x2048.rank) ∈ dot_S2048x2048_S2048x128_S2048x128_0_0_1_1_n_n.lhsNonContracting by decide)]
  rfl
theorem dotColCol_lhs_con (j : S2048x128.Idx) (q : dot_S2048x2048_S2048x128_S2048x128_0_0_1_1_n_n.contr.Idx) :
    (dot_S2048x2048_S2048x128_S2048x128_0_0_1_1_n_n.lhsIdx j q 0).val = (q ⟨0, by decide⟩).val :=
  dot_S2048x2048_S2048x128_S2048x128_0_0_1_1_n_n.lhsIdx_val_of_single rfl j q
theorem dotColCol_rhs_non (j : S2048x128.Idx) (q : dot_S2048x2048_S2048x128_S2048x128_0_0_1_1_n_n.contr.Idx) :
    (dot_S2048x2048_S2048x128_S2048x128_0_0_1_1_n_n.rhsIdx j q 1).val = (j 1).val := by
  unfold DotDims.rhsIdx
  rw [dif_neg (show ¬(1 : Fin S2048x128.rank) ∈ dot_S2048x2048_S2048x128_S2048x128_0_0_1_1_n_n.rhsBatch by decide), dif_pos (show (1 : Fin S2048x128.rank) ∈ dot_S2048x2048_S2048x128_S2048x128_0_0_1_1_n_n.rhsNonContracting by decide)]
  rfl
theorem dotColCol_rhs_con (j : S2048x128.Idx) (q : dot_S2048x2048_S2048x128_S2048x128_0_0_1_1_n_n.contr.Idx) :
    (dot_S2048x2048_S2048x128_S2048x128_0_0_1_1_n_n.rhsIdx j q 0).val = (q ⟨0, by decide⟩).val :=
  dot_S2048x2048_S2048x128_S2048x128_0_0_1_1_n_n.rhsIdx_val_of_single rfl j q

/-- A [2048,2048]ᵀ·[2048,128] product into the zero accumulator (axis 0 of both contracted): out[m,f] = Σ_n lhs[n,m]·rhs[n,f]. -/
theorem dotColCol_apply {φ₁ φ₂ : FTy} (lhs : FVec Ideal S2048x2048 φ₁) (rhs : FVec Ideal S2048x128 φ₂) (m : Fin 2048) (f : Fin 128) :
    matmul dot_S2048x2048_S2048x128_S2048x128_0_0_1_1_n_n none lhs rhs (constant (F := Ideal) S2048x128 .f32 0x00000000#32) (ix2 m f)
      = ∑ n : Fin 2048, lhs (ix2 n m) * rhs (ix2 n f) := by
  simp only [matmul]
  rw [Ideal.matmul_constant_zero_apply, ← Equiv.sum_comp (contrEquiv1 dot_S2048x2048_S2048x128_S2048x128_0_0_1_1_n_n 2048 rfl rfl).symm]
  refine Finset.sum_congr rfl fun n _ => ?_
  have hk := contrEquiv1_symm_val dot_S2048x2048_S2048x128_S2048x128_0_0_1_1_n_n 2048 rfl rfl n
  have el : dot_S2048x2048_S2048x128_S2048x128_0_0_1_1_n_n.lhsIdx (ix2 m f) ((contrEquiv1 dot_S2048x2048_S2048x128_S2048x128_0_0_1_1_n_n 2048 rfl rfl).symm n) = ix2 n m := funext fun a => Fin.ext (by
    match a with
    | ⟨0, _⟩ => exact (dotColCol_lhs_con _ _).trans hk
    | ⟨1, _⟩ => exact dotColCol_lhs_non _ _)
  have er : dot_S2048x2048_S2048x128_S2048x128_0_0_1_1_n_n.rhsIdx (ix2 m f) ((contrEquiv1 dot_S2048x2048_S2048x128_S2048x128_0_0_1_1_n_n 2048 rfl rfl).symm n) = ix2 n f := funext fun a => Fin.ext (by
    match a with
    | ⟨0, _⟩ => exact (dotColCol_rhs_con _ _).trans hk
    | ⟨1, _⟩ => exact dotColCol_rhs_non _ _)
  rw [el, er]

end Cert.KernelIdeal.Pay

end
-- ==== Proof.Pay5Logit.lean ====
/-
  The attention tile's masked logits read at an index: two matrix products (all of f0 against the tile's
  columns of ai; all of aj, transposed, against the tile's rows of f0, transposed) plus the mask term
  NEG·(1 − |A|), with NEG = -1e9 and 1 kept as their words. The roundings to bf16 are identities here.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout
import proofs.«104206_j73323681677635_2_alg».proof.Proof.PayDot

noncomputable section

namespace Cert.KernelIdeal.Pay

open Idealize.ShloMosaic Cert.KernelIdeal ValueIdx

/-- The logits as the body computes them from its five loads. -/
def logitV (v5 : Vec Ideal S2048x128 .f32) (v7 : Vec Ideal S256x128 .f32) (v10 : Vec Ideal S128x256 .f32)
    (v12 : Vec Ideal S128x2048 .f32) (v17 : Vec Ideal S2048x256 .f32) : FVec Ideal S2048x256 .f32 :=
  addf
    (addf
      (matmul dot_S2048x128_S128x256_S2048x256_1_0_0_1_n_n none (truncf .bf16 v5 Gen.bitsLt_bf16_f32)
        (truncf .bf16 v10 Gen.bitsLt_bf16_f32) (constant S2048x256 .f32 0x00000000#32))
      (matmul dot_S128x2048_S256x128_S2048x256_0_1_1_0_n_n none (truncf .bf16 v12 Gen.bitsLt_bf16_f32)
        (truncf .bf16 v7 Gen.bitsLt_bf16_f32) (constant S2048x256 .f32 0x00000000#32)))
    (mulf (broadcast S2048x256 (Scalar.ofBits (F := Ideal) .f32 0xCE6E6B28#32))
      (subf (broadcast S2048x256 (Scalar.ofBits (F := Ideal) .f32 0x3F800000#32))
        (absf (shapeCast S2048x256 v17 Gen.shapeCasts_S2048x256_S2048x256))))

theorem logitV_apply (v5 : Vec Ideal S2048x128 .f32) (v7 : Vec Ideal S256x128 .f32) (v10 : Vec Ideal S128x256 .f32)
    (v12 : Vec Ideal S128x2048 .f32) (v17 : Vec Ideal S2048x256 .f32) (n : Fin 2048) (q : Fin 256) :
    logitV v5 v7 v10 v12 v17 (ix2 n q)
      = Cert.Spec.tileLogit (fun n u => v5 (ix2 n u)) (fun q u => v7 (ix2 q u)) (fun u q => v10 (ix2 u q))
          (fun u n => v12 (ix2 u n)) (fun n q => v17 (ix2 n q)) n q := by
  unfold logitV Cert.Spec.tileLogit Cert.Spec.negBig Cert.Spec.one
  simp only [addf_apply, mulf_apply, subf_apply, broadcast_apply, dotRowCol256_apply, dotColRow_apply,
    truncf_apply, shapeCast_self]
  rfl

end Cert.KernelIdeal.Pay

end
-- ==== Proof.Pay5Soft.lean ====
/-
  The column softmax of the attention tile, for ANY [2048,256] array of logits L and any mask A, read at an
  index: the maximum of column q is the supremum over the 2048 rows starting from -∞ (the word 0xFF800000),
  kept as a [1,256] row and broadcast back down the rows; the exponentials of the differences are summed down
  the column from the zero word; the quotient is multiplied by the mask:
    out[n,q] = exp (L[n,q] − sup_n' L[n',q]) / Σ_n' exp (L[n',q] − sup_n'' L[n'',q]) · A[n,q].
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Cert.KernelIdeal ValueIdx

/-- The f32 word 0xFF800000 is -∞. -/
theorem ofBits_negInf_f32 : Ideal.ofBits .f32 0xFF800000#32 = ⊥ := by simp [Ideal.ofBits, Ideal.ieee]

/-- A fold of max from ⊥ is the supremum. -/
theorem fold_max_bot_eq_sup {ι : Type} (s : Finset ι) (f : ι → EReal) : s.fold max ⊥ f = s.sup f := by
  refine le_antisymm ?_ ?_
  · rw [Finset.fold_max_le]; exact ⟨bot_le, fun x hx => Finset.le_sup hx⟩
  · exact Finset.sup_le fun x hx => by rw [Finset.le_fold_max]; exact Or.inr ⟨x, hx, le_rfl⟩

/-- A fold of max over a whole finite type from the word of -∞ is the supremum. -/
theorem fold_max_negInf_eq_sup {ι : Type} [Fintype ι] (f : ι → EReal) :
    (Finset.univ : Finset ι).fold max (FloatOps.ofBits (F := Ideal) .f32 0xFF800000#32) f = Finset.univ.sup f := by
  show Finset.fold max (Ideal.ofBits .f32 0xFF800000#32) f Finset.univ = _
  rw [ofBits_negInf_f32]
  exact fold_max_bot_eq_sup _ _

/-- The column index q with the row n inserted on axis 0 is (n, q). -/
theorem lift_col (h : S2048x256.Reduces [0] S256) (q : Fin 256) (n : Fin 2048) : h.lift (ix1 q) n = ix2 n q :=
  funext fun a => Fin.ext (by match a with | ⟨0, _⟩ => rfl | ⟨1, _⟩ => rfl)

/-- The column maximum from -∞, as a [1,256] row broadcast down the rows. -/
def colMaxV (L : FVec Ideal S2048x256 .f32) : FVec Ideal S2048x256 .f32 :=
  broadcastTo S2048x256
    (shapeCast S1x256 (multiReduction .maximumf [0] S256 L 0xFF800000#32 Gen.reduces_S2048x256_S256 (.inl rfl) rfl)
      Gen.shapeCasts_S256_S1x256)
    Gen.broadcasts_S1x256_S2048x256

/-- The column sum from zero, as a [1,256] row broadcast down the rows. -/
def colSumV (E : FVec Ideal S2048x256 .f32) : FVec Ideal S2048x256 .f32 :=
  broadcastTo S2048x256
    (shapeCast S1x256 (multiReduction .add [0] S256 E 0x00000000#32 Gen.reduces_S2048x256_S256 (.inl rfl) rfl)
      Gen.shapeCasts_S256_S1x256)
    Gen.broadcasts_S1x256_S2048x256

/-- The column softmax of L, times A. -/
def softmaxV (L A : FVec Ideal S2048x256 .f32) : FVec Ideal S2048x256 .f32 :=
  mulf (divf (exp (subf L (colMaxV L))) (colSumV (exp (subf L (colMaxV L))))) A

theorem colMaxV_apply (L : FVec Ideal S2048x256 .f32) (n : Fin 2048) (q : Fin 256) :
    colMaxV L (ix2 n q) = Finset.univ.sup fun n' : Fin 2048 => L (ix2 n' q) := by
  unfold colMaxV
  rw [broadcastTo_1b_ab_apply, shapeCast_a_1a_apply]
  refine (Ideal.multiReduction_maximumf_single L 0xFF800000#32 Gen.reduces_S2048x256_S256 (.inl rfl) rfl (ix1 q)).trans ?_
  refine (fold_max_negInf_eq_sup _).trans ?_
  exact congrArg (Finset.univ.sup) (funext fun n' => congrArg L (lift_col _ q n'))

theorem colSumV_apply (E : FVec Ideal S2048x256 .f32) (n : Fin 2048) (q : Fin 256) :
    colSumV E (ix2 n q) = ∑ n' : Fin 2048, E (ix2 n' q) := by
  unfold colSumV
  rw [broadcastTo_1b_ab_apply, shapeCast_a_1a_apply]
  refine (Ideal.multiReduction_add_single E 0x00000000#32 Gen.reduces_S2048x256_S256 (.inl rfl) rfl (ix1 q)).trans ?_
  show ∑ n' : Fin 2048, E (Gen.reduces_S2048x256_S256.lift (ix1 q) n') = _
  exact Finset.sum_congr rfl fun n' _ => congrArg E (lift_col _ q n')

theorem softmaxV_apply (L A : FVec Ideal S2048x256 .f32) (n : Fin 2048) (q : Fin 256) :
    softmaxV L A (ix2 n q)
      = Ideal.div (Ideal.exp (L (ix2 n q) - Finset.univ.sup fun n' : Fin 2048 => L (ix2 n' q)))
          (∑ n' : Fin 2048, Ideal.exp (L (ix2 n' q) - Finset.univ.sup fun n'' : Fin 2048 => L (ix2 n'' q)))
        * A (ix2 n q) := by
  have hE : ∀ n' : Fin 2048, exp (subf L (colMaxV L)) (ix2 n' q)
      = Ideal.exp (L (ix2 n' q) - Finset.univ.sup fun n'' : Fin 2048 => L (ix2 n'' q)) := fun n' => by
    show Ideal.exp (L (ix2 n' q) - colMaxV L (ix2 n' q)) = _
    rw [colMaxV_apply]
  unfold softmaxV
  rw [mulf_apply, divf_apply, colSumV_apply, hE n]
  simp only [hE]

end Cert.KernelIdeal.Pay

end
-- ==== Proof.Pay5.lean ====
/-
  One attention tile read at an index: the body's value is the column softmax of its masked logits times
  the mask, and with the logits and the softmax each read at an index this is the block-level specification
  tileAttn of the five loads.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout
import proofs.«104206_j73323681677635_2_alg».proof.Proof.Pay5Logit
import proofs.«104206_j73323681677635_2_alg».proof.Proof.Pay5Soft

noncomputable section

namespace Cert.KernelIdeal.Pay

open Idealize.ShloMosaic Cert.KernelIdeal ValueIdx

/-- The body's arithmetic is the column softmax of its logits, times the mask (by unfolding the definitions). -/
theorem pay5_eq (v5 : Vec Ideal S2048x128 .f32) (v7 : Vec Ideal S256x128 .f32) (v10 : Vec Ideal S128x256 .f32)
    (v12 : Vec Ideal S128x2048 .f32) (v17 : Vec Ideal S2048x256 .f32) :
    Gen.k0_pay5 (F := Ideal) v5 v7 v10 v12 v17
      = softmaxV (logitV v5 v7 v10 v12 v17) (shapeCast S2048x256 v17 Gen.shapeCasts_S2048x256_S2048x256) := rfl

theorem pay5_apply (v5 : Vec Ideal S2048x128 .f32) (v7 : Vec Ideal S256x128 .f32) (v10 : Vec Ideal S128x256 .f32)
    (v12 : Vec Ideal S128x2048 .f32) (v17 : Vec Ideal S2048x256 .f32) (n : Fin 2048) (q : Fin 256) :
    Gen.k0_pay5 (F := Ideal) v5 v7 v10 v12 v17 (ix2 n q)
      = Cert.Spec.tileAttn (fun n u => v5 (ix2 n u)) (fun q u => v7 (ix2 q u)) (fun u q => v10 (ix2 u q))
          (fun u n => v12 (ix2 u n)) (fun n q => v17 (ix2 n q)) n q := by
  rw [pay5_eq, softmaxV_apply]
  unfold Cert.Spec.tileAttn Cert.Spec.tileSum Cert.Spec.tileExp Cert.Spec.tileMax
  simp only [logitV_apply, shapeCast_self]

end Cert.KernelIdeal.Pay

end
-- ==== Proof.ValR0PiecesIdx.lean ====
/-
  The two dynamic slices of the attention kernel's body read at an index, and the grid's coordinates in closed
  form. At grid point t the batch element is t / 8 and the tile is j = t mod 8; the body reads rows
  256·j … 256·j + 255 of the scratch f, and columns 256·j … 256·j + 255 of A: row r of the first slice is row
  col j r of f, column q of the second is column col j q of A. The tile's specification depends only on its five
  operands.
-/
import proofs.«104206_j73323681677635_2_alg».proof.Proof.Gen.KernelIdeal
import proofs.«104206_j73323681677635_2_alg».proof.Proof.SpecCol
import proofs.«104206_j73323681677635_2_alg».proof.Proof.PayLay
import proofs.«104206_j73323681677635_2_alg».proof.Proof.Pay5
import Idealize.ShloMosaic.Lib.ValueIdx
import Idealize.ShloMosaic.Lib.Pipeline.Value

noncomputable section

namespace Cert.KernelIdeal.Val.Pieces

open Idealize.ShloMosaic Idealize.SL.Sem ValueIdx
open Cert.KernelIdeal Cert.KernelIdeal.Gen Cert.Spec

/-- The grid's two coordinates at point t: the batch element t / 8 and the tile t mod 8. -/
theorem coords0_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The 256 rows of f the body slices out at tile j: row r of the slice is row col j r of f. -/
theorem ld_rows_apply (xs : Vec Ideal S2048x128 .f32) (i : grid0.Coords) (j : Fin 8) (hj : (i 1).val = j.val)
    (r : Fin 256) (u : Fin 128) :
    (View.ld xs (Rect.unit (s := S2048x128) (k0_off1 i) S256x128.size (k0_off1_inb i)) : Vec Ideal S256x128 .f32) (ix2 r u)
      = xs (ix2 (col j r) u) := by
  show xs ((Rect.unit (s := S2048x128) (k0_off1 i) S256x128.size (k0_off1_inb i)).idx (ix2 r u)) = xs (ix2 (col j r) u)
  refine congrArg xs (funext fun a => Fin.ext ?_)
  match a with
  | ⟨0, _⟩ =>
    show k0_off1 i 0 + 1 * r.val = 256 * j.val + r.val
    rw [k0_off1_eq i]
    show 256 * (i 1).val + 1 * r.val = 256 * j.val + r.val
    rw [hj]; omega
  | ⟨1, _⟩ =>
    show k0_off1 i 1 + 1 * u.val = u.val
    rw [k0_off1_eq i]
    show 0 + 1 * u.val = u.val
    omega

/-- The 256 columns of A the body slices out at tile j: column q of the slice is column col j q of A. -/
theorem ld_cols_apply (x4 : Vec Ideal S2048x2048 .f32) (i : grid0.Coords) (j : Fin 8) (hj : (i 1).val = j.val)
    (n : Fin 2048) (q : Fin 256) :
    (View.ld x4 (Rect.unit (s := S2048x2048) (k0_off2 i) S2048x256.size (k0_off2_inb i)) : Vec Ideal S2048x256 .f32) (ix2 n q)
      = x4 (ix2 n (col j q)) := by
  show x4 ((Rect.unit (s := S2048x2048) (k0_off2 i) S2048x256.size (k0_off2_inb i)).idx (ix2 n q)) = x4 (ix2 n (col j q))
  refine congrArg x4 (funext fun a => Fin.ext ?_)
  match a with
  | ⟨0, _⟩ =>
    show k0_off2 i 0 + 1 * n.val = n.val
    rw [k0_off2_eq i]
    show 0 + 1 * n.val = n.val
    omega
  | ⟨1, _⟩ =>
    show k0_off2 i 1 + 1 * q.val = 256 * j.val + q.val
    rw [k0_off2_eq i]
    show 256 * (i 1).val + 1 * q.val = 256 * j.val + q.val
    rw [hj]; omega

/-- The tile's specification depends only on its five operands. -/
theorem tileAttn_congr {fAll fAll' : Fin 2048 → Fin 128 → EReal} {fTile fTile' : Fin 256 → Fin 128 → EReal}
    {aiT aiT' : Fin 128 → Fin 256 → EReal} {ajAll ajAll' : Fin 128 → Fin 2048 → EReal}
    {aT aT' : Fin 2048 → Fin 256 → EReal} (h1 : fAll = fAll') (h2 : fTile = fTile') (h3 : aiT = aiT')
    (h4 : ajAll = ajAll') (h5 : aT = aT') (n : Fin 2048) (q : Fin 256) :
    tileAttn fAll fTile aiT ajAll aT n q = tileAttn fAll' fTile' aiT' ajAll' aT' n q := by
  subst h1 h2 h3 h4 h5; rfl

/-- The dense product depends only on its two operands. -/
theorem dense_congr {xb xb' : Fin 2048 → Fin 128 → EReal} {wk wk' : Fin 128 → Fin 128 → EReal}
    (h1 : xb = xb') (h2 : wk = wk') (n : Fin 2048) (u : Fin 128) : dense xb wk n u = dense xb' wk' n u := by
  subst h1 h2; rfl

/-- What the body stores in the f32 attention block at tile j, read at an index: the tile of the column softmax
    computed from the scratch xs, its 256 rows of the tile, the tile's columns of ai, all of aj, and the tile's
    columns of A. -/
theorem tile5_of_blocks (xs : Vec Ideal S2048x128 .f32) (x2 : Vec Ideal S128x256 .f32) (x3 : Vec Ideal S128x2048 .f32)
    (x4 : Vec Ideal S2048x2048 .f32) (i : grid0.Coords) (j : Fin 8) (hj : (i 1).val = j.val) (n : Fin 2048) (q : Fin 256) :
    k0_pay1 (F := Ideal)
        (k0_pay5 xs (View.ld xs (Rect.unit (s := S2048x128) (k0_off1 i) S256x128.size (k0_off1_inb i))) x2 x3
          (View.ld x4 (Rect.unit (s := S2048x2048) (k0_off2 i) S2048x256.size (k0_off2_inb i)))) (ix3 0 n q)
      = tileAttn (fun n u => xs (ix2 n u)) (fun q u => xs (ix2 (col j q) u)) (fun u q => x2 (ix2 u q))
          (fun u n => x3 (ix2 u n)) (fun n q => x4 (ix2 n (col j q))) n q := by
  refine (Pay.pay1_apply _ n q).trans ?_
  refine (Pay.pay5_apply xs _ x2 x3 _ n q).trans ?_
  exact tileAttn_congr rfl (funext fun q => funext fun u => ld_rows_apply xs i j hj q u) rfl rfl
    (funext fun n => funext fun q => ld_cols_apply x4 i j hj n q) n q

/-- The same for the bf16 attention block: the rounding is the identity on the extended reals. -/
theorem tile6_of_blocks (xs : Vec Ideal S2048x128 .f32) (x2 : Vec Ideal S128x256 .f32) (x3 : Vec Ideal S128x2048 .f32)
    (x4 : Vec Ideal S2048x2048 .f32) (i : grid0.Coords) (j : Fin 8) (hj : (i 1).val = j.val) (n : Fin 2048) (q : Fin 256) :
    k0_pay2 (F := Ideal)
        (k0_pay5 xs (View.ld xs (Rect.unit (s := S2048x128) (k0_off1 i) S256x128.size (k0_off1_inb i))) x2 x3
          (View.ld x4 (Rect.unit (s := S2048x2048) (k0_off2 i) S2048x256.size (k0_off2_inb i)))) (ix3 0 n q)
      = tileAttn (fun n u => xs (ix2 n u)) (fun q u => xs (ix2 (col j q) u)) (fun u q => x2 (ix2 u q))
          (fun u n => x3 (ix2 u n)) (fun n q => x4 (ix2 n (col j q))) n q := by
  refine (Pay.pay2_apply _ n q).trans ?_
  refine (Pay.pay5_apply xs _ x2 x3 _ n q).trans ?_
  exact tileAttn_congr rfl (funext fun q => funext fun u => ld_rows_apply xs i j hj q u) rfl rfl
    (funext fun n => funext fun q => ld_cols_apply x4 i j hj n q) n q

end Cert.KernelIdeal.Val.Pieces

end
-- ==== Proof.Pay4.lean ====
/-
  The dense product f = x_b · w_0 of the attention kernel's first grid step, read at an index: the block of x
  with its unit axis dropped, times w_0, summed over the 128 input features. The two roundings to bf16 and the
  casts to the same shape are identities on the extended reals.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout
import proofs.«104206_j73323681677635_2_alg».proof.Proof.PayDot

noncomputable section

namespace Cert.KernelIdeal.Pay

open Idealize.ShloMosaic Cert.KernelIdeal ValueIdx

theorem pay4_apply (v46 : Vec Ideal S1x2048x128 .f32) (v49 : Vec Ideal S128x128 .f32) (n : Fin 2048) (u : Fin 128) :
    Gen.k0_pay4 (F := Ideal) v46 v49 (ix2 n u)
      = Cert.Spec.dense (fun n f => v46 (ix3 0 n f)) (fun f u => v49 (ix2 f u)) n u := by
  unfold Gen.k0_pay4 Cert.Spec.dense
  simp only [shapeCast_self, dotRowCol128_apply, truncf_apply, shapeCast_1ab_ab_apply]

end Cert.KernelIdeal.Pay

end
-- ==== Proof.ValR0Pieces.lean ====
/-
  What each point of region 0's grid leaves in its buffers, read at an index at the extended reals. Point t works
  on batch element t / 8 and tile t mod 8. From tile 0 of a row on, the scratch holds f = x_b · w_0 computed from
  the row's first blocks of x and w_0; at every point the two attention blocks hold the tile of the column softmax
  computed from that scratch, its 256 rows of the tile, the tile's columns of ai and of A, and all of aj; at tile 7
  the f0 block holds the scratch. The three control cases (tile 0, a middle tile, tile 7) leave the same values:
  at tile 0 the scratch the tile is computed from is the one the same point has just stored.
-/
import proofs.«104206_j73323681677635_2_alg».proof.Proof.FrData0Defs
import proofs.«104206_j73323681677635_2_alg».proof.Proof.ValR0PiecesIdx
import proofs.«104206_j73323681677635_2_alg».proof.Proof.Pay4
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.ShloMosaic.Tactic Idealize.SL.Sem ValueIdx
open Cert.KernelIdeal Cert.KernelIdeal.Gen Cert.KernelIdeal.Fr Cert.Spec

/-- The tile of point t: t mod 8. -/
def tileOf (t : Fin cfg0.N) : Fin 8 := ⟨t.val % 8, Nat.mod_lt _ (by decide)⟩

section Blocks
variable (V : (c : Dev nD) → (b : Ref sig .tc) → Buf (Elt Ideal) ((c : Thread nD τ).loc b))

/-- f = x_b · w_0 from the blocks of windows 0 and 1 at the first point of t's row. -/
def scrBlk (c : Dev nD) (t : Fin cfg0.N) (n : Fin 2048) (u : Fin 128) : EReal :=
  Cert.Spec.dense (fun n f => (iblk0 V c 0 (row0 t) : S1x2048x128.Idx → EReal) (ix3 0 n f))
    (fun f u => (iblk0 V c 1 (row0 t) : S128x128.Idx → EReal) (ix2 f u)) n u

end Blocks

/-! ## What each case's stores leave, as the body's arithmetic on what it loaded (any float instance) -/

namespace Pieces

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- At tile 0 the scratch is left holding the dense product of the x block and the weight block. -/
theorem out0_sA_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) :
    out0_sA (F := F) c i arg2 harg2 arg3 harg3 arg4 harg4 arg5 harg5 arg6 harg6 arg7 harg7 arg8 harg8 arg9 harg9 arg10 harg10 hc0 hc1 x0 x1 x2 x3 x4
      = k0_pay4 x0 x1 := by
  unfold out0_sA
  rw [View.read_writes_junk_eq_canon]
  unfold kernelRun0_A
  dsimp only
  sl_unfold_run_names
  rw [View.canon_unit_zero zeros2]
  simp only [View.readCov_unit_zero (S := S2048x128) _ zeros2, View.readAt_eq_ld, View.read_writes_junk_eq_canon,
    View.canon_unit_zero (S := S2048x128) zeros2, harg2.read_unread, harg3.read_unread, harg4.read_unread, harg5.read_unread,
    harg6.read_unread, View.ld_unit_zero (S := S1x2048x128) zeros3, View.ld_unit_zero (S := S128x128) zeros2,
    View.ld_unit_zero (S := S128x256) zeros2, View.ld_unit_zero (S := S128x2048) zeros2]

/-- At tile 0 the f32 attention block is the tile computed from the scratch the same point has just stored. -/
theorem out0_A_5_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) :
    out0_A_5 (F := F) c i arg2 harg2 arg3 harg3 arg4 harg4 arg5 harg5 arg6 harg6 arg7 harg7 arg8 harg8 arg9 harg9 arg10 harg10 hc0 hc1 x0 x1 x2 x3 x4
      = k0_pay1 (k0_pay5 (k0_pay4 x0 x1) (View.ld (k0_pay4 x0 x1) (Rect.unit (s := S2048x128) (k0_off1 i) S256x128.size (k0_off1_inb i))) x2 x3 (View.ld x4 (Rect.unit (s := S2048x2048) (k0_off2 i) S2048x256.size (k0_off2_inb i)))) := by
  unfold out0_A_5
  rw [View.read_writes_junk_eq_canon]
  unfold kernelRun0_A
  dsimp only
  sl_unfold_run_names
  rw [View.canon_unit_zero zeros3]
  simp only [View.readCov_unit_zero (S := S2048x128) _ zeros2, View.readAt_eq_ld, View.read_writes_junk_eq_canon,
    View.canon_unit_zero (S := S2048x128) zeros2, harg2.read_unread, harg3.read_unread, harg4.read_unread, harg5.read_unread,
    harg6.read_unread, View.ld_unit_zero (S := S1x2048x128) zeros3, View.ld_unit_zero (S := S128x128) zeros2,
    View.ld_unit_zero (S := S128x256) zeros2, View.ld_unit_zero (S := S128x2048) zeros2]

/-- At tile 0 the bf16 attention block is the same tile, rounded. -/
theorem out0_A_6_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : cond0_0 i) (hc1 : ¬cond0_1 i)
    (x0 : Vec F S1x2048x128 .f32) (x1 : Vec F S128x128 .f32) (x2 : Vec F S128x256 .f32) (x3 : Vec F S128x2048 .f32) (x4 : Vec F S2048x2048 .f32) :
    out0_A_6 (F := F) c i arg2 harg2 arg3 harg3 arg4 harg4 arg5 harg5 arg6 harg6 arg7 harg7 arg8 harg8 arg9 harg9 arg10 harg10 hc0 hc1 x0 x1 x2 x3 x4
      = k0_pay2 (k0_pay5 (k0_pay4 x0 x1) (View.ld (k0_pay4 x0 x1) (Rect.unit (s := S2048x128) (k0_off1 i) S256x128.size (k0_off1_inb i))) x2 x3 (View.ld x4 (Rect.unit (s := S2048x2048) (k0_off2 i) S2048x256.size (k0_off2_inb i)))) := by
  unfold out0_A_6
  rw [View.read_writes_junk_eq_canon]
  unfold kernelRun0_A
  dsimp only
  sl_unfold_run_names
  rw [View.canon_unit_zero zeros3]
  simp only [View.readCov_unit_zero (S := S2048x128) _ zeros2, View.readAt_eq_ld, View.read_writes_junk_eq_canon,
    View.canon_unit_zero (S := S2048x128) zeros2, harg2.read_unread, harg3.read_unread, harg4.read_unread, harg5.read_unread,
    harg6.read_unread, View.ld_unit_zero (S := S1x2048x128) zeros3, View.ld_unit_zero (S := S128x128) zeros2,
    View.ld_unit_zero (S := S128x256) zeros2, View.ld_unit_zero (S := S128x2048) zeros2]

/-- At a middle tile the f32 attention block is the tile computed from the scratch as found. -/
theorem out0_B_5_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    out0_B_5 (F := F) c i arg2 harg2 arg3 harg3 arg4 harg4 arg5 harg5 arg6 harg6 arg7 harg7 arg8 harg8 arg9 harg9 arg10 harg10 hc0 hc1 x0 x1 x2 x3 x4 xs0
      = k0_pay1 (k0_pay5 xs0 (View.ld xs0 (Rect.unit (s := S2048x128) (k0_off1 i) S256x128.size (k0_off1_inb i))) x2 x3 (View.ld x4 (Rect.unit (s := S2048x2048) (k0_off2 i) S2048x256.size (k0_off2_inb i)))) := by
  unfold out0_B_5
  rw [View.read_writes_junk_eq_canon]
  unfold kernelRun0_B
  dsimp only
  rw [View.canon_unit_zero zeros3]
  simp only [View.readAt_eq_ld, harg2.read_unread, harg3.read_unread, harg4.read_unread, harg5.read_unread, harg6.read_unread, harg10.read_unread,
    View.ld_unit_zero (S := S1x2048x128) zeros3, View.ld_unit_zero (S := S128x128) zeros2, View.ld_unit_zero (S := S128x256) zeros2,
    View.ld_unit_zero (S := S128x2048) zeros2, View.ld_unit_zero (S := S2048x128) zeros2]

/-- At a middle tile the bf16 attention block is the same tile, rounded. -/
theorem out0_B_6_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : ¬cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    out0_B_6 (F := F) c i arg2 harg2 arg3 harg3 arg4 harg4 arg5 harg5 arg6 harg6 arg7 harg7 arg8 harg8 arg9 harg9 arg10 harg10 hc0 hc1 x0 x1 x2 x3 x4 xs0
      = k0_pay2 (k0_pay5 xs0 (View.ld xs0 (Rect.unit (s := S2048x128) (k0_off1 i) S256x128.size (k0_off1_inb i))) x2 x3 (View.ld x4 (Rect.unit (s := S2048x2048) (k0_off2 i) S2048x256.size (k0_off2_inb i)))) := by
  unfold out0_B_6
  rw [View.read_writes_junk_eq_canon]
  unfold kernelRun0_B
  dsimp only
  rw [View.canon_unit_zero zeros3]
  simp only [View.readAt_eq_ld, harg2.read_unread, harg3.read_unread, harg4.read_unread, harg5.read_unread, harg6.read_unread, harg10.read_unread,
    View.ld_unit_zero (S := S1x2048x128) zeros3, View.ld_unit_zero (S := S128x128) zeros2, View.ld_unit_zero (S := S128x256) zeros2,
    View.ld_unit_zero (S := S128x2048) zeros2, View.ld_unit_zero (S := S2048x128) zeros2]

/-- At tile 7 the f32 attention block is the tile computed from the scratch as found. -/
theorem out0_C_5_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    out0_C_5 (F := F) c i arg2 harg2 arg3 harg3 arg4 harg4 arg5 harg5 arg6 harg6 arg7 harg7 arg8 harg8 arg9 harg9 arg10 harg10 hc0 hc1 x0 x1 x2 x3 x4 xs0
      = k0_pay1 (k0_pay5 xs0 (View.ld xs0 (Rect.unit (s := S2048x128) (k0_off1 i) S256x128.size (k0_off1_inb i))) x2 x3 (View.ld x4 (Rect.unit (s := S2048x2048) (k0_off2 i) S2048x256.size (k0_off2_inb i)))) := by
  unfold out0_C_5
  rw [View.read_writes_junk_eq_canon]
  unfold kernelRun0_C
  dsimp only
  rw [View.canon_unit_zero zeros3]
  simp only [View.readAt_eq_ld, harg2.read_unread, harg3.read_unread, harg4.read_unread, harg5.read_unread, harg6.read_unread, harg10.read_unread,
    View.ld_unit_zero (S := S1x2048x128) zeros3, View.ld_unit_zero (S := S128x128) zeros2, View.ld_unit_zero (S := S128x256) zeros2,
    View.ld_unit_zero (S := S128x2048) zeros2, View.ld_unit_zero (S := S2048x128) zeros2]

/-- At tile 7 the bf16 attention block is the same tile, rounded. -/
theorem out0_C_6_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    out0_C_6 (F := F) c i arg2 harg2 arg3 harg3 arg4 harg4 arg5 harg5 arg6 harg6 arg7 harg7 arg8 harg8 arg9 harg9 arg10 harg10 hc0 hc1 x0 x1 x2 x3 x4 xs0
      = k0_pay2 (k0_pay5 xs0 (View.ld xs0 (Rect.unit (s := S2048x128) (k0_off1 i) S256x128.size (k0_off1_inb i))) x2 x3 (View.ld x4 (Rect.unit (s := S2048x2048) (k0_off2 i) S2048x256.size (k0_off2_inb i)))) := by
  unfold out0_C_6
  rw [View.read_writes_junk_eq_canon]
  unfold kernelRun0_C
  dsimp only
  rw [View.canon_unit_zero zeros3]
  simp only [View.readAt_eq_ld, harg2.read_unread, harg3.read_unread, harg4.read_unread, harg5.read_unread, harg6.read_unread, harg10.read_unread,
    View.ld_unit_zero (S := S1x2048x128) zeros3, View.ld_unit_zero (S := S128x128) zeros2, View.ld_unit_zero (S := S128x256) zeros2,
    View.ld_unit_zero (S := S128x2048) zeros2, View.ld_unit_zero (S := S2048x128) zeros2]

/-- At tile 7 the f0 block is the scratch as found. -/
theorem out0_C_7_eq (c : Dev nD) (i : grid0.Coords) (arg2 : Memref sig .tc .vmem S1x2048x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S128x2048 .f32) (harg5 : arg5.IsWhole) (arg6 : Memref sig .tc .vmem S2048x2048 .f32) (harg6 : arg6.IsWhole) (arg7 : Memref sig .tc .vmem S1x2048x256 .f32) (harg7 : arg7.IsWhole) (arg8 : Memref sig .tc .vmem S1x2048x256 .bf16) (harg8 : arg8.IsWhole) (arg9 : Memref sig .tc .vmem S1x2048x128 .f32) (harg9 : arg9.IsWhole) (arg10 : Memref sig .tc .vmem S2048x128 .f32) (harg10 : arg10.IsWhole) (hc0 : ¬cond0_0 i) (hc1 : cond0_1 i)
    (x0 : Vec F S1x2048x128 .f32) (x1 : Vec F S128x128 .f32) (x2 : Vec F S128x256 .f32) (x3 : Vec F S128x2048 .f32) (x4 : Vec F S2048x2048 .f32) (xs0 : Vec F S2048x128 .f32) :
    out0_C_7 (F := F) c i arg2 harg2 arg3 harg3 arg4 harg4 arg5 harg5 arg6 harg6 arg7 harg7 arg8 harg8 arg9 harg9 arg10 harg10 hc0 hc1 x0 x1 x2 x3 x4 xs0
      = k0_pay3 xs0 := by
  unfold out0_C_7
  rw [View.read_writes_junk_eq_canon]
  unfold kernelRun0_C
  dsimp only
  rw [View.canon_unit_zero zeros3]
  simp only [View.readAt_eq_ld, harg2.read_unread, harg3.read_unread, harg4.read_unread, harg5.read_unread, harg6.read_unread, harg10.read_unread,
    View.ld_unit_zero (S := S1x2048x128) zeros3, View.ld_unit_zero (S := S128x128) zeros2, View.ld_unit_zero (S := S128x256) zeros2,
    View.ld_unit_zero (S := S128x2048) zeros2, View.ld_unit_zero (S := S2048x128) zeros2]

end Pieces

/-! ## The same at an index, at the extended reals -/

section AtIdeal
variable (V : (c : Dev nD) → (b : Ref sig .tc) → Buf (Elt Ideal) ((c : Thread nD τ).loc b))

/-- The scratch during t's row is the dense product of the row's first blocks of x and w_0. -/
theorem scr_eq_pay (c : Dev nD) (t : Fin cfg0.N) :
    scr (F := Ideal) V c t = k0_pay4 (iblk0 V c 0 (row0 t)) (iblk0 V c 1 (row0 t)) := by
  unfold scr scrAt
  rw [Pieces.out0_sA_eq]

/-- At tile 0 the row's first point is the point itself. -/
theorem scr_A (c : Dev nD) (t : Fin cfg0.N) (h0 : t.val % 8 = 0) :
    k0_pay4 (iblk0 V c 0 t) (iblk0 V c 1 t) = scr (F := Ideal) V c t := by
  rw [scr_self V c t h0]
  unfold scrAt
  rw [Pieces.out0_sA_eq]

theorem scr_apply (c : Dev nD) (t : Fin cfg0.N) (n : Fin 2048) (u : Fin 128) :
    (scr (F := Ideal) V c t : S2048x128.Idx → EReal) (ix2 n u) = scrBlk V c t n u := by
  rw [scr_eq_pay]
  unfold scrBlk
  exact Pay.pay4_apply (iblk0 V c 0 (row0 t)) (iblk0 V c 1 (row0 t)) n u

/-- At every point the f32 attention block is left holding the tile computed from the row's scratch. -/
theorem after0_5_eq_pay (c : Dev nD) (t : Fin cfg0.N) :
    after0_5 (F := Ideal) V c t
      = k0_pay1 (k0_pay5 (scr (F := Ideal) V c t) (View.ld (scr (F := Ideal) V c t) (Rect.unit (s := S2048x128) (k0_off1 (grid0.coords t)) S256x128.size (k0_off1_inb (grid0.coords t)))) (iblk0 V c 2 t) (iblk0 V c 3 t)
          (View.ld (iblk0 V c 4 t) (Rect.unit (s := S2048x2048) (k0_off2 (grid0.coords t)) S2048x256.size (k0_off2_inb (grid0.coords t))))) := by
  by_cases h0 : t.val % 8 = 0
  · simp only [after0_5, dif_pos h0]
    rw [Pieces.out0_A_5_eq, scr_A V c t h0]
    rfl
  · by_cases h1 : t.val % 8 = 7
    · simp only [after0_5, dif_neg h0, dif_pos h1]
      rw [Pieces.out0_C_5_eq]
      rfl
    · simp only [after0_5, dif_neg h0, dif_neg h1]
      rw [Pieces.out0_B_5_eq]
      rfl

theorem after0_5_apply (c : Dev nD) (t : Fin cfg0.N) (n : Fin 2048) (q : Fin 256) :
    (after0_5 (F := Ideal) V c t : S1x2048x256.Idx → EReal) (ix3 0 n q)
      = Cert.Spec.tileAttn (scrBlk V c t) (fun q u => scrBlk V c t (col (tileOf t) q) u)
          (fun u q => (iblk0 V c 2 t : S128x256.Idx → EReal) (ix2 u q)) (fun u n => (iblk0 V c 3 t : S128x2048.Idx → EReal) (ix2 u n))
          (fun n q => (iblk0 V c 4 t : S2048x2048.Idx → EReal) (ix2 n (col (tileOf t) q))) n q := by
  rw [after0_5_eq_pay]
  refine (Pieces.tile5_of_blocks (scr (F := Ideal) V c t) (iblk0 V c 2 t) (iblk0 V c 3 t) (iblk0 V c 4 t) (grid0.coords t) (tileOf t)
    (Pieces.coords0_facts t).2 n q).trans ?_
  exact Pieces.tileAttn_congr (funext fun n => funext fun u => scr_apply V c t n u)
    (funext fun q => funext fun u => scr_apply V c t (col (tileOf t) q) u) rfl rfl rfl n q

/-- At every point the bf16 attention block is left holding the tile computed from the row's scratch. -/
theorem after0_6_eq_pay (c : Dev nD) (t : Fin cfg0.N) :
    after0_6 (F := Ideal) V c t
      = k0_pay2 (k0_pay5 (scr (F := Ideal) V c t) (View.ld (scr (F := Ideal) V c t) (Rect.unit (s := S2048x128) (k0_off1 (grid0.coords t)) S256x128.size (k0_off1_inb (grid0.coords t)))) (iblk0 V c 2 t) (iblk0 V c 3 t)
          (View.ld (iblk0 V c 4 t) (Rect.unit (s := S2048x2048) (k0_off2 (grid0.coords t)) S2048x256.size (k0_off2_inb (grid0.coords t))))) := by
  by_cases h0 : t.val % 8 = 0
  · simp only [after0_6, dif_pos h0]
    rw [Pieces.out0_A_6_eq, scr_A V c t h0]
    rfl
  · by_cases h1 : t.val % 8 = 7
    · simp only [after0_6, dif_neg h0, dif_pos h1]
      rw [Pieces.out0_C_6_eq]
      rfl
    · simp only [after0_6, dif_neg h0, dif_neg h1]
      rw [Pieces.out0_B_6_eq]
      rfl

theorem after0_6_apply (c : Dev nD) (t : Fin cfg0.N) (n : Fin 2048) (q : Fin 256) :
    (after0_6 (F := Ideal) V c t : S1x2048x256.Idx → EReal) (ix3 0 n q)
      = Cert.Spec.tileAttn (scrBlk V c t) (fun q u => scrBlk V c t (col (tileOf t) q) u)
          (fun u q => (iblk0 V c 2 t : S128x256.Idx → EReal) (ix2 u q)) (fun u n => (iblk0 V c 3 t : S128x2048.Idx → EReal) (ix2 u n))
          (fun n q => (iblk0 V c 4 t : S2048x2048.Idx → EReal) (ix2 n (col (tileOf t) q))) n q := by
  rw [after0_6_eq_pay]
  refine (Pieces.tile6_of_blocks (scr (F := Ideal) V c t) (iblk0 V c 2 t) (iblk0 V c 3 t) (iblk0 V c 4 t) (grid0.coords t) (tileOf t)
    (Pieces.coords0_facts t).2 n q).trans ?_
  exact Pieces.tileAttn_congr (funext fun n => funext fun u => scr_apply V c t n u)
    (funext fun q => funext fun u => scr_apply V c t (col (tileOf t) q) u) rfl rfl rfl n q

theorem after0_7_apply (c : Dev nD) (t : Fin cfg0.N) (h : t.val % 8 = 7) (n : Fin 2048) (u : Fin 128) :
    (after0_7 (F := Ideal) V c t : S1x2048x128.Idx → EReal) (ix3 0 n u) = scrBlk V c t n u := by
  simp only [after0_7, dif_pos h]
  rw [Pieces.out0_C_7_eq]
  exact (Pay.pay3_apply _ n u).trans (scr_apply V c t n u)

end AtIdeal

end Cert.KernelIdeal.Val

end
-- ==== Proof.ValR0.lean ====
/- What region 0's three output arrays hold after the region, at F := Ideal, entry by entry, as functions of the
   contents the region was entered with: tile j of the attention matrix of batch element b is the block-level
   softmax tile of f0 = x_b · w_0, ai's and A's columns of the tile and all of aj; the f0 array is x_b · w_0.
   From the blocks to the arrays: each window's block at a grid point is a part of its array (point t is batch
   element t / 8, tile t mod 8), so what a point writes back is its block of one function of the entry contents,
   and the blocks written back cover each array. -/
import proofs.«104206_j73323681677635_2_alg».proof.Proof.FrData0
import proofs.«104206_j73323681677635_2_alg».proof.Proof.SpecCol
import proofs.«104206_j73323681677635_2_alg».proof.Proof.ValR0Pieces
import Idealize.ShloMosaic.Lib.Pipeline.Value
import Idealize.ShloMosaic.Lib.ValueIdx
import Idealize.ShloMosaic.Lib.Tactic

set_option maxRecDepth 16384

noncomputable section

namespace Cert.KernelIdeal.Val

open Idealize.ShloMosaic Idealize.ShloMosaic.TcCoe Idealize.SL.Sem ValueIdx
open Idealize.ShloMosaic.Pipeline (Dat)
open Cert.KernelIdeal Cert.KernelIdeal.Gen Cert.KernelIdeal.Fr Cert.Spec

variable (V : (c : Dev nD) → (b : Ref sig .tc) → Buf (Elt Ideal) ((c : Thread nD τ).loc b))

/-- f0 of batch element b from the region-entry contents: x's slab b times the [128,128] matrix the host sliced out of w. -/
def F0 (c : Dev nD) (b : Fin 8) (n : Fin 2048) (u : Fin 128) : EReal :=
  Cert.Spec.dense (fun n f => (V c main_arg0 : S8x2048x128.Idx → EReal) (ix3 b n f)) (fun f u => (V c main_v8 : S128x128.Idx → EReal) (ix2 f u)) n u

/-- The tile of attn that grid point (b, j) computes, from the region-entry contents. -/
def tile (c : Dev nD) (b j : Fin 8) (n : Fin 2048) (q : Fin 256) : EReal :=
  Cert.Spec.tileAttn (F0 V c b) (fun q u => F0 V c b (col j q) u) (fun u q => (V c main_arg3 : S128x2048.Idx → EReal) (ix2 u (col j q)))
    (fun u n => (V c main_arg4 : S128x2048.Idx → EReal) (ix2 u n)) (fun n q => (V c main_v6 : S2048x2048.Idx → EReal) (ix2 n (col j q))) n q

/-! ## The index maps over the grid: point t is batch element t / 8, tile t mod 8 -/

private theorem idx0_0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
private theorem idx0_1 : ∀ t : Fin cfg0.N, win0_1.index t (0 : Fin 2) = 0 ∧ win0_1.index t (1 : Fin 2) = 0 :=
  (by decide +kernel : ∀ t : Fin grid0.N, _)
private theorem idx0_2 : ∀ t : Fin cfg0.N, win0_2.index t (0 : Fin 2) = 0 ∧ win0_2.index t (1 : Fin 2) = t.val % 8 :=
  (by decide +kernel : ∀ t : Fin grid0.N, _)
private theorem idx0_3 : ∀ t : Fin cfg0.N, win0_3.index t (0 : Fin 2) = 0 ∧ win0_3.index t (1 : Fin 2) = 0 :=
  (by decide +kernel : ∀ t : Fin grid0.N, _)
private theorem idx0_4 : ∀ t : Fin cfg0.N, win0_4.index t (0 : Fin 2) = 0 ∧ win0_4.index t (1 : Fin 2) = 0 :=
  (by decide +kernel : ∀ t : Fin grid0.N, _)
private theorem idx0_5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, _)
private theorem idx0_6 : ∀ t : Fin cfg0.N, win0_6.index t (0 : Fin 3) = t.val / 8 ∧ win0_6.index t (1 : Fin 3) = 0 ∧ win0_6.index t (2 : Fin 3) = t.val % 8 :=
  (by decide +kernel : ∀ t : Fin grid0.N, _)
private theorem idx0_7 : ∀ t : Fin cfg0.N, win0_7.index t (0 : Fin 3) = t.val / 8 ∧ win0_7.index t (1 : Fin 3) = 0 ∧ win0_7.index t (2 : Fin 3) = 0 :=
  (by decide +kernel : ∀ t : Fin grid0.N, _)

/-! ## The input windows' blocks as parts of their arrays -/

/-- Window 0's block at point t is batch element t / 8 of x. -/
theorem iblk0_0_apply (c : Dev nD) (t : Fin cfg0.N) (b : Fin 8) (hb : b.val = t.val / 8) (n : Fin 2048) (f : Fin 128) :
    (iblk0 V c 0 t : S1x2048x128.Idx → EReal) (ix3 0 n f) = (V c main_arg0 : S8x2048x128.Idx → EReal) (ix3 b n f) := by
  obtain ⟨e0, e1, e2⟩ := idx0_0 t
  unfold iblk0
  rw [View.read_apply]
  show (V c main_arg0 : S8x2048x128.Idx → EReal) _ = (V c main_arg0 : S8x2048x128.Idx → EReal) _
  refine congrArg (V c main_arg0 : S8x2048x128.Idx → EReal) (funext fun d => Fin.ext ?_)
  match d with
  | ⟨0, _⟩ => show win0_0.index t (0 : Fin 3) * 1 + 1 * 0 = b.val; omega
  | ⟨1, _⟩ => show win0_0.index t (1 : Fin 3) * 2048 + 1 * n.val = n.val; omega
  | ⟨2, _⟩ => show win0_0.index t (2 : Fin 3) * 128 + 1 * f.val = f.val; omega

/-- Window 1's block at every point is the whole [128,128] weight matrix. -/
theorem iblk0_1_apply (c : Dev nD) (t : Fin cfg0.N) (a : Fin 128) (b : Fin 128) :
    (iblk0 V c 1 t : S128x128.Idx → EReal) (ix2 a b) = (V c main_v8 : S128x128.Idx → EReal) (ix2 a b) := by
  obtain ⟨e0, e1⟩ := idx0_1 t
  unfold iblk0
  rw [View.read_apply]
  show (V c main_v8 : S128x128.Idx → EReal) _ = (V c main_v8 : S128x128.Idx → EReal) _
  refine congrArg (V c main_v8 : S128x128.Idx → EReal) (funext fun d => Fin.ext ?_)
  match d with
  | ⟨0, _⟩ => show win0_1.index t (0 : Fin 2) * 128 + 1 * a.val = a.val; omega
  | ⟨1, _⟩ => show win0_1.index t (1 : Fin 2) * 128 + 1 * b.val = b.val; omega

/-- Window 2's block at point t is the columns of tile t mod 8 of ai. -/
theorem iblk0_2_apply (c : Dev nD) (t : Fin cfg0.N) (u : Fin 128) (q : Fin 256) :
    (iblk0 V c 2 t : S128x256.Idx → EReal) (ix2 u q) = (V c main_arg3 : S128x2048.Idx → EReal) (ix2 u (col (tileOf t) q)) := by
  obtain ⟨e0, e1⟩ := idx0_2 t
  unfold iblk0
  rw [View.read_apply]
  show (V c main_arg3 : S128x2048.Idx → EReal) _ = (V c main_arg3 : S128x2048.Idx → EReal) _
  refine congrArg (V c main_arg3 : S128x2048.Idx → EReal) (funext fun d => Fin.ext ?_)
  match d with
  | ⟨0, _⟩ => show win0_2.index t (0 : Fin 2) * 128 + 1 * u.val = u.val; omega
  | ⟨1, _⟩ => show win0_2.index t (1 : Fin 2) * 256 + 1 * q.val = 256 * (t.val % 8) + q.val; omega

/-- Window 3's block at every point is all of aj. -/
theorem iblk0_3_apply (c : Dev nD) (t : Fin cfg0.N) (a : Fin 128) (b : Fin 2048) :
    (iblk0 V c 3 t : S128x2048.Idx → EReal) (ix2 a b) = (V c main_arg4 : S128x2048.Idx → EReal) (ix2 a b) := by
  obtain ⟨e0, e1⟩ := idx0_3 t
  unfold iblk0
  rw [View.read_apply]
  show (V c main_arg4 : S128x2048.Idx → EReal) _ = (V c main_arg4 : S128x2048.Idx → EReal) _
  refine congrArg (V c main_arg4 : S128x2048.Idx → EReal) (funext fun d => Fin.ext ?_)
  match d with
  | ⟨0, _⟩ => show win0_3.index t (0 : Fin 2) * 128 + 1 * a.val = a.val; omega
  | ⟨1, _⟩ => show win0_3.index t (1 : Fin 2) * 2048 + 1 * b.val = b.val; omega

/-- Window 4's block at every point is all of A = adj + I. -/
theorem iblk0_4_apply (c : Dev nD) (t : Fin cfg0.N) (a : Fin 2048) (b : Fin 2048) :
    (iblk0 V c 4 t : S2048x2048.Idx → EReal) (ix2 a b) = (V c main_v6 : S2048x2048.Idx → EReal) (ix2 a b) := by
  obtain ⟨e0, e1⟩ := idx0_4 t
  unfold iblk0
  rw [View.read_apply]
  show (V c main_v6 : S2048x2048.Idx → EReal) _ = (V c main_v6 : S2048x2048.Idx → EReal) _
  refine congrArg (V c main_v6 : S2048x2048.Idx → EReal) (funext fun d => Fin.ext ?_)
  match d with
  | ⟨0, _⟩ => show win0_4.index t (0 : Fin 2) * 2048 + 1 * a.val = a.val; omega
  | ⟨1, _⟩ => show win0_4.index t (1 : Fin 2) * 2048 + 1 * b.val = b.val; omega

/-! ## What the body computes, over the region-entry contents -/

/-- A dense product depends only on its two operands. -/
private theorem dense_congr {x x' : Fin 2048 → Fin 128 → EReal} {w w' : Fin 128 → Fin 128 → EReal} (hx : x = x') (hw : w = w')
    (n : Fin 2048) (u : Fin 128) : Cert.Spec.dense x w n u = Cert.Spec.dense x' w' n u := by
  subst hx hw; rfl

/-- A tile of the attention depends only on its five operands. -/
private theorem tileAttn_congr {fAll fAll' : Fin 2048 → Fin 128 → EReal} {fTile fTile' : Fin 256 → Fin 128 → EReal}
    {aiT aiT' : Fin 128 → Fin 256 → EReal} {ajAll ajAll' : Fin 128 → Fin 2048 → EReal} {aT aT' : Fin 2048 → Fin 256 → EReal}
    (h1 : fAll = fAll') (h2 : fTile = fTile') (h3 : aiT = aiT') (h4 : ajAll = ajAll') (h5 : aT = aT') (n : Fin 2048) (q : Fin 256) :
    Cert.Spec.tileAttn fAll fTile aiT ajAll aT n q = Cert.Spec.tileAttn fAll' fTile' aiT' ajAll' aT' n q := by
  subst h1 h2 h3 h4 h5; rfl

/-- The scratch of t's row is f0 of its batch element. -/
theorem scrBlk_eq (c : Dev nD) (t : Fin cfg0.N) (b : Fin 8) (hb : b.val = t.val / 8) : scrBlk V c t = F0 V c b := by
  have hb' : b.val = (row0 t).val / 8 := by rw [row0_val]; omega
  funext n u
  unfold scrBlk F0
  exact dense_congr (funext fun n => funext fun f => iblk0_0_apply V c (row0 t) b hb' n f)
    (funext fun f => funext fun u => iblk0_1_apply V c (row0 t) f u) n u

/-- The tile the body computes at point t is tile t mod 8 of batch element t / 8. -/
theorem tile_eq (c : Dev nD) (t : Fin cfg0.N) (b : Fin 8) (hb : b.val = t.val / 8) (n : Fin 2048) (q : Fin 256) :
    Cert.Spec.tileAttn (scrBlk V c t) (fun q u => scrBlk V c t (col (tileOf t) q) u) (fun u q => (iblk0 V c 2 t : S128x256.Idx → EReal) (ix2 u q))
        (fun u n => (iblk0 V c 3 t : S128x2048.Idx → EReal) (ix2 u n)) (fun n q => (iblk0 V c 4 t : S2048x2048.Idx → EReal) (ix2 n (col (tileOf t) q))) n q
      = tile V c b (tileOf t) n q := by
  unfold tile
  rw [scrBlk_eq V c t b hb]
  exact tileAttn_congr rfl rfl (funext fun u => funext fun q => iblk0_2_apply V c t u q)
    (funext fun u => funext fun n => iblk0_3_apply V c t u n) (funext fun n => funext fun q => iblk0_4_apply V c t n (col (tileOf t) q)) n q

/-! ## From blocks to the arrays -/

/-- The attention matrix at column m: the tile m / 256 at its column m mod 256. -/
def tileAt (c : Dev nD) (b : Fin 8) (n m : Fin 2048) : EReal :=
  tile V c b ⟨m.val / 256, by have := m.isLt; omega⟩ n ⟨m.val % 256, by omega⟩

private theorem tile_congr_idx (c : Dev nD) (b : Fin 8) (n : Fin 2048) {j j' : Fin 8} {q q' : Fin 256} (hj : j = j') (hq : q = q') :
    tile V c b j n q = tile V c b j' n q' := by subst hj hq; rfl

/-- At column q of tile j that is tile j at q. -/
theorem tileAt_col (c : Dev nD) (b : Fin 8) (n : Fin 2048) (j : Fin 8) (q : Fin 256) : tileAt V c b n (col j q) = tile V c b j n q := by
  unfold tileAt
  have hj := j.isLt
  have hq := q.isLt
  exact tile_congr_idx V c b n (Fin.ext (by show (256 * j.val + q.val) / 256 = j.val; omega))
    (Fin.ext (by show (256 * j.val + q.val) % 256 = q.val; omega))

/-- The attention array, f32 or bf16, as one function of the region-entry contents. -/
def G5 (c : Dev nD) : S8x2048x2048.Idx → EReal := fun i => tileAt V c (i 0) (i 1) (i 2)

/-- The f0 array as one function of the region-entry contents. -/
def G7 (c : Dev nD) : S8x2048x128.Idx → EReal := fun i => F0 V c (i 0) (i 1) (i 2)

/-- What point t writes back through window 5 is block t of the attention array (f32). -/
theorem flushed0_5 (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5_eq]
  have hN : cfg0.N = 64 := N_0
  obtain ⟨e0, e1, e2⟩ := idx0_5 t
  refine funext fun (j : S1x2048x256.Idx) => ?_
  obtain ⟨z, n, q, rfl⟩ : ∃ (z : Fin 1) (n : Fin 2048) (q : Fin 256), j = ix3 z n q := ⟨j 0, j 1, j 2, eq_ix3 j⟩
  obtain rfl : z = 0 := Subsingleton.elim _ _
  have ht : t.val / 8 < 8 := by have := t.isLt; omega
  refine (after0_5_apply V c t n q).trans ?_
  refine (tile_eq V c t ⟨t.val / 8, ht⟩ rfl n q).trans ?_
  rw [View.read_apply]
  have hemb : (((cfg0.win 5).blk t).view.emb (ix3 0 n q) : S8x2048x2048.Idx) = ix3 (⟨t.val / 8, ht⟩ : Fin 8) n (col (tileOf t) q) := by
    refine funext fun a => Fin.ext ?_
    match a with
    | ⟨0, _⟩ => show win0_5.index t (0 : Fin 3) * 1 + 1 * 0 = t.val / 8; omega
    | ⟨1, _⟩ => show win0_5.index t (1 : Fin 3) * 2048 + 1 * n.val = n.val; omega
    | ⟨2, _⟩ => show win0_5.index t (2 : Fin 3) * 256 + 1 * q.val = 256 * (t.val % 8) + q.val; omega
  show _ = G5 V c (((cfg0.win 5).blk t).view.emb (ix3 0 n q))
  rw [hemb]
  exact (tileAt_col V c _ n (tileOf t) q).symm

/-- An index of the array is in point t's block of window 5 iff each coordinate is in the block's range on its axis. -/
private theorem mem_blk0_5 (t : Fin cfg0.N) (i : S8x2048x2048.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v9_0).slice (win0_5.rect t)).set ↔ _
  rw [View.set_slice_whole, Rect.mem_set_unit]
  exact Iff.rfl

/-- Every index of the array is in the block of the point of its batch element and its tile of columns. -/
private theorem cover0_5_arr (i : S8x2048x2048.Idx) :
    ∃ t : Fin cfg0.N, (cfg0.win 5).flush t = true ∧ i ∈ ((cfg0.win 5).blk t).view.set := by
  have hN : cfg0.N = 64 := N_0
  have hi0 : (i 0).val < 8 := (i 0).isLt
  have hi1 : (i 1).val < 2048 := (i 1).isLt
  have hi2 : (i 2).val < 2048 := (i 2).isLt
  have hlt : 8 * (i 0).val + (i 2).val / 256 < cfg0.N := by omega
  refine ⟨⟨8 * (i 0).val + (i 2).val / 256, hlt⟩, flush0_5 _, ?_⟩
  obtain ⟨e0, e1, e2⟩ := idx0_5 ⟨8 * (i 0).val + (i 2).val / 256, hlt⟩
  have e0' : win0_5.index ⟨8 * (i 0).val + (i 2).val / 256, hlt⟩ (0 : Fin 3) = (8 * (i 0).val + (i 2).val / 256) / 8 := e0
  have e2' : win0_5.index ⟨8 * (i 0).val + (i 2).val / 256, hlt⟩ (2 : Fin 3) = (8 * (i 0).val + (i 2).val / 256) % 8 := e2
  rw [mem_blk0_5]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 2048 ≤ (i 1).val ∧ (i 1).val < win0_5.index _ (1 : Fin 3) * 2048 + 2048; rw [e1]; omega
  | ⟨2, _⟩ => show win0_5.index _ (2 : Fin 3) * 256 ≤ (i 2).val ∧ (i 2).val < win0_5.index _ (2 : Fin 3) * 256 + 256; rw [e2']; omega

/-- The array of window 5 after the region is the attention matrix, tile by tile. -/
theorem final0_5 (c : Dev nD) : (dat0 (F := Ideal) V c).arrAt 5 cfg0.N = G5 V c :=
  (dat0 (F := Ideal) V c).arrAt_eq_of_cover 5 (G5 V c) (fun t _ => flushed0_5 V c t) cover0_5_arr

/-- What point t writes back through window 6 is block t of the attention array (bf16: an extended real all the same). -/
theorem flushed0_6 (c : Dev nD) (t : Fin cfg0.N) :
    (dat0 (F := Ideal) V c).flushed 6 t = ((cfg0.win 6).blk t).view.read (Elt Ideal) (G5 V c) := by
  show (cfg0.win 6).cut (grid0.coords t) ((dat0 (F := Ideal) V c).after 6 t) = _
  rw [after0_6_eq]
  have hN : cfg0.N = 64 := N_0
  obtain ⟨e0, e1, e2⟩ := idx0_6 t
  refine funext fun (j : S1x2048x256.Idx) => ?_
  obtain ⟨z, n, q, rfl⟩ : ∃ (z : Fin 1) (n : Fin 2048) (q : Fin 256), j = ix3 z n q := ⟨j 0, j 1, j 2, eq_ix3 j⟩
  obtain rfl : z = 0 := Subsingleton.elim _ _
  have ht : t.val / 8 < 8 := by have := t.isLt; omega
  refine (after0_6_apply V c t n q).trans ?_
  refine (tile_eq V c t ⟨t.val / 8, ht⟩ rfl n q).trans ?_
  rw [View.read_apply]
  have hemb : (((cfg0.win 6).blk t).view.emb (ix3 0 n q) : S8x2048x2048.Idx) = ix3 (⟨t.val / 8, ht⟩ : Fin 8) n (col (tileOf t) q) := by
    refine funext fun a => Fin.ext ?_
    match a with
    | ⟨0, _⟩ => show win0_6.index t (0 : Fin 3) * 1 + 1 * 0 = t.val / 8; omega
    | ⟨1, _⟩ => show win0_6.index t (1 : Fin 3) * 2048 + 1 * n.val = n.val; omega
    | ⟨2, _⟩ => show win0_6.index t (2 : Fin 3) * 256 + 1 * q.val = 256 * (t.val % 8) + q.val; omega
  show _ = G5 V c (((cfg0.win 6).blk t).view.emb (ix3 0 n q))
  rw [hemb]
  exact (tileAt_col V c _ n (tileOf t) q).symm

/-- An index of the array is in point t's block of window 6 iff each coordinate is in the block's range on its axis. -/
private theorem mem_blk0_6 (t : Fin cfg0.N) (i : S8x2048x2048.Idx) :
    i ∈ ((cfg0.win 6).blk t).view.set ↔ ∀ a : Fin 3, win0_6.index t a * S1x2048x256.size a ≤ (i a).val ∧ (i a).val < win0_6.index t a * S1x2048x256.size a + S1x2048x256.size a := by
  show i ∈ ((View.whole main_v9_1).slice (win0_6.rect t)).set ↔ _
  rw [View.set_slice_whole, Rect.mem_set_unit]
  exact Iff.rfl

/-- Every index of the array is in the block of the point of its batch element and its tile of columns. -/
private theorem cover0_6_arr (i : S8x2048x2048.Idx) :
    ∃ t : Fin cfg0.N, (cfg0.win 6).flush t = true ∧ i ∈ ((cfg0.win 6).blk t).view.set := by
  have hN : cfg0.N = 64 := N_0
  have hi0 : (i 0).val < 8 := (i 0).isLt
  have hi1 : (i 1).val < 2048 := (i 1).isLt
  have hi2 : (i 2).val < 2048 := (i 2).isLt
  have hlt : 8 * (i 0).val + (i 2).val / 256 < cfg0.N := by omega
  refine ⟨⟨8 * (i 0).val + (i 2).val / 256, hlt⟩, flush0_6 _, ?_⟩
  obtain ⟨e0, e1, e2⟩ := idx0_6 ⟨8 * (i 0).val + (i 2).val / 256, hlt⟩
  have e0' : win0_6.index ⟨8 * (i 0).val + (i 2).val / 256, hlt⟩ (0 : Fin 3) = (8 * (i 0).val + (i 2).val / 256) / 8 := e0
  have e2' : win0_6.index ⟨8 * (i 0).val + (i 2).val / 256, hlt⟩ (2 : Fin 3) = (8 * (i 0).val + (i 2).val / 256) % 8 := e2
  rw [mem_blk0_6]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 2048 ≤ (i 1).val ∧ (i 1).val < win0_6.index _ (1 : Fin 3) * 2048 + 2048; rw [e1]; omega
  | ⟨2, _⟩ => show win0_6.index _ (2 : Fin 3) * 256 ≤ (i 2).val ∧ (i 2).val < win0_6.index _ (2 : Fin 3) * 256 + 256; rw [e2']; omega

/-- The array of window 6 after the region is the attention matrix, tile by tile. -/
theorem final0_6 (c : Dev nD) : (dat0 (F := Ideal) V c).arrAt 6 cfg0.N = G5 V c :=
  (dat0 (F := Ideal) V c).arrAt_eq_of_cover 6 (G5 V c) (fun t _ => flushed0_6 V c t) cover0_6_arr

/-- What a point at tile 7 writes back through window 7 is its batch element's block of f0. -/
theorem flushed0_7 (c : Dev nD) (t : Fin cfg0.N) (hf : (cfg0.win 7).flush t = true) :
    (dat0 (F := Ideal) V c).flushed 7 t = ((cfg0.win 7).blk t).view.read (Elt Ideal) (G7 V c) := by
  have h7 : t.val % 8 = 7 := (flush0_7 t).mp hf
  show (cfg0.win 7).cut (grid0.coords t) ((dat0 (F := Ideal) V c).after 7 t) = _
  rw [after0_7_eq]
  have hN : cfg0.N = 64 := N_0
  obtain ⟨e0, e1, e2⟩ := idx0_7 t
  refine funext fun (j : S1x2048x128.Idx) => ?_
  obtain ⟨z, n, u, rfl⟩ : ∃ (z : Fin 1) (n : Fin 2048) (u : Fin 128), j = ix3 z n u := ⟨j 0, j 1, j 2, eq_ix3 j⟩
  obtain rfl : z = 0 := Subsingleton.elim _ _
  have ht : t.val / 8 < 8 := by have := t.isLt; omega
  refine (after0_7_apply V c t h7 n u).trans ?_
  refine (congrFun (congrFun (scrBlk_eq V c t ⟨t.val / 8, ht⟩ rfl) n) u).trans ?_
  rw [View.read_apply]
  have hemb : (((cfg0.win 7).blk t).view.emb (ix3 0 n u) : S8x2048x128.Idx) = ix3 (⟨t.val / 8, ht⟩ : Fin 8) n u := by
    refine funext fun a => Fin.ext ?_
    match a with
    | ⟨0, _⟩ => show win0_7.index t (0 : Fin 3) * 1 + 1 * 0 = t.val / 8; omega
    | ⟨1, _⟩ => show win0_7.index t (1 : Fin 3) * 2048 + 1 * n.val = n.val; omega
    | ⟨2, _⟩ => show win0_7.index t (2 : Fin 3) * 128 + 1 * u.val = u.val; omega
  show _ = G7 V c (((cfg0.win 7).blk t).view.emb (ix3 0 n u))
  rw [hemb]
  rfl

/-- An index of the f0 array is in point t's block iff each coordinate is in the block's range on its axis. -/
private theorem mem_blk0_7 (t : Fin cfg0.N) (i : S8x2048x128.Idx) :
    i ∈ ((cfg0.win 7).blk t).view.set ↔ ∀ a : Fin 3, win0_7.index t a * S1x2048x128.size a ≤ (i a).val ∧ (i a).val < win0_7.index t a * S1x2048x128.size a + S1x2048x128.size a := by
  show i ∈ ((View.whole main_v9_2).slice (win0_7.rect t)).set ↔ _
  rw [View.set_slice_whole, Rect.mem_set_unit]
  exact Iff.rfl

/-- Every index of the f0 array is in the block of the last point of its batch element's row, which writes it back. -/
private theorem cover0_7_arr (i : S8x2048x128.Idx) :
    ∃ t : Fin cfg0.N, (cfg0.win 7).flush t = true ∧ i ∈ ((cfg0.win 7).blk t).view.set := by
  have hN : cfg0.N = 64 := N_0
  have hi0 : (i 0).val < 8 := (i 0).isLt
  have hi1 : (i 1).val < 2048 := (i 1).isLt
  have hi2 : (i 2).val < 128 := (i 2).isLt
  have hlt : 8 * (i 0).val + 7 < cfg0.N := by omega
  refine ⟨⟨8 * (i 0).val + 7, hlt⟩, (flush0_7 _).mpr (by show (8 * (i 0).val + 7) % 8 = 7; omega), ?_⟩
  obtain ⟨e0, e1, e2⟩ := idx0_7 ⟨8 * (i 0).val + 7, hlt⟩
  have e0' : win0_7.index ⟨8 * (i 0).val + 7, hlt⟩ (0 : Fin 3) = (8 * (i 0).val + 7) / 8 := e0
  rw [mem_blk0_7]
  intro a
  match a with
  | ⟨0, _⟩ => show win0_7.index _ (0 : Fin 3) * 1 ≤ (i 0).val ∧ (i 0).val < win0_7.index _ (0 : Fin 3) * 1 + 1; rw [e0']; omega
  | ⟨1, _⟩ => show win0_7.index _ (1 : Fin 3) * 2048 ≤ (i 1).val ∧ (i 1).val < win0_7.index _ (1 : Fin 3) * 2048 + 2048; rw [e1]; omega
  | ⟨2, _⟩ => show win0_7.index _ (2 : Fin 3) * 128 ≤ (i 2).val ∧ (i 2).val < win0_7.index _ (2 : Fin 3) * 128 + 128; rw [e2]; omega

/-- The f0 array after the region. -/
theorem final0_7 (c : Dev nD) : (dat0 (F := Ideal) V c).arrAt 7 cfg0.N = G7 V c :=
  (dat0 (F := Ideal) V c).arrAt_eq_of_cover 7 (G7 V c) (fun t hf => flushed0_7 V c t hf) cover0_7_arr

/-! ## The three arrays, entry by entry -/

theorem arr0_5 (c : Dev nD) (b : Fin 8) (n : Fin 2048) (j : Fin 8) (q : Fin 256) :
    ((dat0 (F := Ideal) V c).arrAt 5 cfg0.N : S8x2048x2048.Idx → EReal) (ix3 b n (col j q)) = tile V c b j n q := by
  rw [final0_5]
  exact tileAt_col V c b n j q

theorem arr0_6 (c : Dev nD) (b : Fin 8) (n : Fin 2048) (j : Fin 8) (q : Fin 256) :
    ((dat0 (F := Ideal) V c).arrAt 6 cfg0.N : S8x2048x2048.Idx → EReal) (ix3 b n (col j q)) = tile V c b j n q := by
  rw [final0_6]
  exact tileAt_col V c b n j q

theorem arr0_7 (c : Dev nD) (b : Fin 8) (n : Fin 2048) (u : Fin 128) :
    ((dat0 (F := Ideal) V c).arrAt 7 cfg0.N : S8x2048x128.Idx → EReal) (ix3 b n u) = F0 V c b n u := by
  rw [final0_7]
  rfl

end Cert.KernelIdeal.Val

end
-- ==== Proof.HostVals.lean ====
/-
  What the host operations of the kernel's program leave in their buffers, read at an index.

  Before the first region: adj + I (the identity built as the 0/1 indicator of row index = column index),
  and the first of the three weight matrices (a unit slice, reshaped to a matrix). Between the regions: the
  last two weight matrices (a slice). Every buffer these stretches do not write keeps its contents.
-/
import proofs.«104206_j73323681677635_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import proofs.«104206_j73323681677635_2_alg».proof.Proof.Spec

noncomputable section

namespace Cert.KernelIdeal.HostVals

open Idealize.ShloMosaic Idealize.ShloMosaic.TcCoe Idealize.ShloMosaic.ValueIdx
open Cert.KernelIdeal Cert.KernelIdeal.Gen

variable (W : Valuation τ sig (Elt Ideal))

/-- The first weight matrix: w[0, f, u]. -/
theorem v8_apply (f u : Fin 128) :
    (StableHlo.after (hostOps0 (F := Ideal)) W (Proc.devRef .tc main_v8) : S128x128.Idx → EReal) (ix2 f u)
      = (W (Proc.devRef .tc main_arg2) : S3x128x128.Idx → EReal) (ix3 0 f u) := by
  after_results
  show shapeCast S128x128 (extractStridedSlice S1x128x128 ![0, 0, 0]
    (W (Proc.devRef .tc main_arg2) : S3x128x128.Idx → EReal) slices_S3x128x128_S1x128x128_0_0_0)
    shapeCasts_S1x128x128_S128x128 (ix2 f u) = _
  rw [shapeCast_1ab_ab_apply]
  exact extractStridedSlice_apply _ _ _ _ _
    (fun a => by match a with | ⟨0, _⟩ => rfl | ⟨1, _⟩ => exact (Nat.zero_add _).symm | ⟨2, _⟩ => exact (Nat.zero_add _).symm)

/-- The last two weight matrices: w[k + 1, f, u]. -/
theorem v10_apply (k : Fin 2) (f u : Fin 128) :
    (StableHlo.after (hostOps1 (F := Ideal)) W (Proc.devRef .tc main_v10) : S2x128x128.Idx → EReal) (ix3 k f u)
      = (W (Proc.devRef .tc main_arg2) : S3x128x128.Idx → EReal) (ix3 ⟨k.val + 1, by omega⟩ f u) := by
  after_results
  exact extractStridedSlice_apply _ _ _ _ _
    (fun a => by match a with | ⟨0, _⟩ => exact Nat.add_comm _ _ | ⟨1, _⟩ => exact (Nat.zero_add _).symm | ⟨2, _⟩ => exact (Nat.zero_add _).symm)

/-- Two indices below 2048 are equal exactly when their 32-bit words are: the comparison's bit. -/
theorem eye_word (n m : Fin 2048) :
    IntOp.cmpi .eq (BitVec.ofNat 32 n.val + 0#32) (BitVec.ofNat 32 m.val) = if n = m then 1#1 else 0#1 := by
  rw [BitVec.add_zero]
  show BitVec.ofBool (BitVec.ofNat 32 n.val == BitVec.ofNat 32 m.val) = _
  by_cases hnm : n = m
  · subst hnm; rw [beq_self_eq_true, if_pos rfl]; rfl
  · have hne : BitVec.ofNat 32 n.val ≠ BitVec.ofNat 32 m.val := by
      intro e; apply hnm; apply Fin.ext
      have h := congrArg BitVec.toNat e
      simp only [BitVec.toNat_ofNat] at h
      have := n.isLt; have := m.isLt; omega
    rw [beq_eq_false_iff_ne.mpr hne, if_neg hnm]; rfl

/-- adj + I: the indicator of n = m, as a float, added to adj. -/
theorem v6_apply (n m : Fin 2048) :
    (StableHlo.after (hostOps0 (F := Ideal)) W (Proc.devRef .tc main_v6) : S2048x2048.Idx → EReal) (ix2 n m)
      = Cert.Spec.A (fun n m => (W (Proc.devRef .tc main_arg1) : S2048x2048.Idx → EReal) (ix2 n m)) n m := by
  after_results
  rw [addf_apply]
  simp only [Cert.Spec.A, Cert.Spec.eye]
  congr 1
  show (((IntOp.cmpi .eq (BitVec.ofNat 32 n.val + 0#32) (BitVec.ofNat 32 m.val)).toNat : ℝ) : EReal) = _
  rw [eye_word]
  split_ifs <;> simp

/-! ## What the two stretches leave alone -/

/-- A buffer the first stretch does not write keeps its contents. -/
theorem hostOps0_of (r : Ref sig .tc) (h : r ∉ hostOps0_W) :
    StableHlo.after (hostOps0 (F := Ideal)) W (Proc.devRef .tc r) = W (Proc.devRef .tc r) :=
  StableHlo.after_of_writes_sub hostOps0 _ hostOps0_writes h

/-- A buffer the second stretch does not write keeps its contents. -/
theorem hostOps1_of (r : Ref sig .tc) (h : r ∉ hostOps1_W) :
    StableHlo.after (hostOps1 (F := Ideal)) W (Proc.devRef .tc r) = W (Proc.devRef .tc r) :=
  StableHlo.after_of_writes_sub hostOps1 _ hostOps1_writes h

theorem hostOps0_arg0 : StableHlo.after (hostOps0 (F := Ideal)) W (Proc.devRef .tc main_arg0) = W (Proc.devRef .tc main_arg0) :=
  hostOps0_of W main_arg0 (by decide)
theorem hostOps0_arg1 : StableHlo.after (hostOps0 (F := Ideal)) W (Proc.devRef .tc main_arg1) = W (Proc.devRef .tc main_arg1) :=
  hostOps0_of W main_arg1 (by decide)
theorem hostOps0_arg2 : StableHlo.after (hostOps0 (F := Ideal)) W (Proc.devRef .tc main_arg2) = W (Proc.devRef .tc main_arg2) :=
  hostOps0_of W main_arg2 (by decide)
theorem hostOps0_arg3 : StableHlo.after (hostOps0 (F := Ideal)) W (Proc.devRef .tc main_arg3) = W (Proc.devRef .tc main_arg3) :=
  hostOps0_of W main_arg3 (by decide)
theorem hostOps0_arg4 : StableHlo.after (hostOps0 (F := Ideal)) W (Proc.devRef .tc main_arg4) = W (Proc.devRef .tc main_arg4) :=
  hostOps0_of W main_arg4 (by decide)

theorem hostOps1_arg0 : StableHlo.after (hostOps1 (F := Ideal)) W (Proc.devRef .tc main_arg0) = W (Proc.devRef .tc main_arg0) :=
  hostOps1_of W main_arg0 (by decide)
theorem hostOps1_arg2 : StableHlo.after (hostOps1 (F := Ideal)) W (Proc.devRef .tc main_arg2) = W (Proc.devRef .tc main_arg2) :=
  hostOps1_of W main_arg2 (by decide)
theorem hostOps1_v9_0 : StableHlo.after (hostOps1 (F := Ideal)) W (Proc.devRef .tc main_v9_0) = W (Proc.devRef .tc main_v9_0) :=
  hostOps1_of W main_v9_0 (by decide)
theorem hostOps1_v9_1 : StableHlo.after (hostOps1 (F := Ideal)) W (Proc.devRef .tc main_v9_1) = W (Proc.devRef .tc main_v9_1) :=
  hostOps1_of W main_v9_1 (by decide)
theorem hostOps1_v9_2 : StableHlo.after (hostOps1 (F := Ideal)) W (Proc.devRef .tc main_v9_2) = W (Proc.devRef .tc main_v9_2) :=
  hostOps1_of W main_v9_2 (by decide)

end Cert.KernelIdeal.HostVals

end
-- ==== Proof.BridgeSpec.lean ====
/-
  The block-level functions are the whole-array specification restricted to a block.

  One dense product of a batch element's rows with the first weight matrix is f0; the softmax tile computed
  from f0, the tile's columns of ai and of adj + I, and all of aj is attn at the tile's columns; the fused
  two-hop function of a batch element's attention matrix, its x, its f0 and the last two weight matrices is
  the kernel's form of the first result. Every column of the 2048 lies in exactly one tile of 256.
-/
import proofs.«104206_j73323681677635_2_alg».proof.Proof.Spec
import proofs.«104206_j73323681677635_2_alg».proof.Proof.SpecBlock
import proofs.«104206_j73323681677635_2_alg».proof.Proof.SpecCol
import proofs.«104206_j73323681677635_2_alg».proof.Proof.SpecIdx

noncomputable section

namespace Cert.Spec

open Idealize.ShloMosaic

/-- Every column is column q of tile j for j = m / 256, q = m % 256. -/
theorem exists_col (m : Fin 2048) : ∃ (j : Fin 8) (q : Fin 256), m = col j q :=
  ⟨⟨m.val / 256, by omega⟩, ⟨m.val % 256, Nat.mod_lt _ (by norm_num)⟩, Fin.ext (by
    show m.val = 256 * (m.val / 256) + m.val % 256
    omega)⟩

/-- One dense product with the first weight matrix is f0. -/
theorem dense_eq_f0 (x : XT) (w : WT) (b : Fin 8) (n : Fin 2048) (u : Fin 128) :
    dense (fun n f => x b n f) (w 0) n u = f0 x w b n u := rfl

/-- The softmax tile over f0 and the tile's columns is attn at those columns. -/
theorem tileAttn_eq_attn (x : XT) (adj : AdjT) (w : WT) (ai aj : AT) (b j : Fin 8) (n : Fin 2048) (q : Fin 256) :
    tileAttn (f0 x w b) (fun q u => f0 x w b (col j q) u) (fun u q => ai u (col j q)) aj
        (fun n q => A adj n (col j q)) n q
      = attn x adj w ai aj b n (col j q) := rfl

/-- The fused two-hop function is the kernel's form of the first result. -/
theorem hopOut_eq_f2K (x : XT) (w : WT) (at_ : Fin 8 → Fin 2048 → Fin 2048 → EReal) (b : Fin 8) (m : Fin 2048)
    (u : Fin 128) :
    hopOut (fun n m => at_ b n m) (fun n f => x b n f) (fun m u => f0 x w b m u) (w 1) (w 2) m u
      = f2K x w at_ b m u := rfl

end Cert.Spec

end
-- ==== Proof.BridgeAttn.lean ====
/-
  The kernel's second result is the specification's attn.

  The first region is entered with x, ai, aj as launched, the first weight matrix and adj + I as the host
  operations left them. Its attention output arrays hold, at column q of tile j, the softmax tile of those
  contents, which is attn at that column; its f0 array holds x_b · w_0. Every column lies in a tile, so
  the whole array is attn, entry by entry.
-/
import proofs.«104206_j73323681677635_2_alg».proof.Proof.FrMainVals
import proofs.«104206_j73323681677635_2_alg».proof.Proof.ValR0
import proofs.«104206_j73323681677635_2_alg».proof.Proof.HostVals
import proofs.«104206_j73323681677635_2_alg».proof.Proof.BridgeSpec

noncomputable section

namespace Cert.Bridge

open Idealize.ShloMosaic Idealize.ShloMosaic.TcCoe Idealize.SL.Sem Idealize.ShloMosaic.ValueIdx
open Cert.KernelIdeal Cert.KernelIdeal.Gen Cert.KernelIdeal.Fr Cert.KernelIdeal.Val Cert.Spec

/-! ## The block-level functions over region-entry contents that are the arguments -/

section Entry

variable (V : (c : Dev nD) → (b : Ref sig .tc) → Buf (Elt Ideal) ((c : Thread nD τ).loc b)) (c : Dev nD)
  (x : S8x2048x128.Idx → EReal) (adj : S2048x2048.Idx → EReal) (w : S3x128x128.Idx → EReal)
  (ai aj : S128x2048.Idx → EReal)

/-- The region's f0 is the specification's, when it is entered with x and the first weight matrix. -/
theorem F0_eq (h0 : (V c main_arg0 : S8x2048x128.Idx → EReal) = x)
    (h8 : ∀ f u, (V c main_v8 : S128x128.Idx → EReal) (ix2 f u) = w (ix3 0 f u))
    (b : Fin 8) (n : Fin 2048) (u : Fin 128) : F0 V c b n u = f0 (toX x) (toW w) b n u := by
  unfold F0
  rw [h0]
  simp only [h8]
  exact dense_eq_f0 (toX x) (toW w) b n u

/-- The region's tile is attn at the tile's columns, when it is entered with the arguments and adj + I. -/
theorem tile_eq (h0 : (V c main_arg0 : S8x2048x128.Idx → EReal) = x)
    (h8 : ∀ f u, (V c main_v8 : S128x128.Idx → EReal) (ix2 f u) = w (ix3 0 f u))
    (h3 : (V c main_arg3 : S128x2048.Idx → EReal) = ai) (h4 : (V c main_arg4 : S128x2048.Idx → EReal) = aj)
    (h6 : ∀ n m, (V c main_v6 : S2048x2048.Idx → EReal) (ix2 n m) = A (toAdj adj) n m)
    (b j : Fin 8) (n : Fin 2048) (q : Fin 256) :
    tile V c b j n q = attn (toX x) (toAdj adj) (toW w) (toA ai) (toA aj) b n (col j q) := by
  unfold tile
  have hF : F0 V c b = f0 (toX x) (toW w) b :=
    funext fun n => funext fun u => F0_eq V c x w h0 h8 b n u
  rw [hF, h3, h4]
  simp only [h6]
  exact tileAttn_eq_attn (toX x) (toAdj adj) (toW w) (toA ai) (toA aj) b j n q

end Entry

/-! ## The first region's arrays after the run -/

variable (m : (ℓ : Loc nD τ sig) → Buf (Elt Ideal) ℓ) (ρ : Dev nD → PrngReg)

/-- The launch contents at the second weight argument, as the first boundary's valuation reads them. -/
theorem W0_arg1 (c : Dev nD) : W0 m ρ c (Proc.devRef .tc main_arg1) = m ((c : Thread nD τ).loc main_arg1) := rfl
theorem W0_arg2 (c : Dev nD) : W0 m ρ c (Proc.devRef .tc main_arg2) = m ((c : Thread nD τ).loc main_arg2) := rfl

/-- The first region is entered with the first weight matrix. -/
theorem V1_v8_apply (c : Dev nD) (f u : Fin 128) :
    (V1 m ρ c main_v8 : S128x128.Idx → EReal) (ix2 f u)
      = (m ((c : Thread nD τ).loc main_arg2) : S3x128x128.Idx → EReal) (ix3 0 f u) := by
  rw [V1_v8, HostVals.v8_apply, W0_arg2]

/-- The first region is entered with adj + I. -/
theorem V1_v6_apply (c : Dev nD) (n k : Fin 2048) :
    (V1 m ρ c main_v6 : S2048x2048.Idx → EReal) (ix2 n k)
      = A (toAdj (m ((c : Thread nD τ).loc main_arg1))) n k := by
  rw [V1_v6, HostVals.v6_apply, W0_arg1]
  rfl

/-- The first region's tile, over the launch contents of the arguments. -/
theorem tile_V1 (c : Dev nD) (b j : Fin 8) (n : Fin 2048) (q : Fin 256) :
    tile (V1 m ρ) c b j n q
      = attn (toX (m ((c : Thread nD τ).loc main_arg0))) (toAdj (m ((c : Thread nD τ).loc main_arg1)))
          (toW (m ((c : Thread nD τ).loc main_arg2))) (toA (m ((c : Thread nD τ).loc main_arg3)))
          (toA (m ((c : Thread nD τ).loc main_arg4))) b n (col j q) :=
  tile_eq (V1 m ρ) c _ _ _ _ _ (V1_arg0 m ρ c) (V1_v8_apply m ρ c) (V1_arg3 m ρ c) (V1_arg4 m ρ c)
    (V1_v6_apply m ρ c) b j n q

/-- The first region's f0 array, over the launch contents of the arguments. -/
theorem F0_V1 (c : Dev nD) (b : Fin 8) (n : Fin 2048) (u : Fin 128) :
    F0 (V1 m ρ) c b n u
      = f0 (toX (m ((c : Thread nD τ).loc main_arg0))) (toW (m ((c : Thread nD τ).loc main_arg2))) b n u :=
  F0_eq (V1 m ρ) c _ _ (V1_arg0 m ρ c) (V1_v8_apply m ρ c) b n u

/-- The first attention array (the second result) is attn, entry by entry. -/
theorem arr5_apply (c : Dev nD) (b : Fin 8) (n k : Fin 2048) :
    ((dat0 (F := Ideal) (V1 m ρ) c).arrAt 5 cfg0.N : S8x2048x2048.Idx → EReal) (ix3 b n k)
      = attn (toX (m ((c : Thread nD τ).loc main_arg0))) (toAdj (m ((c : Thread nD τ).loc main_arg1)))
          (toW (m ((c : Thread nD τ).loc main_arg2))) (toA (m ((c : Thread nD τ).loc main_arg3)))
          (toA (m ((c : Thread nD τ).loc main_arg4))) b n k := by
  obtain ⟨j, q, rfl⟩ := exists_col k
  rw [arr0_5, tile_V1]

/-- The second attention array (the second region's operand) is attn, entry by entry. -/
theorem arr6_apply (c : Dev nD) (b : Fin 8) (n k : Fin 2048) :
    ((dat0 (F := Ideal) (V1 m ρ) c).arrAt 6 cfg0.N : S8x2048x2048.Idx → EReal) (ix3 b n k)
      = attn (toX (m ((c : Thread nD τ).loc main_arg0))) (toAdj (m ((c : Thread nD τ).loc main_arg1)))
          (toW (m ((c : Thread nD τ).loc main_arg2))) (toA (m ((c : Thread nD τ).loc main_arg3)))
          (toA (m ((c : Thread nD τ).loc main_arg4))) b n k := by
  obtain ⟨j, q, rfl⟩ := exists_col k
  rw [arr0_6, tile_V1]

/-- The f0 array (the second region's operand) is f0, entry by entry. -/
theorem arr7_apply (c : Dev nD) (b : Fin 8) (n : Fin 2048) (u : Fin 128) :
    ((dat0 (F := Ideal) (V1 m ρ) c).arrAt 7 cfg0.N : S8x2048x128.Idx → EReal) (ix3 b n u)
      = f0 (toX (m ((c : Thread nD τ).loc main_arg0))) (toW (m ((c : Thread nD τ).loc main_arg2))) b n u := by
  rw [arr0_7, F0_V1]

/-- The kernel's second result is attn of the launch contents of the arguments, entry by entry. -/
theorem kernel_attn_apply (c : Dev nD) (b : Fin 8) (n k : Fin 2048) :
    (W4 m ρ c (Proc.devRef .tc main_v9_0) : S8x2048x2048.Idx → EReal) (ix3 b n k)
      = attn (toX (m ((c : Thread nD τ).loc main_arg0))) (toAdj (m ((c : Thread nD τ).loc main_arg1)))
          (toW (m ((c : Thread nD τ).loc main_arg2))) (toA (m ((c : Thread nD τ).loc main_arg3)))
          (toA (m ((c : Thread nD τ).loc main_arg4))) b n k := by
  rw [W4_v9_0, arr5_apply]

end Cert.Bridge

end
-- ==== Proof.PayHop.lean ====
/-
  The fused two-hop body read at an index. With a = the batch element's attention matrix (stored in bf16, read
  here as the same extended reals), x its features, f0 its dense product and w1, w2 the two weight matrices:
    hop1[m,f] = Σ_n a[n,m]·x[n,f],   hop2[m,f] = Σ_n a[n,m]·hop1[n,f],
    out[m,u]  = max ((Σ_f hop2[m,f]·w2[f,u]) + ((Σ_f hop1[m,f]·w1[f,u]) + f0[m,u]), 0).
  Each matrix product is a finite sum over its contracted coordinate, the blocks' unit axes drop, the roundings
  to bf16 are identities on the extended reals, and the zero the maximum is taken against is the word of 0.0.
-/
import proofs.«104206_j73323681677635_2_alg».proof.Proof.Gen.KernelIdeal.Skeleton
import proofs.«104206_j73323681677635_2_alg».proof.Proof.SpecBlock
import Idealize.ShloMosaic.PureOps.Ideal.Laws
import Idealize.ShloMosaic.Lib.ValueIdx
import Idealize.ShloMosaic.Lib.Pipeline.Value
import Idealize.ShloMosaic.Lib.ValueLayout
import proofs.«104206_j73323681677635_2_alg».proof.Proof.PayDot

noncomputable section

namespace Cert.KernelIdeal.Pay

open Idealize.ShloMosaic Cert.KernelIdeal ValueIdx

theorem k1_pay1_apply (v0 : Vec Ideal S1x2048x2048 .bf16) (v2 : Vec Ideal S1x2048x128 .f32)
    (v7 : Vec Ideal S1x128x128 .f32) (v11 : Vec Ideal S1x2048x128 .f32) (v16 : Vec Ideal S1x128x128 .f32)
    (m : Fin 2048) (u : Fin 128) :
    Gen.k1_pay1 (F := Ideal) v0 v2 v7 v11 v16 (ix3 0 m u)
      = Cert.Spec.hopOut (fun n m => v0 (ix3 0 n m)) (fun n f => v2 (ix3 0 n f)) (fun m u => v11 (ix3 0 m u))
          (fun f u => v7 (ix3 0 f u)) (fun f u => v16 (ix3 0 f u)) m u := by
  unfold Gen.k1_pay1 Cert.Spec.hopOut Cert.Spec.hop2 Cert.Spec.hop1
  simp only [shapeCast_ab_1ab_apply, maximumf_apply, addf_apply, broadcast_apply, dotRowCol128_apply,
    dotColCol_apply, truncf_apply, shapeCast_1ab_ab_apply]
  show max _ (Ideal.ofBits .f32 0x00000000#32) = _
  rw [Ideal.ofBits_zero_f32]

end Cert.KernelIdeal.Pay

end
-- ==== Proof.ValR1.lean ====
/- What region 1 leaves in its output array, at the extended reals: every entry is the fused two-hop body's
   result for its batch element, computed from that element's attention matrix, its rows of x and of f0, and the two
   weight slabs — the blocks of the output tile the array, one batch element per grid point. -/
import proofs.«104206_j73323681677635_2_alg».proof.Proof.FrData1
import proofs.«104206_j73323681677635_2_alg».proof.Proof.SpecBlock
import proofs.«104206_j73323681677635_2_alg».proof.Proof.PayHop
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Fr

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl

/-! ## The output block from the input blocks, at an index -/

/-- The first slab of the weight block, read at an index. -/
theorem ld_slab0 (x3 : Vec Ideal S2x128x128 .f32) (f u : Fin 128) :
    (View.ld x3 r1_2 : Vec Ideal S1x128x128 .f32) (ix3 0 f u) = x3 (ix3 0 f u) := by
  show x3 (r1_2.idx (ix3 0 f u)) = x3 (ix3 0 f u)
  refine congrArg x3 (funext fun a => Fin.ext ?_)
  match a with
  | ⟨0, _⟩ => rfl
  | ⟨1, _⟩ => show 0 + 1 * f.val = f.val; omega
  | ⟨2, _⟩ => show 0 + 1 * u.val = u.val; omega

/-- The second slab of the weight block, read at an index. -/
theorem ld_slab1 (x3 : Vec Ideal S2x128x128 .f32) (f u : Fin 128) :
    (View.ld x3 r1_3 : Vec Ideal S1x128x128 .f32) (ix3 0 f u) = x3 (ix3 1 f u) := by
  show x3 (r1_3.idx (ix3 0 f u)) = x3 (ix3 1 f u)
  refine congrArg x3 (funext fun a => Fin.ext ?_)
  match a with
  | ⟨0, _⟩ => rfl
  | ⟨1, _⟩ => show 0 + 1 * f.val = f.val; omega
  | ⟨2, _⟩ => show 0 + 1 * u.val = u.val; omega

/-- The fused two-hop result depends only on its five operands. -/
theorem hopOut_congr {a a' : Fin 2048 → Fin 2048 → EReal} {x x' g g' : Fin 2048 → Fin 128 → EReal}
    {w1 w1' w2 w2' : Fin 128 → Fin 128 → EReal} (ha : a = a') (hx : x = x') (hg : g = g') (h1 : w1 = w1') (h2 : w2 = w2')
    (m : Fin 2048) (u : Fin 128) :
    Cert.Spec.hopOut a x g w1 w2 m u = Cert.Spec.hopOut a' x' g' w1' w2' m u := by
  subst ha hx hg h1 h2; rfl

/-- The output block at an index: the fused two-hop result of the four input blocks. -/
theorem out1_4_apply (x0 : Vec Ideal S1x2048x2048 .bf16) (x1 : Vec Ideal S1x2048x128 .f32) (x2 : Vec Ideal S1x2048x128 .f32)
    (x3 : Vec Ideal S2x128x128 .f32) (m : Fin 2048) (u : Fin 128) :
    out1_4 (F := Ideal) x0 x1 x2 x3 (ix3 0 m u)
      = Cert.Spec.hopOut (fun n m => x0 (ix3 0 n m)) (fun n f => x1 (ix3 0 n f)) (fun m u => x2 (ix3 0 m u))
          (fun f u => x3 (ix3 0 f u)) (fun f u => x3 (ix3 1 f u)) m u := by
  unfold out1_4
  rw [View.canon_unit_zero hz3]
  simp only [View.ld_unit_zero (S := S1x2048x2048) hz3, View.ld_unit_zero (S := S1x2048x128) hz3]
  refine (Pay.k1_pay1_apply x0 x1 (View.ld x3 r1_2) x2 (View.ld x3 r1_3) m u).trans ?_
  exact hopOut_congr rfl rfl rfl (funext fun f => funext fun u => ld_slab0 x3 f u) (funext fun f => funext fun u => ld_slab1 x3 f u) m u

/-! ## The windows' blocks as slabs of their arrays -/

/-- The printed index maps, decided over the grid: windows 0, 1, 2 and 4 are at batch element t, window 3 stays. -/
theorem idx_facts1 : ∀ t : Fin cfg1.N,
      win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-- Window 0's block at point t is batch element t of the attention array. -/
theorem iblk1_0_apply (c : Dev nD) (t : Fin cfg1.N) (b : Fin 8) (hb : b.val = t.val) (n m : Fin 2048) :
    (iblk1 V c 0 t : Vec Ideal S1x2048x2048 .bf16) (ix3 0 n m) = (V c main_v9_1 : S8x2048x2048.Idx → EReal) (ix3 b n m) := by
  obtain ⟨e0, e1, e2, -⟩ := idx_facts1 t
  unfold iblk1
  rw [View.read_apply]
  show (V c main_v9_1 : S8x2048x2048.Idx → EReal) _ = (V c main_v9_1 : S8x2048x2048.Idx → EReal) _
  refine congrArg (V c main_v9_1 : S8x2048x2048.Idx → EReal) (funext fun a => Fin.ext ?_)
  match a with
  | ⟨0, _⟩ => show win1_0.index t (0 : Fin 3) * 1 + 1 * 0 = b.val; omega
  | ⟨1, _⟩ => show win1_0.index t (1 : Fin 3) * 2048 + 1 * n.val = n.val; omega
  | ⟨2, _⟩ => show win1_0.index t (2 : Fin 3) * 2048 + 1 * m.val = m.val; omega

/-- Window 1's block at point t is batch element t of x. -/
theorem iblk1_1_apply (c : Dev nD) (t : Fin cfg1.N) (b : Fin 8) (hb : b.val = t.val) (n : Fin 2048) (f : Fin 128) :
    (iblk1 V c 1 t : Vec Ideal S1x2048x128 .f32) (ix3 0 n f) = (V c main_arg0 : S8x2048x128.Idx → EReal) (ix3 b n f) := by
  obtain ⟨-, -, -, e0, e1, e2, -⟩ := idx_facts1 t
  unfold iblk1
  rw [View.read_apply]
  show (V c main_arg0 : S8x2048x128.Idx → EReal) _ = (V c main_arg0 : S8x2048x128.Idx → EReal) _
  refine congrArg (V c main_arg0 : S8x2048x128.Idx → EReal) (funext fun a => Fin.ext ?_)
  match a with
  | ⟨0, _⟩ => show win1_1.index t (0 : Fin 3) * 1 + 1 * 0 = b.val; omega
  | ⟨1, _⟩ => show win1_1.index t (1 : Fin 3) * 2048 + 1 * n.val = n.val; omega
  | ⟨2, _⟩ => show win1_1.index t (2 : Fin 3) * 128 + 1 * f.val = f.val; omega

/-- Window 2's block at point t is batch element t of f0. -/
theorem iblk1_2_apply (c : Dev nD) (t : Fin cfg1.N) (b : Fin 8) (hb : b.val = t.val) (n : Fin 2048) (f : Fin 128) :
    (iblk1 V c 2 t : Vec Ideal S1x2048x128 .f32) (ix3 0 n f) = (V c main_v9_2 : S8x2048x128.Idx → EReal) (ix3 b n f) := by
  obtain ⟨-, -, -, -, -, -, e0, e1, e2, -⟩ := idx_facts1 t
  unfold iblk1
  rw [View.read_apply]
  show (V c main_v9_2 : S8x2048x128.Idx → EReal) _ = (V c main_v9_2 : S8x2048x128.Idx → EReal) _
  refine congrArg (V c main_v9_2 : S8x2048x128.Idx → EReal) (funext fun a => Fin.ext ?_)
  match a with
  | ⟨0, _⟩ => show win1_2.index t (0 : Fin 3) * 1 + 1 * 0 = b.val; omega
  | ⟨1, _⟩ => show win1_2.index t (1 : Fin 3) * 2048 + 1 * n.val = n.val; omega
  | ⟨2, _⟩ => show win1_2.index t (2 : Fin 3) * 128 + 1 * f.val = f.val; omega

/-- Window 3's block at every point is the whole two-slab weight array. -/
theorem iblk1_3_apply (c : Dev nD) (t : Fin cfg1.N) (k : Fin 2) (f u : Fin 128) :
    (iblk1 V c 3 t : Vec Ideal S2x128x128 .f32) (ix3 k f u) = (V c main_v10 : S2x128x128.Idx → EReal) (ix3 k f u) := by
  obtain ⟨-, -, -, -, -, -, -, -, -, e0, e1, e2, -⟩ := idx_facts1 t
  unfold iblk1
  rw [View.read_apply]
  show (V c main_v10 : S2x128x128.Idx → EReal) _ = (V c main_v10 : S2x128x128.Idx → EReal) _
  refine congrArg (V c main_v10 : S2x128x128.Idx → EReal) (funext fun a => Fin.ext ?_)
  match a with
  | ⟨0, _⟩ => show win1_3.index t (0 : Fin 3) * 2 + 1 * k.val = k.val; omega
  | ⟨1, _⟩ => show win1_3.index t (1 : Fin 3) * 128 + 1 * f.val = f.val; omega
  | ⟨2, _⟩ => show win1_3.index t (2 : Fin 3) * 128 + 1 * u.val = u.val; omega

/-! ## From blocks to the array -/

/-- Batch element b of the result: the fused two-hop body on that element's slabs of the region-entry arrays. -/
def hopAt (c : Dev nD) (b : Fin 8) (m : Fin 2048) (u : Fin 128) : EReal :=
  Cert.Spec.hopOut (fun n m => V c main_v9_1 (ix3 b n m)) (fun n f => V c main_arg0 (ix3 b n f))
    (fun m u => V c main_v9_2 (ix3 b m u)) (fun f u => V c main_v10 (ix3 0 f u)) (fun f u => V c main_v10 (ix3 1 f u)) m u

/-- The whole output array as one function of the region-entry arrays. -/
def G1 (c : Dev nD) : S8x2048x128.Idx → EReal := fun i => hopAt V c (i 0) (i 1) (i 2)

/-- What point t writes back is block t of G1. -/
theorem flushed1_4 (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  have hN : cfg1.N = 8 := N_1
  obtain ⟨-, -, -, -, -, -, -, -, -, -, -, -, e0, e1, e2⟩ := idx_facts1 t
  refine funext fun (j : S1x2048x128.Idx) => ?_
  obtain ⟨z, m, u, rfl⟩ : ∃ (z : Fin 1) (m : Fin 2048) (u : Fin 128), j = ix3 z m u := ⟨j 0, j 1, j 2, eq_ix3 j⟩
  obtain rfl : z = 0 := Subsingleton.elim _ _
  have ht : t.val < 8 := by have := t.isLt; omega
  have hb : (⟨t.val, ht⟩ : Fin 8).val = t.val := rfl
  refine (out1_4_apply (iblk1 V c 0 t) (iblk1 V c 1 t) (iblk1 V c 2 t) (iblk1 V c 3 t) m u).trans ?_
  rw [View.read_apply]
  have hemb : (((cfg1.win 4).blk t).view.emb (ix3 0 m u) : S8x2048x128.Idx) = ix3 (⟨t.val, ht⟩ : Fin 8) m u := by
    refine funext fun a => Fin.ext ?_
    match a with
    | ⟨0, _⟩ => show win1_4.index t (0 : Fin 3) * 1 + 1 * 0 = t.val; omega
    | ⟨1, _⟩ => show win1_4.index t (1 : Fin 3) * 2048 + 1 * m.val = m.val; omega
    | ⟨2, _⟩ => show win1_4.index t (2 : Fin 3) * 128 + 1 * u.val = u.val; omega
  show _ = G1 V c (((cfg1.win 4).blk t).view.emb (ix3 0 m u))
  rw [hemb]
  show _ = hopAt V c ⟨t.val, ht⟩ m u
  unfold hopAt
  exact hopOut_congr (funext fun n => funext fun m => iblk1_0_apply V c t ⟨t.val, ht⟩ hb n m)
    (funext fun n => funext fun f => iblk1_1_apply V c t ⟨t.val, ht⟩ hb n f)
    (funext fun n => funext fun f => iblk1_2_apply V c t ⟨t.val, ht⟩ hb n f)
    (funext fun f => funext fun u => iblk1_3_apply V c t 0 f u)
    (funext fun f => funext fun u => iblk1_3_apply V c t 1 f u) m u

/-- An index of the array is in point t's block iff each coordinate is in the block's range on its axis. -/
theorem mem_blk1_4 (t : Fin cfg1.N) (i : S8x2048x128.Idx) :
    i ∈ ((cfg1.win 4).blk t).view.set ↔ ∀ a : Fin 3, win1_4.index t a * S1x2048x128.size a ≤ (i a).val ∧ (i a).val < win1_4.index t a * S1x2048x128.size a + S1x2048x128.size a := by
  show i ∈ ((View.whole main_v11).slice (win1_4.rect t)).set ↔ _
  rw [View.set_slice_whole, Rect.mem_set_unit]
  exact Iff.rfl

/-- Every index of the output array is in the block of the point of its batch element. -/
theorem cover1_4_arr (i : S8x2048x128.Idx) :
    ∃ t : Fin cfg1.N, (cfg1.win 4).flush t = true ∧ i ∈ ((cfg1.win 4).blk t).view.set := by
  have hN : cfg1.N = 8 := N_1
  have hi0 : (i 0).val < 8 := (i 0).isLt
  have hi1 : (i 1).val < 2048 := (i 1).isLt
  have hi2 : (i 2).val < 128 := (i 2).isLt
  refine ⟨⟨(i 0).val, by omega⟩, flush1_4 _, ?_⟩
  obtain ⟨-, -, -, -, -, -, -, -, -, -, -, -, e0, e1, e2⟩ := idx_facts1 ⟨(i 0).val, by omega⟩
  rw [mem_blk1_4]
  intro a
  match a with
  | ⟨0, _⟩ => show win1_4.index _ (0 : Fin 3) * 1 ≤ (i 0).val ∧ (i 0).val < win1_4.index _ (0 : Fin 3) * 1 + 1; rw [e0]; show (i 0).val * 1 ≤ (i 0).val ∧ (i 0).val < (i 0).val * 1 + 1; omega
  | ⟨1, _⟩ => show win1_4.index _ (1 : Fin 3) * 2048 ≤ (i 1).val ∧ (i 1).val < win1_4.index _ (1 : Fin 3) * 2048 + 2048; rw [e1]; omega
  | ⟨2, _⟩ => show win1_4.index _ (2 : Fin 3) * 128 ≤ (i 2).val ∧ (i 2).val < win1_4.index _ (2 : Fin 3) * 128 + 128; rw [e2]; omega

/-- The output array after the region is G1. -/
theorem final1_4 (c : Dev nD) : (dat1 (F := Ideal) V c).arrAt 4 cfg1.N = G1 V c :=
  (dat1 (F := Ideal) V c).arrAt_eq_of_cover 4 (G1 V c) (fun t _ => flushed1_4 V c t) cover1_4_arr

/-- Every entry of region 1's output array after the region: the fused two-hop result of its batch element. -/
theorem arr1_4 (c : Dev nD) (b : Fin 8) (m : Fin 2048) (u : Fin 128) :
    (dat1 (F := Ideal) V c).arrAt 4 cfg1.N (ix3 b m u)
      = Cert.Spec.hopOut (fun n m => V c main_v9_1 (ix3 b n m)) (fun n f => V c main_arg0 (ix3 b n f))
          (fun m u => V c main_v9_2 (ix3 b m u)) (fun f u => V c main_v10 (ix3 0 f u)) (fun f u => V c main_v10 (ix3 1 f u)) m u := by
  rw [final1_4]
  rfl

end Cert.KernelIdeal.Fr

end
-- ==== Proof.AlgebraReal.lean ====
/-
  Real-valued extended reals are closed under the operations the attention block uses: sums, products,
  negation, differences, maxima, finite sums, finite suprema over a nonempty index type, the exponential
  (which is moreover positive) and division by a nonzero real. The two float words 1.0 and -1.0e9 are real.
-/
import proofs.«104206_j73323681677635_2_alg».proof.Proof.Spec

noncomputable section

namespace Cert.Algebra

open Idealize.ShloMosaic

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_neg {a : EReal} (ha : ∃ r : ℝ, a = (r : EReal)) : ∃ r : ℝ, -a = (r : EReal) := by
  obtain ⟨r, rfl⟩ := ha; exact ⟨-r, (EReal.coe_neg r).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- A finite sum, over a nonempty index set, of positive reals is a positive real. -/
theorem real_sum_pos {ι : Type*} (s : Finset ι) (hs : s.Nonempty) (f : ι → EReal)
    (h : ∀ i, ∃ r : ℝ, 0 < r ∧ f i = (r : EReal)) :
    ∃ r : ℝ, 0 < r ∧ ∑ i ∈ s, f i = (r : EReal) := by
  choose g hg using h
  refine ⟨∑ i ∈ s, g i, Finset.sum_pos (fun i _ => (hg i).1) hs, ?_⟩
  rw [coe_sum]; exact Finset.sum_congr rfl fun i _ => (hg i).2

/-- The supremum of a nonempty finite family of reals is attained, hence real. -/
theorem real_sup {ι : Type*} (s : Finset ι) (hs : s.Nonempty) (f : ι → EReal)
    (h : ∀ i, ∃ r : ℝ, f i = (r : EReal)) : ∃ r : ℝ, s.sup f = (r : EReal) := by
  obtain ⟨i, _, hi⟩ := Finset.exists_mem_eq_sup s hs f
  rw [hi]; exact h i

/-- The exponential of a real is a positive real. -/
theorem real_exp {a : EReal} (ha : ∃ r : ℝ, a = (r : EReal)) :
    ∃ r : ℝ, 0 < r ∧ Ideal.exp a = (r : EReal) := by
  obtain ⟨r, rfl⟩ := ha; exact ⟨Real.exp r, Real.exp_pos r, Ideal.exp_coe r⟩

/-- A real divided by a nonzero real is real. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨s, hs, rfl⟩ := hb
  exact ⟨r * (1 / s), by rw [Ideal.div_coe hs, EReal.coe_mul]⟩

/-- A pattern whose exponent field is not all ones denotes a real. -/
theorem real_ieee (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

theorem real_one : ∃ r : ℝ, Cert.Spec.one = (r : EReal) :=
  real_ieee 8 23 (0x3F800000#32) (by decide)

theorem real_negBig : ∃ r : ℝ, Cert.Spec.negBig = (r : EReal) :=
  real_ieee 8 23 (0xCE6E6B28#32) (by decide)

end Cert.Algebra

end
-- ==== Proof.AlgebraAttn.lean ====
/-
  On real inputs every attention weight is real.

  Each stage of the column softmax keeps real numbers real: the dense product f0, the logits, the column
  maximum (attained, since the column is nonempty and finite), the exponentials (positive), their column sum
  (positive, hence nonzero), the quotient, and the final product with adj + I.
-/
import proofs.«104206_j73323681677635_2_alg».proof.Proof.AlgebraReal

noncomputable section

namespace Cert.Algebra

open Idealize.ShloMosaic Cert.Spec

section

variable (x : XT) (adj : AdjT) (w : WT) (ai aj : AT)
  (hx : ∀ b n f, ∃ r : ℝ, x b n f = (r : EReal)) (hadj : ∀ n m, ∃ r : ℝ, adj n m = (r : EReal))
  (hw : ∀ k f u, ∃ r : ℝ, w k f u = (r : EReal)) (hai : ∀ u m, ∃ r : ℝ, ai u m = (r : EReal))
  (haj : ∀ u m, ∃ r : ℝ, aj u m = (r : EReal))

include hadj in
theorem A_real (n m : Fin 2048) : ∃ r : ℝ, A adj n m = (r : EReal) := by
  unfold A eye
  refine real_add (hadj n m) ?_
  split_ifs
  · exact ⟨1, EReal.coe_one.symm⟩
  · exact ⟨0, EReal.coe_zero.symm⟩

include hx hw in
theorem f0_real (b : Fin 8) (n : Fin 2048) (u : Fin 128) : ∃ r : ℝ, f0 x w b n u = (r : EReal) :=
  real_sum _ _ fun f => real_mul (hx b n f) (hw 0 f u)

include hx hadj hw hai haj in
theorem logit_real (b : Fin 8) (n m : Fin 2048) : ∃ r : ℝ, logit x adj w ai aj b n m = (r : EReal) := by
  unfold logit
  refine real_add (real_add ?_ ?_) (real_mul real_negBig (real_sub real_one ?_))
  · exact real_sum _ _ fun u => real_mul (f0_real x w hx hw b n u) (hai u m)
  · exact real_sum _ _ fun u => real_mul (haj u n) (f0_real x w hx hw b m u)
  · exact real_max (A_real adj hadj n m) (real_neg (A_real adj hadj n m))

include hx hadj hw hai haj in
theorem colMax_real (b : Fin 8) (m : Fin 2048) : ∃ r : ℝ, colMax x adj w ai aj b m = (r : EReal) :=
  real_sup _ Finset.univ_nonempty _ fun n => logit_real x adj w ai aj hx hadj hw hai haj b n m

include hx hadj hw hai haj in
theorem expo_real (b : Fin 8) (n m : Fin 2048) :
    ∃ r : ℝ, 0 < r ∧ expo x adj w ai aj b n m = (r : EReal) :=
  real_exp (real_sub (logit_real x adj w ai aj hx hadj hw hai haj b n m)
    (colMax_real x adj w ai aj hx hadj hw hai haj b m))

include hx hadj hw hai haj in
theorem colSum_real (b : Fin 8) (m : Fin 2048) :
    ∃ r : ℝ, 0 < r ∧ colSum x adj w ai aj b m = (r : EReal) :=
  real_sum_pos _ Finset.univ_nonempty _ fun n => expo_real x adj w ai aj hx hadj hw hai haj b n m

end

/-- On real inputs every attention weight is a real number. -/
theorem attn_real (x : XT) (adj : AdjT) (w : WT) (ai aj : AT)
    (hx : ∀ b n f, ∃ r : ℝ, x b n f = (r : EReal)) (hadj : ∀ n m, ∃ r : ℝ, adj n m = r)
    (hw : ∀ k f u, ∃ r : ℝ, w k f u = r) (hai : ∀ u m, ∃ r : ℝ, ai u m = r)
    (haj : ∀ u m, ∃ r : ℝ, aj u m = r) :
    ∀ b n m, ∃ r : ℝ, Cert.Spec.attn x adj w ai aj b n m = (r : EReal) := by
  intro b n m
  unfold attn
  obtain ⟨e, _, he⟩ := expo_real x adj w ai aj hx hadj hw hai haj b n m
  obtain ⟨s, hs, hs'⟩ := colSum_real x adj w ai aj hx hadj hw hai haj b m
  exact real_mul (real_div ⟨e, he⟩ ⟨s, ne_of_gt hs, hs'⟩) (A_real adj hadj n m)

end Cert.Algebra

end
-- ==== Proof.AlgebraHops.lean ====
/-
  The two arrangements of the second hop agree on real data.

  The kernel computes attnᵀ · (attnᵀ · x), the reference (attn · attn)ᵀ · x. Over ℝ both are the double sum
  Σ_n Σ_k a[n,m] · a[k,n] · x[k]: distribute the outer factor over the inner sum and exchange the two sums.
  On the extended reals neither step is valid at ±∞, so the law is proved over ℝ and carried across the
  coercion for arrays all of whose entries are real.
-/
import proofs.«104206_j73323681677635_2_alg».proof.Proof.AlgebraReal

noncomputable section

namespace Cert.Algebra

open Idealize.ShloMosaic Cert.Spec

/-- The two-hop law over ℝ, for any finite index types:
    Σ_n a[n,m] · (Σ_k a[k,n] · x[k]) = Σ_n x[n] · (Σ_k a[n,k] · a[k,m]). -/
theorem two_hop_real {ι : Type*} [Fintype ι] (a : ι → ι → ℝ) (x : ι → ℝ) (m : ι) :
    ∑ n, a n m * ∑ k, a k n * x k = ∑ n, x n * ∑ k, a n k * a k m := by
  simp only [Finset.mul_sum]
  rw [Finset.sum_comm]
  refine Finset.sum_congr rfl fun n _ => Finset.sum_congr rfl fun k _ => ?_
  ring

variable (x : XT) (w : WT) (at_ : Fin 8 → Fin 2048 → Fin 2048 → EReal)

/-- The first hop in the kernel's and in the reference's order of factors. -/
theorem h1_eq_h1R : h1 x at_ = h1R x at_ := by
  funext b m f
  exact Finset.sum_congr rfl fun n _ => mul_comm _ _

/-- The second hop in the two arrangements, on real data. -/
theorem h2K_eq_h2R (hx : ∀ b n f, ∃ r : ℝ, x b n f = (r : EReal))
    (hat : ∀ b n m, ∃ r : ℝ, at_ b n m = (r : EReal)) : h2K x at_ = h2R x at_ := by
  choose xr hxr using hx
  choose ar har using hat
  funext b m f
  unfold h2K h1 h2R a2
  simp only [hxr, har, ← EReal.coe_mul, ← coe_sum]
  exact congrArg _ (two_hop_real (fun n m => ar b n m) (fun n => xr b n f) m)

/-- The first result in the kernel's form and in the reference's form, on real data. -/
theorem f2K_eq_f2R (hx : ∀ b n f, ∃ r : ℝ, x b n f = (r : EReal))
    (hat : ∀ b n m, ∃ r : ℝ, at_ b n m = (r : EReal)) : f2K x w at_ = f2R x w at_ := by
  funext b m u
  unfold f2K f2R f1
  rw [h2K_eq_h2R x at_ hx hat, h1_eq_h1R x at_]

end Cert.Algebra

end
-- ==== Proof.Algebra.lean ====
/-
  The pure mathematics the certificate rests on, gathered: on real inputs the attention weights are real,
  and on real data the two arrangements of the second hop give the same first result.
-/
import proofs.«104206_j73323681677635_2_alg».proof.Proof.AlgebraAttn
import proofs.«104206_j73323681677635_2_alg».proof.Proof.AlgebraHops
-- ==== Proof.BridgeF2.lean ====
/-
  The kernel's first result is the reference's form of it, on real inputs.

  The second region is entered with the first region's second attention array (attn) and f0 array (f0), x as
  launched, and the last two weight matrices as the host slice left them. Its output array holds, entry by
  entry, the fused two-hop function of those, which is the kernel's arrangement attnᵀ·(attnᵀ·x) of the first
  result. When every input entry is real, every attn entry is real, and the kernel's arrangement equals the
  reference's (attn·attn)ᵀ·x.
-/
import proofs.«104206_j73323681677635_2_alg».proof.Proof.BridgeAttn
import proofs.«104206_j73323681677635_2_alg».proof.Proof.ValR1
import proofs.«104206_j73323681677635_2_alg».proof.Proof.Algebra

noncomputable section

namespace Cert.Bridge

open Idealize.ShloMosaic Idealize.ShloMosaic.TcCoe Idealize.SL.Sem Idealize.ShloMosaic.ValueIdx
open Cert.KernelIdeal Cert.KernelIdeal.Gen Cert.KernelIdeal.Fr Cert.KernelIdeal.Val Cert.Spec

/-- The fused two-hop function over region-entry contents that are attn, x, f0 and the two weight matrices
    is the kernel's form of the first result. -/
theorem hop_eq (V : (c : Dev nD) → (b : Ref sig .tc) → Buf (Elt Ideal) ((c : Thread nD τ).loc b)) (c : Dev nD)
    (X : XT) (Wt : WT) (at_ : Fin 8 → Fin 2048 → Fin 2048 → EReal)
    (h91 : ∀ b n k, (V c main_v9_1 : S8x2048x2048.Idx → EReal) (ix3 b n k) = at_ b n k)
    (h0 : ∀ b n f, (V c main_arg0 : S8x2048x128.Idx → EReal) (ix3 b n f) = X b n f)
    (h92 : ∀ b n u, (V c main_v9_2 : S8x2048x128.Idx → EReal) (ix3 b n u) = f0 X Wt b n u)
    (h10a : ∀ f u, (V c main_v10 : S2x128x128.Idx → EReal) (ix3 0 f u) = Wt 1 f u)
    (h10b : ∀ f u, (V c main_v10 : S2x128x128.Idx → EReal) (ix3 1 f u) = Wt 2 f u)
    (b : Fin 8) (k : Fin 2048) (u : Fin 128) :
    hopOut (fun n m => (V c main_v9_1 : S8x2048x2048.Idx → EReal) (ix3 b n m))
        (fun n f => (V c main_arg0 : S8x2048x128.Idx → EReal) (ix3 b n f))
        (fun m u => (V c main_v9_2 : S8x2048x128.Idx → EReal) (ix3 b m u))
        (fun f u => (V c main_v10 : S2x128x128.Idx → EReal) (ix3 0 f u))
        (fun f u => (V c main_v10 : S2x128x128.Idx → EReal) (ix3 1 f u)) k u
      = f2K X Wt at_ b k u := by
  simp only [h91, h0, h92, h10a, h10b]
  exact hopOut_eq_f2K X Wt at_ b k u

variable (m : (ℓ : Loc nD τ sig) → Buf (Elt Ideal) ℓ) (ρ : Dev nD → PrngReg)

/-- The second region is entered with the last two weight matrices. -/
theorem V3_v10_apply (c : Dev nD) (k : Fin 2) (f u : Fin 128) :
    (V3 m ρ c main_v10 : S2x128x128.Idx → EReal) (ix3 k f u)
      = (m ((c : Thread nD τ).loc main_arg2) : S3x128x128.Idx → EReal) (ix3 ⟨k.val + 1, by omega⟩ f u) := by
  rw [V3_v10, HostVals.v10_apply, W2_arg2]

/-- The kernel's first result is the reference's form of it over the launch contents, when those are real. -/
theorem kernel_f2_apply (c : Dev nD)
    (hx : ∀ i, ∃ r : ℝ, (m ((c : Thread nD τ).loc main_arg0) : S8x2048x128.Idx → EReal) i = (r : EReal))
    (hadj : ∀ i, ∃ r : ℝ, (m ((c : Thread nD τ).loc main_arg1) : S2048x2048.Idx → EReal) i = (r : EReal))
    (hw : ∀ i, ∃ r : ℝ, (m ((c : Thread nD τ).loc main_arg2) : S3x128x128.Idx → EReal) i = (r : EReal))
    (hai : ∀ i, ∃ r : ℝ, (m ((c : Thread nD τ).loc main_arg3) : S128x2048.Idx → EReal) i = (r : EReal))
    (haj : ∀ i, ∃ r : ℝ, (m ((c : Thread nD τ).loc main_arg4) : S128x2048.Idx → EReal) i = (r : EReal))
    (b : Fin 8) (k : Fin 2048) (u : Fin 128) :
    (W4 m ρ c (Proc.devRef .tc main_v11) : S8x2048x128.Idx → EReal) (ix3 b k u)
      = f2R (toX (m ((c : Thread nD τ).loc main_arg0))) (toW (m ((c : Thread nD τ).loc main_arg2)))
          (attn (toX (m ((c : Thread nD τ).loc main_arg0))) (toAdj (m ((c : Thread nD τ).loc main_arg1)))
            (toW (m ((c : Thread nD τ).loc main_arg2))) (toA (m ((c : Thread nD τ).loc main_arg3)))
            (toA (m ((c : Thread nD τ).loc main_arg4)))) b k u := by
  have hX : ∀ b n f, ∃ r : ℝ, toX (m ((c : Thread nD τ).loc main_arg0)) b n f = (r : EReal) :=
    fun b n f => hx (ix3 b n f)
  have hat := Cert.Algebra.attn_real (toX (m ((c : Thread nD τ).loc main_arg0)))
    (toAdj (m ((c : Thread nD τ).loc main_arg1))) (toW (m ((c : Thread nD τ).loc main_arg2)))
    (toA (m ((c : Thread nD τ).loc main_arg3))) (toA (m ((c : Thread nD τ).loc main_arg4)))
    hX (fun n k => hadj (ix2 n k)) (fun k f u => hw (ix3 k f u)) (fun u k => hai (ix2 u k)) (fun u k => haj (ix2 u k))
  rw [W4_v11, arr1_4]
  refine (hop_eq (V3 m ρ) c _ (toW (m ((c : Thread nD τ).loc main_arg2))) _ ?_ ?_ ?_ ?_ ?_ b k u).trans
    (congrFun (congrFun (congrFun (Cert.Algebra.f2K_eq_f2R _ _ _ hX hat) b) k) u)
  · intro b n k; rw [V3_v9_1]; exact arr6_apply m ρ c b n k
  · intro b n f; rw [V3_arg0]; rfl
  · intro b n u; rw [V3_v9_2]; exact arr7_apply m ρ c b n u
  · intro f u; exact (V3_v10_apply m ρ c 0 f u).trans rfl
  · intro f u; exact (V3_v10_apply m ρ c 1 f u).trans rfl

end Cert.Bridge

end
-- ==== Proof.FiniteIn.lean ====
/-
  The finiteness precondition, read back: when the entrywise test |a| < +∞ holds of all five argument arrays,
  every entry of each of them is a real number.
-/
import proofs.«104206_j73323681677635_2_alg».proof.Pre_finite_inputs
import proofs.«104206_j73323681677635_2_alg».proof.Proof.LibRealSoftmax
import Idealize.ShloMosaic.Lib.ReduceAll
import Idealize.ShloMosaic.Lib.ValueIdx
import Idealize.ShloMosaic.Lib.Pipeline.Value

noncomputable section

namespace Cert.FiniteIn

open Idealize.ShloMosaic Cert.Pre_finite_inputs

/-- The scalar shape has one index. -/
instance : Subsingleton S_.Idx := ⟨fun a b => funext fun d => d.elim0⟩

/-- One array's test: when `all (|a| < +∞)` is 1, every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32))) init hr hu
          ValueIdx.ix0 = 1#1)
    (i : s.Idx) : ∃ r : ℝ, a i = (r : EReal) := by
  have h1 := Host.reduce_andi_all _ init hr hu ValueIdx.ix0 e i
  refine Cert.LibRealSoftmax.real_of_test (a i) ?_
  have hbc : broadcastInDim s ![] hb (constant (F := Ideal) S_ .f32 0x7F800000#32) i
      = Ideal.ofBits .f32 0x7F800000#32 :=
    broadcastInDim_apply _ hb (constant (F := Ideal) S_ .f32 0x7F800000#32) i ValueIdx.ix0 (fun d => d.elim0)
  rw [ValueIdx.cmpf_apply, hbc] at h1
  exact h1

/-- The precondition makes every entry of every argument a real number. -/
theorem real_of_pre [Facts] (x : (⟨3, ![8, 2048, 128]⟩ : Shape).Idx → EReal) (adj : (⟨2, ![2048, 2048]⟩ : Shape).Idx → EReal)
    (w : (⟨3, ![3, 128, 128]⟩ : Shape).Idx → EReal) (ai aj : (⟨2, ![128, 2048]⟩ : Shape).Idx → EReal)
    (h : fn (F := Ideal) x adj w ai aj = fun _ => 1#1) :
    (∀ i, ∃ r : ℝ, x i = (r : EReal)) ∧ (∀ i, ∃ r : ℝ, adj i = (r : EReal)) ∧ (∀ i, ∃ r : ℝ, w i = (r : EReal))
      ∧ (∀ i, ∃ r : ℝ, ai i = (r : EReal)) ∧ (∀ i, ∃ r : ℝ, aj i = (r : EReal)) := by
  have h0 := congrFun h ValueIdx.ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all x _ _ _ _ e0, real_of_all adj _ _ _ _ e1, real_of_all w _ _ _ _ e2,
    real_of_all ai _ _ _ _ e3, real_of_all aj _ _ _ _ e4⟩

end Cert.FiniteIn

end
-- ==== Proof.Bridge.lean ====
/-
  The two programs, from memories that agree on the five arguments, end with equal results.

  The kernel's run leaves its two result arrays at the last boundary's contents; entry by entry those are attn
  of the launch contents of the arguments and, the inputs being real by the precondition, the reference's form
  of the first result. The reference's run leaves its two results at the same two functions of its own launch
  contents, which are the kernel's by the agreement of the memories.
-/
import proofs.«104206_j73323681677635_2_alg».proof.Proof.BridgeF2
import proofs.«104206_j73323681677635_2_alg».proof.Proof.FrMain
import proofs.«104206_j73323681677635_2_alg».proof.Proof.RefSpec
import proofs.«104206_j73323681677635_2_alg».proof.Proof.FiniteIn
import proofs.«104206_j73323681677635_2_alg».proof.Defs
import proofs.«104206_j73323681677635_2_alg».proof.Proof.Gen.KernelIdeal
import proofs.«104206_j73323681677635_2_alg».proof.Proof.Gen.ReferenceIdeal
import proofs.«104206_j73323681677635_2_alg».proof.Proof.Gen.Pre_finite_inputs

noncomputable section

namespace Cert.Bridge

open Idealize.ShloMosaic Idealize.ShloMosaic.TcCoe Idealize.SL.Sem Idealize.ShloMosaic.ValueIdx
open Cert.KernelIdeal Cert.KernelIdeal.Gen Cert.KernelIdeal.Fr Cert.Spec
open Cert.ReferenceIdeal.RefSpec (R35 R48 ref_attn_apply ref_f2_apply ref_run)

variable (m : (ℓ : Loc nD τ sig) → Buf (Elt Ideal) ℓ) (ρ : Dev nD → PrngReg)

/-- The kernel's second result is the reference's term of the launch contents of the arguments. -/
theorem kernel_attn (c : Dev nD) :
    (W4 m ρ c (Proc.devRef .tc main_v9_0) : S8x2048x2048.Idx → EReal)
      = R35 (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  obtain ⟨b, n, k, rfl⟩ : ∃ (b : Fin 8) (n k : Fin 2048), i = ix3 b n k := ⟨i 0, i 1, i 2, eq_ix3 i⟩
  rw [kernel_attn_apply, ref_attn_apply]

/-- The kernel's first result is the reference's term of the launch contents of the arguments, when those are real. -/
theorem kernel_f2 (c : Dev nD)
    (hx : ∀ i, ∃ r : ℝ, (m ((c : Thread nD τ).loc main_arg0) : S8x2048x128.Idx → EReal) i = (r : EReal))
    (hadj : ∀ i, ∃ r : ℝ, (m ((c : Thread nD τ).loc main_arg1) : S2048x2048.Idx → EReal) i = (r : EReal))
    (hw : ∀ i, ∃ r : ℝ, (m ((c : Thread nD τ).loc main_arg2) : S3x128x128.Idx → EReal) i = (r : EReal))
    (hai : ∀ i, ∃ r : ℝ, (m ((c : Thread nD τ).loc main_arg3) : S128x2048.Idx → EReal) i = (r : EReal))
    (haj : ∀ i, ∃ r : ℝ, (m ((c : Thread nD τ).loc main_arg4) : S128x2048.Idx → EReal) i = (r : EReal)) :
    (W4 m ρ c (Proc.devRef .tc main_v11) : S8x2048x128.Idx → EReal)
      = R48 (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  obtain ⟨b, k, u, rfl⟩ : ∃ (b : Fin 8) (k : Fin 2048) (u : Fin 128), i = ix3 b k u := ⟨i 0, i 1, i 2, eq_ix3 i⟩
  rw [kernel_f2_apply m ρ c hx hadj hw hai haj, ref_f2_apply]

/-- At the extended reals the two programs, from memories agreeing on the arguments, both run, end with equal
    results and leave the arguments unchanged. -/
theorem algebraic : Cert.algebraic_KernelIdeal_ReferenceIdeal := by
  intro m ρ m' ρ' hpre hagree
  refine ⟨fun c => R48 (m ((c : Thread nD τ).loc main_arg0)) (m ((c : Thread nD τ).loc main_arg1))
      (m ((c : Thread nD τ).loc main_arg2)) (m ((c : Thread nD τ).loc main_arg3)) (m ((c : Thread nD τ).loc main_arg4)),
    fun c => R35 (m ((c : Thread nD τ).loc main_arg0)) (m ((c : Thread nD τ).loc main_arg1))
      (m ((c : Thread nD τ).loc main_arg2)) (m ((c : Thread nD τ).loc main_arg3)) (m ((c : Thread nD τ).loc main_arg4)),
    ?_, ?_⟩
  · refine (θ_run (Cert.KernelIdeal.defs (F := Ideal)) _ _).mono (fun r h c => ?_) (run_results m ρ)
    obtain ⟨hx, hadj, hw, hai, haj⟩ := Cert.FiniteIn.real_of_pre _ _ _ _ _ (hpre c)
    exact ⟨(h c).1.trans (kernel_f2 m ρ c hx hadj hw hai haj), (h c).2.1.trans (kernel_attn m ρ c), (h c).2.2⟩
  · refine (θ_run (Cert.ReferenceIdeal.defs (F := Ideal)) _ _).mono (fun r h c => ?_) (ref_run m' ρ')
    refine ⟨(h c).1.trans ?_, (h c).2.1.trans ?_, (h c).2.2⟩
    · rw [(hagree c).1, (hagree c).2.1, (hagree c).2.2.1, (hagree c).2.2.2.1, (hagree c).2.2.2.2]
    · rw [(hagree c).1, (hagree c).2.1, (hagree c).2.2.1, (hagree c).2.2.2.1, (hagree c).2.2.2.2]

end Cert.Bridge

end
-- ==== Proof.lean ====
/-
  The certificate of the two-hop graph attention block. Both programs compute, per batch element, the column
  softmax attn of masked logits over f0 = x·w₀ times adj + I, and the features max (h2·w₂ + (h1·w₁ + f0), 0);
  the kernel forms h2 = attnᵀ·(attnᵀ·x) in two fused regions, the reference h2 = (attn·attn)ᵀ·x. On real
  inputs every attn entry is real, so the two arrangements agree on the extended reals; every program runs,
  terminates, and leaves its five argument arrays as launched.
-/
import proofs.«104206_j73323681677635_2_alg».proof.Defs
import proofs.«104206_j73323681677635_2_alg».proof.Proof.Gen.Kernel
import proofs.«104206_j73323681677635_2_alg».proof.Proof.Gen.Kernel.Skeleton
import proofs.«104206_j73323681677635_2_alg».proof.Proof.Gen.Kernel.Launch
import proofs.«104206_j73323681677635_2_alg».proof.Proof.Gen.Kernel.Regions
import proofs.«104206_j73323681677635_2_alg».proof.Proof.Gen.Kernel.Points
import proofs.«104206_j73323681677635_2_alg».proof.Proof.Gen.KernelIdeal
import proofs.«104206_j73323681677635_2_alg».proof.Proof.Gen.KernelIdeal.Skeleton
import proofs.«104206_j73323681677635_2_alg».proof.Proof.Gen.KernelIdeal.Launch
import proofs.«104206_j73323681677635_2_alg».proof.Proof.Gen.KernelIdeal.Regions
import proofs.«104206_j73323681677635_2_alg».proof.Proof.Gen.KernelIdeal.Points
import proofs.«104206_j73323681677635_2_alg».proof.Proof.Gen.ReferenceIdeal
import proofs.«104206_j73323681677635_2_alg».proof.Proof.Gen.Pre_finite_inputs
import proofs.«104206_j73323681677635_2_alg».proof.Proof.KFrMain
import proofs.«104206_j73323681677635_2_alg».proof.Proof.FrMain
import proofs.«104206_j73323681677635_2_alg».proof.Proof.RefSpecFrame
import proofs.«104206_j73323681677635_2_alg».proof.Proof.Bridge
import Idealize.ShloMosaic.Adequacy
import Idealize.ShloMosaic.Init

noncomputable section

namespace Cert.Proof

open Idealize.ShloMosaic Idealize.SL.Sem

/-- The bit-exact kernel runs and leaves its arguments as launched. -/
theorem frame_kernel : Cert.frame_Kernel := fun m ρ _ => Cert.Kernel.Fr.frame m ρ

/-- The kernel at the extended reals runs and leaves its arguments as launched. -/
theorem frame_kernelIdeal : Cert.frame_KernelIdeal := fun m ρ _ => Cert.KernelIdeal.Fr.frame m ρ

/-- The reference at the extended reals runs and leaves its arguments as launched. -/
theorem frame_referenceIdeal : Cert.frame_ReferenceIdeal := Cert.ReferenceIdeal.RefSpec.ref_frame

/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
